-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x1024 : Shape := ⟨3, ![8, 4096, 1024]⟩
abbrev S1024x1024 : Shape := ⟨2, ![1024, 1024]⟩
abbrev S_ : Shape := ⟨0, ![]⟩

class Facts : Prop where
  bcast_S_S8x4096x1024 : S_.BroadcastsInDim S8x4096x1024 (![] : Fin 0 → Fin S8x4096x1024.rank)
  reducesTo_S8x4096x1024_S_d0_1_2 : S8x4096x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_arg4 : FVec F S1024x1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  main_v23

def fn {F : FTy → Type} [FloatOps F] (main_arg0 : FVec F S8x4096x1024 .f32) (main_arg1 : FVec F S1024x1024 .f32) (main_arg2 : FVec F S1024x1024 .f32) (main_arg3 : FVec F S1024x1024 .f32) (main_arg4 : FVec F S1024x1024 .f32) : IVec S_ 1 :=
  let main_v0 : FVec F S8x4096x1024 .f32 := Host.absf main_arg0
  let main_cst : FVec F S_ .f32 := constant S_ .f32 0x7F800000#32
  let main_v1 : FVec F S8x4096x1024 .f32 := broadcastInDim S8x4096x1024 ![] bcast_S_S8x4096x1024 main_cst
  let main_v2 : IVec S8x4096x1024 1 := cmpf .olt main_v0 main_v1
  let main_c : IVec S_ 1 := constantI S_ 1 1#1
  let main_v3 : IVec S_ 1 := (fun x v => Host.reduce IntOp.andi x v reducesTo_S8x4096x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_v13 main_v16
-- ==== Kernel.lean ====
abbrev S8x4096x1024 : Shape := ⟨3, ![8, 4096, 1024]⟩
abbrev S1024x1024 : Shape := ⟨2, ![1024, 1024]⟩
abbrev S1x512x1024 : Shape := ⟨3, ![1, 512, 1024]⟩
abbrev S512x1024 : Shape := ⟨2, ![512, 1024]⟩
abbrev S_ : Shape := ⟨0, ![]⟩
abbrev S8x1024 : Shape := ⟨2, ![8, 1024]⟩
abbrev S8x1x1024 : Shape := ⟨3, ![8, 1, 1024]⟩
abbrev S8x1024x1024 : Shape := ⟨3, ![8, 1024, 1024]⟩
abbrev S1x1x1024 : Shape := ⟨3, ![1, 1, 1024]⟩
abbrev S1x1024x1024 : Shape := ⟨3, ![1, 1024, 1024]⟩
abbrev S1x1024 : Shape := ⟨2, ![1, 1024]⟩

abbrev nBuf : Space → Nat
  | .hbm => 36
  | .vmem => 29
  | .smem => 0
  | _ => 0

abbrev bufTy : (tb : Table) → Fin (tcTables nBuf tb) → BufTy
  | .hbm, ⟨0, _⟩ => ⟨S8x4096x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .bf16⟩
  | .hbm, ⟨6, _⟩ => ⟨S1024x1024, .bf16⟩
  | .hbm, ⟨7, _⟩ => ⟨S1024x1024, .bf16⟩
  | .hbm, ⟨8, _⟩ => ⟨S1024x1024, .bf16⟩
  | .hbm, ⟨9, _⟩ => ⟨S8x4096x1024, .bf16⟩
  | .hbm, ⟨10, _⟩ => ⟨S8x4096x1024, .f32⟩
  | .hbm, ⟨11, _⟩ => ⟨S8x4096x1024, .f32⟩
  | .hbm, ⟨12, _⟩ => ⟨S8x4096x1024, .f32⟩
  | .hbm, ⟨13, _⟩ => ⟨S_, .f32⟩
  | .hbm, ⟨14, _⟩ => ⟨S8x1024, .f32⟩
  | .hbm, ⟨15, _⟩ => ⟨S8x1x1024, .f32⟩
  | .hbm, ⟨16, _⟩ => ⟨S8x1x1024, .f32⟩
  | .hbm, ⟨17, _⟩ => ⟨S8x4096x1024, .f32⟩
  | .hbm, ⟨18, _⟩ => ⟨S_, .f32⟩
  | .hbm, ⟨19, _⟩ => ⟨S8x1024, .f32⟩
  | .hbm, ⟨20, _⟩ => ⟨S8x1x1024, .f32⟩
  | .hbm, ⟨21, _⟩ => ⟨S8x1x1024, .f32⟩
  | .hbm, ⟨22, _⟩ => ⟨S_, .f32⟩
  | .hbm, ⟨23, _⟩ => ⟨S8x1x1024, .f32⟩
  | .hbm, ⟨24, _⟩ => ⟨S8x1x1024, .f32⟩
  | .hbm, ⟨25, _⟩ => ⟨S_, .f32⟩
  | .hbm, ⟨26, _⟩ => ⟨S8x1x1024, .f32⟩
  | .hbm, ⟨27, _⟩ => ⟨S8x1x1024, .f32⟩
  | .hbm, ⟨28, _⟩ => ⟨S_, .f32⟩
  | .hbm, ⟨29, _⟩ => ⟨S8x1x1024, .f32⟩
  | .hbm, ⟨30, _⟩ => ⟨S8x1x1024, .f32⟩
  | .hbm, ⟨31, _⟩ => ⟨S_, .f32⟩
  | .hbm, ⟨32, _⟩ => ⟨S8x1x1024, .f32⟩
  | .hbm, ⟨33, _⟩ => ⟨S8x1x1024, .f32⟩
  | .hbm, ⟨34, _⟩ => ⟨S8x1024x1024, .bf16⟩
  | .hbm, ⟨35, _⟩ => ⟨S8x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1x512x1024, .bf16⟩
  | .local _ .vmem, ⟨7, _⟩ => ⟨S1x512x1024, .bf16⟩
  | .local _ .vmem, ⟨8, _⟩ => ⟨S1x512x1024, .f32⟩
  | .local _ .vmem, ⟨9, _⟩ => ⟨S1x512x1024, .f32⟩
  | .local _ .vmem, ⟨10, _⟩ => ⟨S1x512x1024, .f32⟩
  | .local _ .vmem, ⟨11, _⟩ => ⟨S1x512x1024, .f32⟩
  | .local _ .vmem, ⟨12, _⟩ => ⟨S1x512x1024, .f32⟩
  | .local _ .vmem, ⟨13, _⟩ => ⟨S1x512x1024, .f32⟩
  | .local _ .vmem, ⟨14, _⟩ => ⟨S1x512x1024, .f32⟩
  | .local _ .vmem, ⟨15, _⟩ => ⟨S1x512x1024, .f32⟩
  | .local _ .vmem, ⟨16, _⟩ => ⟨S1x1x1024, .f32⟩
  | .local _ .vmem, ⟨17, _⟩ => ⟨S1x1x1024, .f32⟩
  | .local _ .vmem, ⟨18, _⟩ => ⟨S1x1x1024, .f32⟩
  | .local _ .vmem, ⟨19, _⟩ => ⟨S1x1x1024, .f32⟩
  | .local _ .vmem, ⟨20, _⟩ => ⟨S1x1024x1024, .bf16⟩
  | .local _ .vmem, ⟨21, _⟩ => ⟨S1x1024x1024, .bf16⟩
  | .local _ .vmem, ⟨22, _⟩ => ⟨S1024x1024, .f32⟩
  | .local _ .vmem, ⟨23, _⟩ => ⟨S1x512x1024, .bf16⟩
  | .local _ .vmem, ⟨24, _⟩ => ⟨S1x512x1024, .bf16⟩
  | .local _ .vmem, ⟨25, _⟩ => ⟨S1x1024x1024, .bf16⟩
  | .local _ .vmem, ⟨26, _⟩ => ⟨S1x1024x1024, .bf16⟩
  | .local _ .vmem, ⟨27, _⟩ => ⟨S1x512x1024, .f32⟩
  | .local _ .vmem, ⟨28, _⟩ => ⟨S1x512x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg4_1 : Ref sig .tc := ⟨.vmem, 21, rfl⟩
abbrev cc1_scratch0 : Ref sig .tc := ⟨.vmem, 22, rfl⟩
abbrev cc2_stg0_0 : Ref sig .tc := ⟨.vmem, 23, rfl⟩
abbrev cc2_stg0_1 : Ref sig .tc := ⟨.vmem, 24, rfl⟩
abbrev cc2_stg1_0 : Ref sig .tc := ⟨.vmem, 25, rfl⟩
abbrev cc2_stg1_1 : Ref sig .tc := ⟨.vmem, 26, rfl⟩
abbrev cc2_stg2_0 : Ref sig .tc := ⟨.vmem, 27, rfl⟩
abbrev cc2_stg2_1 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem4_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem2_1 : DmaSem sig := 27

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev grid1 : Pipeline.Grid := ⟨2, ![8, 8], ![false, false]⟩

def k1_cond2 (i : grid1.Coords) : BitVec 1 :=
  let arg1 : BitVec 32 := BitVec.ofNat 32 (i 1).val
  let c7_i32 : BitVec 32 := 7#32
  let v23 : BitVec 1 := Scalar.cmpi .eq arg1 c7_i32
  let v24 : BitVec 32 := Scalar.extui v23
  let c0_i32_16 : BitVec 32 := 0#32
  let v25 : BitVec 1 := Scalar.cmpi .ne v24 c0_i32_16
  v25

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x512x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x1x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1x1024x1024 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev grid2 : Pipeline.Grid := ⟨2, ![8, 8], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 2 → Memref sig .tc .vmem S1x512x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x1024x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S1x512x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

class Facts₀ : Prop where
  bitsLt_bf16_f32 : FTy.bits .bf16 < FTy.bits .f32
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  shapeCasts_S512x1024_S1x512x1024 : S512x1024.ShapeCasts S1x512x1024
  packedbf16_S1x512x1024_S1x512x1024_0_0_0 : (Rect.unit (s := S1x512x1024) ![0, 0, 0] S1x512x1024.size inb_S1x512x1024_S1x512x1024_0_0_0).PackedRows (EltTy.packing .bf16)
  reducesTo_S8x4096x1024_S8x1024_d1 : S8x4096x1024.ReducesTo [1] S8x1024
  h_S_ : 0 < S_.numel
  bcast_S8x1024_S8x1x1024_0_2 : S8x1024.BroadcastsInDim S8x1x1024 (![0, 2] : Fin 2 → Fin S8x1x1024.rank)
  bcast_S_S8x1x1024 : S_.BroadcastsInDim S8x1x1024 (![] : Fin 0 → Fin S8x1x1024.rank)
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  broadcasts_S1x1024_S512x1024 : S1x1024.Broadcasts S512x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  shapeCasts_S1024x1024_S1x1024x1024 : S1024x1024.ShapeCasts S1x1024x1024
  packedbf16_S1x1024x1024_S1x1024x1024_0_0_0 : (Rect.unit (s := S1x1024x1024) ![0, 0, 0] S1x1024x1024.size inb_S1x1024x1024_S1x1024x1024_0_0_0).PackedRows (EltTy.packing .bf16)
  dot_S512x1024_S1024x1024_S512x1024_1_0_0_1_n_n_wf : DotDims.WF S512x1024 S1024x1024 S512x1024 [1] [0] [0] [1] [] []
  dot_S512x1024_S512x1024_S1024x1024_0_0_1_1_n_n_wf : DotDims.WF S512x1024 S512x1024 S1024x1024 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S8x4096x1024.size a
  hwx0_0 : ∀ i : grid0.Coords, EltTy.bits .f32 = 32 ∨ (Rect.block (s := S8x4096x1024) S1x512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S1024x1024.size a
  hwx0_4 : ∀ i : grid0.Coords, EltTy.bits .bf16 = 32 ∨ (Rect.block (s := S1024x1024) S1024x1024.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512x1024.size a ≤ S8x4096x1024.size a
  hwx0_5 : ∀ i : grid0.Coords, EltTy.bits .bf16 = 32 ∨ (Rect.block (s := S8x4096x1024) S1x512x1024.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x512x1024.size a ≤ S8x4096x1024.size a
  hwx0_6 : ∀ i : grid0.Coords, EltTy.bits .f32 = 32 ∨ (Rect.block (s := S8x4096x1024) S1x512x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x512x1024.size a ≤ S8x4096x1024.size a
  hwx0_7 : ∀ i : grid0.Coords, EltTy.bits .f32 = 32 ∨ (Rect.block (s := S8x4096x1024) S1x512x1024.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x1024.size a ≤ S8x4096x1024.size a
  hwx1_0 : ∀ i : grid1.Coords, EltTy.bits .f32 = 32 ∨ (Rect.block (s := S8x4096x1024) S1x512x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x512x1024.size a ≤ S8x4096x1024.size a
  hwx1_1 : ∀ i : grid1.Coords, EltTy.bits .f32 = 32 ∨ (Rect.block (s := S8x4096x1024) S1x512x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x1024.size a ≤ S8x1x1024.size a
  hwx1_2 : ∀ i : grid1.Coords, EltTy.bits .f32 = 32 ∨ (Rect.block (s := S8x1x1024) S1x1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1x1024.size a ≤ S8x1x1024.size a
  hwx1_3 : ∀ i : grid1.Coords, EltTy.bits .f32 = 32 ∨ (Rect.block (s := S8x1x1024) S1x1x1024.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x1024x1024.size a ≤ S8x1024x1024.size a
  hwx1_4 : ∀ i : grid1.Coords, EltTy.bits .bf16 = 32 ∨ (Rect.block (s := S8x1024x1024) S1x1024x1024.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x512x1024.size a ≤ S8x4096x1024.size a
  hwx2_0 : ∀ i : grid2.Coords, EltTy.bits .bf16 = 32 ∨ (Rect.block (s := S8x4096x1024) S1x512x1024.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x1024x1024.size a ≤ S8x1024x1024.size a
  hwx2_1 : ∀ i : grid2.Coords, EltTy.bits .bf16 = 32 ∨ (Rect.block (s := S8x1024x1024) S1x1024x1024.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x512x1024.size a ≤ S8x4096x1024.size a
  hwx2_2 : ∀ i : grid2.Coords, EltTy.bits .f32 = 32 ∨ (Rect.block (s := S8x4096x1024) S1x512x1024.size (cc2_transform_2 i) (hinb2_2 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S512x1024_S512x1024_S1024x1024_0_0_1_1_n_n : DotDims S512x1024 S512x1024 S1024x1024 where
  lhsContracting := [0]
  rhsContracting := [0]
  lhsNonContracting := [1]
  rhsNonContracting := [1]
  lhsBatch := []
  rhsBatch := []
  wf := dot_S512x1024_S512x1024_S1024x1024_0_0_1_1_n_n_wf

abbrev win0_0 : Pipeline.Window sig grid0 :=
  Pipeline.Window.ofSpec (Memref.whole main_arg0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1024x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4_0) S1x512x1024.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v4_1) S1x512x1024.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v4_2) S1x512x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v4_1) S1x512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4_2) S1x512x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v16) S1x1x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v20) S1x1x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v21) S1x1024x1024.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

abbrev win2_0 : Pipeline.Window sig grid2 :=
  Pipeline.Window.ofSpec (Memref.whole main_v4_0) S1x512x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v21) S1x1024x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v22) S1x512x1024.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S8x4096x1024 : Shape := ⟨3, ![8, 4096, 1024]⟩
abbrev S1024x1024 : Shape := ⟨2, ![1024, 1024]⟩
abbrev S_ : Shape := ⟨0, ![]⟩
abbrev S8x1024 : Shape := ⟨2, ![8, 1024]⟩
abbrev S8x1x1024 : Shape := ⟨3, ![8, 1, 1024]⟩
abbrev S8x1024x1024 : Shape := ⟨3, ![8, 1024, 1024]⟩

abbrev nBuf : Space → Nat
  | .hbm => 41
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S8x4096x1024, .f32⟩
  | .hbm, ⟨6, _⟩ => ⟨S8x4096x1024, .f32⟩
  | .hbm, ⟨7, _⟩ => ⟨S_, .f32⟩
  | .hbm, ⟨8, _⟩ => ⟨S8x4096x1024, .f32⟩
  | .hbm, ⟨9, _⟩ => ⟨S8x4096x1024, .f32⟩
  | .hbm, ⟨10, _⟩ => ⟨S_, .f32⟩
  | .hbm, ⟨11, _⟩ => ⟨S8x4096x1024, .f32⟩
  | .hbm, ⟨12, _⟩ => ⟨S8x4096x1024, .f32⟩
  | .hbm, ⟨13, _⟩ => ⟨S8x4096x1024, .f32⟩
  | .hbm, ⟨14, _⟩ => ⟨S8x4096x1024, .f32⟩
  | .hbm, ⟨15, _⟩ => ⟨S8x4096x1024, .f32⟩
  | .hbm, ⟨16, _⟩ => ⟨S8x4096x1024, .f32⟩
  | .hbm, ⟨17, _⟩ => ⟨S_, .f32⟩
  | .hbm, ⟨18, _⟩ => ⟨S8x1024, .f32⟩
  | .hbm, ⟨19, _⟩ => ⟨S8x1x1024, .f32⟩
  | .hbm, ⟨20, _⟩ => ⟨S8x1x1024, .f32⟩
  | .hbm, ⟨21, _⟩ => ⟨S_, .f32⟩
  | .hbm, ⟨22, _⟩ => ⟨S8x1x1024, .f32⟩
  | .hbm, ⟨23, _⟩ => ⟨S8x1x1024, .f32⟩
  | .hbm, ⟨24, _⟩ => ⟨S8x4096x1024, .f32⟩
  | .hbm, ⟨25, _⟩ => ⟨S8x4096x1024, .f32⟩
  | .hbm, ⟨26, _⟩ => ⟨S8x4096x1024, .f32⟩
  | .hbm, ⟨27, _⟩ => ⟨S_, .f32⟩
  | .hbm, ⟨28, _⟩ => ⟨S8x1024, .f32⟩
  | .hbm, ⟨29, _⟩ => ⟨S8x1x1024, .f32⟩
  | .hbm, ⟨30, _⟩ => ⟨S8x1x1024, .f32⟩
  | .hbm, ⟨31, _⟩ => ⟨S_, .f32⟩
  | .hbm, ⟨32, _⟩ => ⟨S8x1x1024, .f32⟩
  | .hbm, ⟨33, _⟩ => ⟨S8x1x1024, .f32⟩
  | .hbm, ⟨34, _⟩ => ⟨S8x4096x1024, .f32⟩
  | .hbm, ⟨35, _⟩ => ⟨S8x4096x1024, .f32⟩
  | .hbm, ⟨36, _⟩ => ⟨S8x1024x1024, .f32⟩
  | .hbm, ⟨37, _⟩ => ⟨S_, .f32⟩
  | .hbm, ⟨38, _⟩ => ⟨S8x1024x1024, .f32⟩
  | .hbm, ⟨39, _⟩ => ⟨S8x1024x1024, .f32⟩
  | .hbm, ⟨40, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_cst : Ref sig .tc := ⟨.hbm, 7, rfl⟩
abbrev main_call0_v0 : Ref sig .tc := ⟨.hbm, 8, rfl⟩
abbrev main_v2 : Ref sig .tc := ⟨.hbm, 9, rfl⟩
abbrev main_call1_cst : Ref sig .tc := ⟨.hbm, 10, rfl⟩
abbrev main_call1_v0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_call2_v0 : Ref sig .tc := ⟨.hbm, 16, rfl⟩
abbrev main_call2_cst : Ref sig .tc := ⟨.hbm, 17, rfl⟩
abbrev main_call2_v1 : Ref sig .tc := ⟨.hbm, 18, rfl⟩
abbrev main_call2_v2 : Ref sig .tc := ⟨.hbm, 19, rfl⟩
abbrev main_v7 : Ref sig .tc := ⟨.hbm, 20, rfl⟩
abbrev main_cst : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_call3_v0 : Ref sig .tc := ⟨.hbm, 26, rfl⟩
abbrev main_call3_cst : Ref sig .tc := ⟨.hbm, 27, rfl⟩
abbrev main_call3_v1 : Ref sig .tc := ⟨.hbm, 28, rfl⟩
abbrev main_call3_v2 : Ref sig .tc := ⟨.hbm, 29, rfl⟩
abbrev main_v12 : Ref sig .tc := ⟨.hbm, 30, rfl⟩
abbrev main_cst_0 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_call4_cst : Ref sig .tc := ⟨.hbm, 37, rfl⟩
abbrev main_call4_v0 : Ref sig .tc := ⟨.hbm, 38, rfl⟩
abbrev main_v18 : Ref sig .tc := ⟨.hbm, 39, rfl⟩
abbrev main_v19 : Ref sig .tc := ⟨.hbm, 40, rfl⟩

abbrev nD : Nat := 1
abbrev τ : Topo := Topo.v7x

variable {F : FTy → Type} [FloatOps F]

class Facts₀ : Prop where
  bcast_S_S8x4096x1024 : S_.BroadcastsInDim S8x4096x1024 (![] : Fin 0 → Fin S8x4096x1024.rank)
  reducesTo_S8x4096x1024_S8x1024_d1 : S8x4096x1024.ReducesTo [1] S8x1024
  h_S_ : 0 < S_.numel
  bcast_S8x1024_S8x1x1024_0_2 : S8x1024.BroadcastsInDim S8x1x1024 (![0, 2] : Fin 2 → Fin S8x1x1024.rank)
  bcast_S_S8x1x1024 : S_.BroadcastsInDim S8x1x1024 (![] : Fin 0 → Fin S8x1x1024.rank)
  bcast_S8x1x1024_S8x4096x1024_0_1_2 : S8x1x1024.BroadcastsInDim S8x4096x1024 (![0, 1, 2] : Fin 3 → Fin S8x4096x1024.rank)
  bcast_S_S8x1024x1024 : S_.BroadcastsInDim S8x1024x1024 (![] : Fin 0 → Fin S8x1024x1024.rank)
  dot_S8x4096x1024_S1024x1024_S8x4096x1024_2_0_01_1_n_n_wf : DotDims.WF S8x4096x1024 S1024x1024 S8x4096x1024 [2] [0] [0, 1] [1] [] []
  dot_S8x4096x1024_S8x4096x1024_S8x1024x1024_1_1_2_2_0_0_wf : DotDims.WF S8x4096x1024 S8x4096x1024 S8x1024x1024 [1] [1] [2] [2] [0] [0]
  dot_S8x4096x1024_S8x1024x1024_S8x4096x1024_2_1_1_2_0_0_wf : DotDims.WF S8x4096x1024 S8x1024x1024 S8x4096x1024 [2] [1] [1] [2] [0] [0]

variable [Facts₀]

def dot_S8x4096x1024_S1024x1024_S8x4096x1024_2_0_01_1_n_n : DotDims S8x4096x1024 S1024x1024 S8x4096x1024 where
  lhsContracting := [2]
  rhsContracting := [0]
  lhsNonContracting := [0, 1]
  rhsNonContracting := [1]
  lhsBatch := []
  rhsBatch := []
  wf := dot_S8x4096x1024_S1024x1024_S8x4096x1024_2_0_01_1_n_n_wf
def dot_S8x4096x1024_S8x4096x1024_S8x1024x1024_1_1_2_2_0_0 : DotDims S8x4096x1024 S8x4096x1024 S8x1024x1024 where
  lhsContracting := [1]
  rhsContracting := [1]
  lhsNonContracting := [2]
  rhsNonContracting := [2]
  lhsBatch := [0]
  rhsBatch := [0]
  wf := dot_S8x4096x1024_S8x4096x1024_S8x1024x1024_1_1_2_2_0_0_wf
def dot_S8x4096x1024_S8x1024x1024_S8x4096x1024_2_1_1_2_0_0 : DotDims S8x4096x1024 S8x1024x1024 S8x4096x1024 where
  lhsContracting := [2]
  rhsContracting := [1]
  lhsNonContracting := [1]
  rhsNonContracting := [2]
  lhsBatch := [0]
  rhsBatch := [0]
  wf := dot_S8x4096x1024_S8x1024x1024_S8x4096x1024_2_1_1_2_0_0_wf

class Facts : Prop extends Facts₀ where

variable [Facts]
-- ==== Proof.FrameK.R0.lean ====
/-
  Region 0 of the kernel's program: the first pallas_call, which at each of its 8 × 8 grid points multiplies one
  512 × 1024 block of rows of the input by the four weight matrices and stores three blocks — the gated product of the
  two query projections, the raw keys and the raw values. The body loads every window through the whole-buffer rectangle
  and stores each output whole, so what it leaves in each output's staging buffer is one piece: the stored value as a
  function of the input blocks. This module states that function per output window, proves the body's triple on whole
  staging memrefs, and gives the pipeline's proof data and body obligation at any buffer contents `V` the region is
  entered from.
-/
import proofs.«171922_j27779848471445_1_alg».proof.Proof.Gen.Kernel.Launch
import proofs.«171922_j27779848471445_1_alg».proof.Proof.Gen.Kernel.Skeleton
import proofs.«171922_j27779848471445_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, whether the point fetches it or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: whole-buffer rectangles -/

abbrev rA0 : Rect S1x512x1024 := Rect.unit (s := S1x512x1024) ![0, 0, 0] S1x512x1024.size inb_S1x512x1024_S1x512x1024_0_0_0
abbrev rW0 : Rect S1024x1024 := Rect.unit (s := S1024x1024) ![0, 0] S1024x1024.size inb_S1024x1024_S1024x1024_0_0

/-! ## What the body leaves in each output window's buffer -/

/-- The query block: the product of the two rectified projections of the row block. -/
def out0_5 (x0 : Vec F S1x512x1024 .f32) (x1 x2 : Vec F S1024x1024 .bf16) : Vec F S1x512x1024 .bf16 :=
  View.canon [⟨rA0, k0_pay2 (View.ld x0 rA0) (View.ld x1 rW0) (View.ld x2 rW0)⟩]
/-- The raw key block: the row block times the key weights. -/
def out0_6 (x0 : Vec F S1x512x1024 .f32) (x3 : Vec F S1024x1024 .bf16) : Vec F S1x512x1024 .f32 :=
  View.canon [⟨rA0, k0_pay3 (View.ld x0 rA0) (View.ld x3 rW0)⟩]
/-- The raw value block: the row block times the value weights. -/
def out0_7 (x0 : Vec F S1x512x1024 .f32) (x4 : Vec F S1024x1024 .bf16) : Vec F S1x512x1024 .f32 :=
  View.canon [⟨rA0, k0_pay4 (View.ld x0 rA0) (View.ld x4 rW0)⟩]

/-- One whole-buffer store covers the buffer. -/
theorem cover0_b (p0 : Vec F S1x512x1024 .bf16) (y : S1x512x1024.Idx) :
    ∃ pc ∈ ([⟨rA0, p0⟩] : List (View.Piece (Elt F) S1x512x1024 .bf16)), y ∈ pc.1.set :=
  View.cover_of_tiled [⟨rA0, p0⟩] S1x512x1024.size (by rfl) y
theorem cover0_f (p0 : Vec F S1x512x1024 .f32) (y : S1x512x1024.Idx) :
    ∃ pc ∈ ([⟨rA0, p0⟩] : List (View.Piece (Elt F) S1x512x1024 .f32)), y ∈ pc.1.set :=
  View.cover_of_tiled [⟨rA0, p0⟩] S1x512x1024.size (by rfl) y

/-! ## The body's triple -/

set_option maxHeartbeats 4000000 in
/-- On whole staging memrefs, the inputs' at contents `x0 … x4` and the outputs' at anything, the body runs to the
    continuation with the inputs' as they were and each output's at its function of the inputs. -/
theorem sound_kernel0 (c : Dev nD) (E : Set ℕ) (i : grid0.Coords)
    (arg2 : Memref sig .tc .vmem S1x512x1024 .f32) (harg2 : arg2.IsWhole) (arg3 : Memref sig .tc .vmem S1024x1024 .bf16) (harg3 : arg3.IsWhole)
    (arg4 : Memref sig .tc .vmem S1024x1024 .bf16) (harg4 : arg4.IsWhole) (arg5 : Memref sig .tc .vmem S1024x1024 .bf16) (harg5 : arg5.IsWhole)
    (arg6 : Memref sig .tc .vmem S1024x1024 .bf16) (harg6 : arg6.IsWhole) (arg7 : Memref sig .tc .vmem S1x512x1024 .bf16) (harg7 : arg7.IsWhole)
    (arg8 : Memref sig .tc .vmem S1x512x1024 .f32) (harg8 : arg8.IsWhole) (arg9 : Memref sig .tc .vmem S1x512x1024 .f32) (harg9 : arg9.IsWhole)
    (x0 : Vec F S1x512x1024 .f32) (x1 x2 x3 x4 : Vec F S1024x1024 .bf16) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
        ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ owns (c : Thread nD τ) arg7 fullShare (out0_5 x0 x1 x2) ∗ owns (c : Thread nD τ) arg8 fullShare (out0_6 x0 x3) ∗ owns (c : Thread nD τ) arg9 fullShare (out0_7 x0 x4)) -∗ K ⟨⟩))
      ⊢ wp frame (wpE (defs₀ (F := F)) Variants.none c none) E (cc0__stage_a_kernel i arg2 harg2 arg3 harg3 arg4 harg4 arg5 harg5 arg6 harg6 arg7 harg7 arg8 harg8 arg9 harg9) K := by
  simp only [cc0__stage_a_kernel_eq_skeleton]; unfold cc0__stage_a_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    try dsimp only
    exact View.read_writes_eq_canon _ _ _ (cover0_b _)
  isplitl [H6]
  · iexists _; isplitr
    swap; · iexact H6
    ipureintro
    try dsimp only
    exact View.read_writes_eq_canon _ _ _ (cover0_f _)
  iexists _; isplitr
  swap; · iexact H7
  ipureintro
  try dsimp only
  exact View.read_writes_eq_canon _ _ _ (cover0_f _)

/-! ## The pipeline's proof data -/

/-- The arrays as the region finds them; after the body at point `t` each input's buffer at its block and each
    output's at its function of the input blocks; the class's invariant (the scoped rest and the generator register,
    untouched); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t)
    | ⟨6, _⟩ => out0_6 (iblk0 V c 0 t) (iblk0 V c 3 t)
    | ⟨7, _⟩ => out0_7 (iblk0 V c 0 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0_5 (iblk0 V c 0 t) (iblk0 V c 1 t) (iblk0 V c 2 t) := by dsimp only [dat0]
theorem after0_6 (c : Dev nD) (t : Fin cfg0.N) : (dat0 V c).after 6 t = out0_6 (iblk0 V c 0 t) (iblk0 V c 3 t) := by dsimp only [dat0]
theorem after0_7 (c : Dev nD) (t : Fin cfg0.N) : (dat0 V c).after 7 t = out0_7 (iblk0 V c 0 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

set_option maxHeartbeats 1000000 in
/-- The body at any point: the inputs' memrefs hold their blocks, so the triple applies; the invariant and the core's
    dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ (grid0.coords t) _ _ _ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.FrameK.R1.lean ====
/- The frame half of the second region: the kernel whose accumulator is carried between grid points.
   Stated at the region-entry contents `V`, for any float instance: each window's block, the body's three runs
   (first, middle and last inner point), what the accumulator holds after each point, the proof data, the body
   obligation, and the invariant's two ends; and the pure equations the value proof reads the accumulation off. -/
import proofs.«171922_j27779848471445_1_alg».proof.Proof.Gen.Kernel.Launch
import proofs.«171922_j27779848471445_1_alg».proof.Proof.Gen.Kernel.Skeleton
import proofs.«171922_j27779848471445_1_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # The second region: the kernel that carries its accumulator between grid points -/

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is the entry contents and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is the entry contents and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is the entry contents and whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof
    data whose array is the entry contents and whose body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's two conditions, in closed form over the grid -/

/-- The first conditional's condition: the inner grid coordinate is zero. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)

/-- The second conditional's condition: the inner grid coordinate is seven. -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl
/-- Away from the last inner point the output window is idle and is not written back. -/
theorem idleAt1_4 : ∀ t : Fin cfg1.N, ¬cond1_1 (grid1.coords t) → cfg1.idle 4 (grid1.coords t) = true := by decide +kernel
theorem noFlush1_4 : ∀ t : Fin cfg1.N, ¬cond1_1 (grid1.coords t) → (cfg1.win 4).flush t = false := by decide +kernel
/-- At the last inner point it is live. -/
theorem liveAt1_4 : ∀ t : Fin cfg1.N, cond1_1 (grid1.coords t) → cfg1.idle 4 (grid1.coords t) = false := by decide +kernel

/-! ## Zero offsets, however the zeros are spelt -/

theorem z_S1024x1024 : (![0, 0] : Fin S1024x1024.rank → ℕ) = fun _ => 0 := by funext a; fin_cases a <;> rfl
theorem z_S1x512x1024 : (![0, 0, 0] : Fin S1x512x1024.rank → ℕ) = fun _ => 0 := by funext a; fin_cases a <;> rfl
theorem z_S1x1x1024 : (![0, 0, 0] : Fin S1x1x1024.rank → ℕ) = fun _ => 0 := by funext a; fin_cases a <;> rfl
theorem z_S1x1024x1024 : (![0, 0, 0] : Fin S1x1024x1024.rank → ℕ) = fun _ => 0 := by funext a; fin_cases a <;> rfl

/-! ## The body's three runs

Every load and store of the body is through the whole rectangle of its buffer, so each buffer's contents after the
body are a payload of the contents before it. -/

set_option maxHeartbeats 1000000 in
/-- At the first inner point: the accumulator, whatever it held, is zero-filled, then holds the zero fill plus this
    block's product; the output buffer is handed back as found. -/
theorem run1_first (c : Dev nD) (i : grid1.Coords) (arg2 : Memref sig .tc .vmem S1x512x1024 .f32) (harg2 : arg2.IsWhole) (arg3 : Memref sig .tc .vmem S1x512x1024 .f32) (harg3 : arg3.IsWhole) (arg4 : Memref sig .tc .vmem S1x1x1024 .f32) (harg4 : arg4.IsWhole) (arg5 : Memref sig .tc .vmem S1x1x1024 .f32) (harg5 : arg5.IsWhole) (arg6 : Memref sig .tc .vmem S1x1024x1024 .bf16) (harg6 : arg6.IsWhole) (arg7 : Memref sig .tc .vmem S1024x1024 .f32) (harg7 : arg7.IsWhole) (hc0 : cond1_0 i) (hc1 : ¬cond1_1 i)
    (x0 x1 : Vec F S1x512x1024 .f32) (x2 x3 : Vec F S1x1x1024 .f32) (xi4 : Vec F S1x1024x1024 .bf16)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ owns (c : Thread nD τ) arg6 fullShare xi4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3
        ∗ owns (c : Thread nD τ) arg6 fullShare xi4 ∗ owns (c : Thread nD τ) arg7 fullShare (k1_pay2 x0 x2 x1 x3 k1_pay1)) -∗ K ⟨⟩))
      ⊢ wp frame (wpE (defs₀ (F := F)) Variants.none c none) E (cc1__stage_b_kernel i arg2 harg2 arg3 harg3 arg4 harg4 arg5 harg5 arg6 harg6 arg7 harg7) K := by
  simp only [cc1__stage_b_kernel_eq_skeleton]; unfold cc1__stage_b_kernel_skel
  unfold owns
  iintro ⟨⟨%f0, %hf0, H0⟩, ⟨%f1, %hf1, H1⟩, ⟨%f2, %hf2, H2⟩, ⟨%f3, %hf3, H3⟩, ⟨%f4, %hf4, H4⟩, ⟨%ds, %fs, -, HS⟩, Hk⟩
  subst hf0; subst hf1; subst hf2; subst hf3; subst hf4
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact HS
  ipureintro
  sl_unfold_run_names
  refine (View.read_writes_eq_canon _ _ _ (fun y => ⟨_, List.mem_cons_self, View.mem_set_unit_zero z_S1024x1024 inb_S1024x1024_S1024x1024_0_0 y⟩)).trans ?_
  refine (View.canon_cons_unit_zero z_S1024x1024 _ _ _).trans ?_
  rw [View.readCov_unit_zero _ z_S1024x1024]
  simp only [View.readAt_eq_ld, View.ld_unit_zero (S := S1x512x1024) z_S1x512x1024, View.ld_unit_zero (S := S1x1x1024) z_S1x1x1024]

set_option maxHeartbeats 1000000 in
/-- At an inner point neither first nor last: the accumulator gains this block's product; the output buffer is
    handed back as found. -/
theorem run1_mid (c : Dev nD) (i : grid1.Coords) (arg2 : Memref sig .tc .vmem S1x512x1024 .f32) (harg2 : arg2.IsWhole) (arg3 : Memref sig .tc .vmem S1x512x1024 .f32) (harg3 : arg3.IsWhole) (arg4 : Memref sig .tc .vmem S1x1x1024 .f32) (harg4 : arg4.IsWhole) (arg5 : Memref sig .tc .vmem S1x1x1024 .f32) (harg5 : arg5.IsWhole) (arg6 : Memref sig .tc .vmem S1x1024x1024 .bf16) (harg6 : arg6.IsWhole) (arg7 : Memref sig .tc .vmem S1024x1024 .f32) (harg7 : arg7.IsWhole) (hc0 : ¬cond1_0 i) (hc1 : ¬cond1_1 i)
    (x0 x1 : Vec F S1x512x1024 .f32) (x2 x3 : Vec F S1x1x1024 .f32) (xi4 : Vec F S1x1024x1024 .bf16) (xs : Vec F S1024x1024 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ owns (c : Thread nD τ) arg6 fullShare xi4 ∗ owns (c : Thread nD τ) arg7 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3
        ∗ owns (c : Thread nD τ) arg6 fullShare xi4 ∗ owns (c : Thread nD τ) arg7 fullShare (k1_pay2 x0 x2 x1 x3 xs)) -∗ K ⟨⟩))
      ⊢ wp frame (wpE (defs₀ (F := F)) Variants.none c none) E (cc1__stage_b_kernel i arg2 harg2 arg3 harg3 arg4 harg4 arg5 harg5 arg6 harg6 arg7 harg7) K := by
  simp only [cc1__stage_b_kernel_eq_skeleton]; unfold cc1__stage_b_kernel_skel
  unfold owns
  iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
  subst hf0; subst hf1; subst hf2; subst hf3; subst hf4; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact HS
  ipureintro
  sl_unfold_run_names
  refine (View.read_writes_eq_canon _ _ _ (fun y => ⟨_, List.mem_cons_self, View.mem_set_unit_zero z_S1024x1024 inb_S1024x1024_S1024x1024_0_0 y⟩)).trans ?_
  refine (View.canon_cons_unit_zero z_S1024x1024 _ _ _).trans ?_
  simp only [View.readAt_eq_ld, View.ld_unit_zero (S := S1x512x1024) z_S1x512x1024, View.ld_unit_zero (S := S1x1x1024) z_S1x1x1024, View.ld_unit_zero (S := S1024x1024) z_S1024x1024]

set_option maxHeartbeats 1000000 in
/-- At the last inner point: the accumulator gains this block's product, and the output buffer, whatever it held,
    receives the rectified, rounded accumulator. -/
theorem run1_last (c : Dev nD) (i : grid1.Coords) (arg2 : Memref sig .tc .vmem S1x512x1024 .f32) (harg2 : arg2.IsWhole) (arg3 : Memref sig .tc .vmem S1x512x1024 .f32) (harg3 : arg3.IsWhole) (arg4 : Memref sig .tc .vmem S1x1x1024 .f32) (harg4 : arg4.IsWhole) (arg5 : Memref sig .tc .vmem S1x1x1024 .f32) (harg5 : arg5.IsWhole) (arg6 : Memref sig .tc .vmem S1x1024x1024 .bf16) (harg6 : arg6.IsWhole) (arg7 : Memref sig .tc .vmem S1024x1024 .f32) (harg7 : arg7.IsWhole) (hc0 : ¬cond1_0 i) (hc1 : cond1_1 i)
    (x0 x1 : Vec F S1x512x1024 .f32) (x2 x3 : Vec F S1x1x1024 .f32) (xs : Vec F S1024x1024 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ (∃ d, owns (c : Thread nD τ) arg6 fullShare d) ∗ owns (c : Thread nD τ) arg7 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3
        ∗ owns (c : Thread nD τ) arg6 fullShare (k1_pay3 (k1_pay2 x0 x2 x1 x3 xs)) ∗ owns (c : Thread nD τ) arg7 fullShare (k1_pay2 x0 x2 x1 x3 xs)) -∗ K ⟨⟩))
      ⊢ wp frame (wpE (defs₀ (F := F)) Variants.none c none) E (cc1__stage_b_kernel i arg2 harg2 arg3 harg3 arg4 harg4 arg5 harg5 arg6 harg6 arg7 harg7) K := by
  simp only [cc1__stage_b_kernel_eq_skeleton]; unfold cc1__stage_b_kernel_skel
  unfold owns
  iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
  subst hf0; subst hf1; subst hf2; subst hf3; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    sl_unfold_run_names
    refine (View.read_writes_eq_canon _ _ _ (fun y => ⟨_, List.mem_cons_self, View.mem_set_unit_zero z_S1x1024x1024 inb_S1x1024x1024_S1x1024x1024_0_0_0 y⟩)).trans ?_
    refine (View.canon_cons_unit_zero z_S1x1024x1024 _ _ _).trans ?_
    rw [View.readCov_unit_zero _ z_S1024x1024]
    simp only [View.readAt_eq_ld, View.ld_unit_zero (S := S1x512x1024) z_S1x512x1024, View.ld_unit_zero (S := S1x1x1024) z_S1x1x1024, View.ld_unit_zero (S := S1024x1024) z_S1024x1024]
  iexists _; isplitr
  swap; · iexact HS
  ipureintro
  sl_unfold_run_names
  refine (View.read_writes_eq_canon _ _ _ (fun y => ⟨_, List.mem_cons_self, View.mem_set_unit_zero z_S1024x1024 inb_S1024x1024_S1024x1024_0_0 y⟩)).trans ?_
  refine (View.canon_cons_unit_zero z_S1024x1024 _ _ _).trans ?_
  simp only [View.readAt_eq_ld, View.ld_unit_zero (S := S1x512x1024) z_S1x512x1024, View.ld_unit_zero (S := S1x1x1024) z_S1x1x1024, View.ld_unit_zero (S := S1024x1024) z_S1024x1024]

/-! ## The scoped rest: the accumulator among the core's other scoped buffers -/

/-- The accumulator: a whole scoped buffer of the kernel's own, passed beside the windows. -/
abbrev scM1 : Memref sig .tc .vmem S1024x1024 .f32 := Memref.whole cc1_scratch0

/-- The core's other scoped buffers that are no staging buffer of this region, each at some contents, in the
    order the launch lists them. -/
def rest18 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg5_0), ((c : Thread nD τ).loc cc0_stg5_0) ↦{fullShare} f)
    ∗ (∃ f : Buf (Elt F) ((c : Thread nD τ).loc cc0_stg5_1), ((c : Thread nD τ).loc cc0_stg5_1) ↦{fullShare} f)
    ∗ (∃ f : Buf (Elt F) ((c : Thread nD τ).loc cc0_stg6_0), ((c : Thread nD τ).loc cc0_stg6_0) ↦{fullShare} f)
    ∗ (∃ f : Buf (Elt F) ((c : Thread nD τ).loc cc0_stg6_1), ((c : Thread nD τ).loc cc0_stg6_1) ↦{fullShare} f)
    ∗ (∃ f : Buf (Elt F) ((c : Thread nD τ).loc cc0_stg7_0), ((c : Thread nD τ).loc cc0_stg7_0) ↦{fullShare} f)
    ∗ (∃ f : Buf (Elt F) ((c : Thread nD τ).loc cc0_stg7_1), ((c : Thread nD τ).loc cc0_stg7_1) ↦{fullShare} f)
    ∗ (∃ f : Buf (Elt F) ((c : Thread nD τ).loc cc2_stg0_0), ((c : Thread nD τ).loc cc2_stg0_0) ↦{fullShare} f)
    ∗ (∃ f : Buf (Elt F) ((c : Thread nD τ).loc cc2_stg0_1), ((c : Thread nD τ).loc cc2_stg0_1) ↦{fullShare} f)
    ∗ (∃ f : Buf (Elt F) ((c : Thread nD τ).loc cc2_stg1_0), ((c : Thread nD τ).loc cc2_stg1_0) ↦{fullShare} f)
    ∗ (∃ f : Buf (Elt F) ((c : Thread nD τ).loc cc2_stg1_1), ((c : Thread nD τ).loc cc2_stg1_1) ↦{fullShare} f)
    ∗ (∃ f : Buf (Elt F) ((c : Thread nD τ).loc cc2_stg2_0), ((c : Thread nD τ).loc cc2_stg2_0) ↦{fullShare} f)
    ∗ (∃ f : Buf (Elt F) ((c : Thread nD τ).loc cc2_stg2_1), ((c : Thread nD τ).loc cc2_stg2_1) ↦{fullShare} f))

/-- The region's invariant with the accumulator brought to the front: the scoped rest is the accumulator at some
    contents beside the eighteen other buffers (the separating conjunction reordered). -/
theorem PhiA1_eq (c : Dev nD) :
    (Pipeline.ΦA spec1 c : sProp 𝕄) = iprop((iprop(∃ d, owns (c : Thread nD τ) scM1 fullShare d) ∗ rest18 (F := F) c) ∗ (∃ r, prngReg c r)) := by
  have h₁ : (Pipeline.ΦA spec1 c : sProp 𝕄) ⊢ iprop((iprop(∃ d, owns (c : Thread nD τ) scM1 fullShare d) ∗ rest18 (F := F) c) ∗ (∃ r, prngReg c r)) := by
    unfold Pipeline.ΦA; rw [scopedRest1_eq]; unfold rest18; simp only [scM1, owns_whole]
    iintro ⟨⟨H1, H2, H3, H4, H5, H6, H7, H8, H9, H10, H11, H12, H13, H14, H15, H16, H17, H18, H19⟩, Hg⟩
    isplitr [Hg]
    · isplitl [H13]; · iexact H13
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H14]; · iexact H14
      isplitl [H15]; · iexact H15
      isplitl [H16]; · iexact H16
      isplitl [H17]; · iexact H17
      isplitl [H18]; · iexact H18
      iexact H19
    · iexact Hg
  have h₂ : iprop((iprop(∃ d, owns (c : Thread nD τ) scM1 fullShare d) ∗ rest18 (F := F) c) ∗ (∃ r, prngReg c r)) ⊢ (Pipeline.ΦA spec1 c : sProp 𝕄) := by
    unfold Pipeline.ΦA; rw [scopedRest1_eq]; unfold rest18; simp only [scM1, owns_whole]
    iintro ⟨⟨H13, H1, H2, H3, H4, H5, H6, H7, H8, H9, H10, H11, H12, H14, H15, H16, H17, H18, H19⟩, Hg⟩
    isplitr [Hg]
    ·
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      iexact H19
    · iexact Hg
  exact BI.equiv_iff.mp ⟨h₁, h₂⟩

/-! ## What the accumulator holds after each point -/

/-- The accumulator after the body at position `n`: at a first inner point the zero fill plus that block's product,
    elsewhere what the point before left plus this block's product. -/
def acc1 (c : Dev nD) : (n : ℕ) → n < cfg1.N → Vec F S1024x1024 .f32
  | 0, hn => k1_pay2 (iblk1 V c 0 ⟨0, hn⟩) (iblk1 V c 2 ⟨0, hn⟩) (iblk1 V c 1 ⟨0, hn⟩) (iblk1 V c 3 ⟨0, hn⟩) k1_pay1
  | n + 1, hn =>
    if (n + 1) % 8 = 0 then
      k1_pay2 (iblk1 V c 0 ⟨n + 1, hn⟩) (iblk1 V c 2 ⟨n + 1, hn⟩) (iblk1 V c 1 ⟨n + 1, hn⟩) (iblk1 V c 3 ⟨n + 1, hn⟩) k1_pay1
    else
      k1_pay2 (iblk1 V c 0 ⟨n + 1, hn⟩) (iblk1 V c 2 ⟨n + 1, hn⟩) (iblk1 V c 1 ⟨n + 1, hn⟩) (iblk1 V c 3 ⟨n + 1, hn⟩) (acc1 c n (Nat.lt_of_succ_lt hn))

/-- At a first inner point the accumulator restarts from the zero fill. -/
theorem acc1_first (c : Dev nD) (t : Fin cfg1.N) (h : t.val % 8 = 0) :
    acc1 V c t.val t.isLt = k1_pay2 (iblk1 V c 0 t) (iblk1 V c 2 t) (iblk1 V c 1 t) (iblk1 V c 3 t) k1_pay1 := by
  obtain ⟨n, hn⟩ := t
  cases n with
  | zero => rfl
  | succ n => exact (if_pos h)

/-- Elsewhere it continues from what the point before left. -/
theorem acc1_next (c : Dev nD) (t : Fin cfg1.N) (h : t.val % 8 ≠ 0) :
    acc1 V c t.val t.isLt = k1_pay2 (iblk1 V c 0 t) (iblk1 V c 2 t) (iblk1 V c 1 t) (iblk1 V c 3 t)
      (acc1 V c (t.val - 1) (Nat.lt_of_le_of_lt (Nat.sub_le _ _) t.isLt)) := by
  obtain ⟨n, hn⟩ := t
  cases n with
  | zero => exact absurd (Nat.zero_mod _) h
  | succ n => exact (if_neg h)

/-! ## The invariant -/

/-- Before the first point the launch's invariant; afterwards the same with the accumulator at what the point before
    left in it. -/
def PhiS (c : Dev nD) : (n : ℕ) → n ≤ cfg1.N → sProp 𝕄
  | 0, _ => Pipeline.ΦA spec1 c
  | n + 1, hn => iprop((owns (c : Thread nD τ) scM1 fullShare (acc1 V c n hn) ∗ rest18 (F := F) c) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop((owns (c : Thread nD τ) scM1 fullShare (acc1 V c n hn) ∗ rest18 (F := F) c) ∗ (∃ r, prngReg c r)) := rfl

theorem PhiS_pos (c : Dev nD) (n : ℕ) (h : n ≤ cfg1.N) (hz : n ≠ 0) :
    PhiS V c n h = iprop((owns (c : Thread nD τ) scM1 fullShare (acc1 V c (n - 1) (by omega)) ∗ rest18 (F := F) c) ∗ (∃ r, prngReg c r)) := by
  cases n with
  | zero => exact absurd rfl hz
  | succ n => rfl

/-! ## The proof data -/

/-- The region's proof data on core `c`: the arrays as the region finds them; after the body each input's buffer at
    its block and the output's at the rectified, rounded accumulator; the invariant above; nothing owed; full
    shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => k1_pay3 (acc1 V c t.val t.isLt)
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
/-- The output window after the body: the rectified, rounded accumulator (consulted only where the block is written back). -/
theorem after1_4 (c : Dev nD) (t : Fin cfg1.N) : (dat1 V c).after 4 t = k1_pay3 (acc1 V c t.val t.isLt) := by dsimp only [dat1]
theorem after1_4_last (c : Dev nD) (t : Fin cfg1.N) (h : t.val % 8 = 7) : (dat1 V c).after 4 t = k1_pay3 (acc1 V c t.val t.isLt) :=
  after1_4 V c t

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
/-- The body at any point: the inputs' buffers hold their blocks; the point's inner coordinate selects the run; the
    invariant hands the body the accumulator at what the point before left (at anything at the very first point) and
    takes it back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  rw [show (dat1 V c).leavesExact 2 t = owns (c : Thread nD τ) (st1_2 t) fullShare ((dat1 V c).after 2 t) from by
    unfold Dat.leavesExact; rw [liveAt1_2 t], after1_2]
  rw [show (dat1 V c).leavesExact 3 t = owns (c : Thread nD τ) (st1_3 t) fullShare ((dat1 V c).after 3 t) from by
    unfold Dat.leavesExact; rw [liveAt1_3 t], after1_3]
  have hN : t.val < 64 := lt_of_lt_of_eq t.isLt (show cfg1.N = 64 from N_1)
  by_cases h0 : t.val % 8 = 0
  · have h1 : ¬t.val % 8 = 7 := by omega
    have hc0 : cond1_0 (grid1.coords t) := (hcond1_0 t).mpr h0
    have hc1 : ¬cond1_1 (grid1.coords t) := fun h => h1 ((hcond1_1 t).mp h)
    rw [Dat.leavesExact_idle (dat1 V c) 4 t (idleAt1_4 t hc1) (noFlush1_4 t hc1)]
    rw [acc1_first V c t h0]
    by_cases hz : t.val = 0
    · rw [PhiS_castSucc V c t, PhiS_zero V c _ _ hz, PhiA1_eq]
      iintro ⟨⟨⟨HS, HR⟩, Hg⟩, Ho, ⟨%d0, H0⟩, ⟨%d1, H1⟩, ⟨%d2, H2⟩, ⟨%d3, H3⟩, ⟨%d4, H4⟩⟩
      iapply (run1_first c (grid1.coords t) _ _ _ _ _ _ _ _ _ _ _ _ hc0 hc1 (iblk1 V c 0 t) (iblk1 V c 1 t) (iblk1 V c 2 t) (iblk1 V c 3 t) _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS HR Hg]
      · isplitr [Hg]
        · isplitl [HS]; · iexact HS
          iexact HR
        · iexact Hg
      isplitl [Ho]; · iexact Ho
      isplitl [H0]; · iexact H0
      isplitl [H1]; · iexact H1
      isplitl [H2]; · iexact H2
      isplitl [H3]; · iexact H3
      iexists _; iexact H4
    · rw [PhiS_castSucc V c t, PhiS_pos V c _ _ hz]
      iintro ⟨⟨⟨HS, HR⟩, Hg⟩, Ho, ⟨%d0, H0⟩, ⟨%d1, H1⟩, ⟨%d2, H2⟩, ⟨%d3, H3⟩, ⟨%d4, H4⟩⟩
      iapply (run1_first c (grid1.coords t) _ _ _ _ _ _ _ _ _ _ _ _ hc0 hc1 (iblk1 V c 0 t) (iblk1 V c 1 t) (iblk1 V c 2 t) (iblk1 V c 3 t) _ Set.univ _)
      isplitl [H0]; · iexact H0
      isplitl [H1]; · iexact H1
      isplitl [H2]; · iexact H2
      isplitl [H3]; · iexact H3
      isplitl [H4]; · iexact H4
      isplitl [HS]; · iexists _; iexact HS
      iintro ⟨H0, H1, H2, H3, H4, HS⟩
      isplitl [HS HR Hg]
      · isplitr [Hg]
        · isplitl [HS]; · iexact HS
          iexact HR
        · iexact Hg
      isplitl [Ho]; · iexact Ho
      isplitl [H0]; · iexact H0
      isplitl [H1]; · iexact H1
      isplitl [H2]; · iexact H2
      isplitl [H3]; · iexact H3
      iexists _; iexact H4
  · have hc0 : ¬cond1_0 (grid1.coords t) := fun h => h0 ((hcond1_0 t).mp h)
    have hz : t.val ≠ 0 := fun e => h0 (by rw [e])
    by_cases h1 : t.val % 8 = 7
    · have hc1 : cond1_1 (grid1.coords t) := (hcond1_1 t).mpr h1
      rw [show (dat1 V c).leavesExact 4 t = owns (c : Thread nD τ) (st1_4 t) fullShare ((dat1 V c).after 4 t) from by
        unfold Dat.leavesExact; rw [liveAt1_4 t hc1], after1_4]
      rw [acc1_next V c t h0]
      rw [PhiS_castSucc V c t, PhiS_pos V c _ _ hz]
      iintro ⟨⟨⟨HS, HR⟩, Hg⟩, Ho, ⟨%d0, H0⟩, ⟨%d1, H1⟩, ⟨%d2, H2⟩, ⟨%d3, H3⟩, ⟨%d4, H4⟩⟩
      iapply (run1_last c (grid1.coords t) _ _ _ _ _ _ _ _ _ _ _ _ hc0 hc1 (iblk1 V c 0 t) (iblk1 V c 1 t) (iblk1 V c 2 t) (iblk1 V c 3 t) _ Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, H4, HS⟩
      isplitl [HS HR Hg]
      · isplitr [Hg]
        · isplitl [HS]; · iexact HS
          iexact HR
        · iexact Hg
      isplitl [Ho]; · iexact Ho
      isplitl [H0]; · iexact H0
      isplitl [H1]; · iexact H1
      isplitl [H2]; · iexact H2
      isplitl [H3]; · iexact H3
      iexact H4
    · have hc1 : ¬cond1_1 (grid1.coords t) := fun h => h1 ((hcond1_1 t).mp h)
      rw [Dat.leavesExact_idle (dat1 V c) 4 t (idleAt1_4 t hc1) (noFlush1_4 t hc1)]
      rw [acc1_next V c t h0]
      rw [PhiS_castSucc V c t, PhiS_pos V c _ _ hz]
      iintro ⟨⟨⟨HS, HR⟩, Hg⟩, Ho, ⟨%d0, H0⟩, ⟨%d1, H1⟩, ⟨%d2, H2⟩, ⟨%d3, H3⟩, ⟨%d4, H4⟩⟩
      iapply (run1_mid c (grid1.coords t) _ _ _ _ _ _ _ _ _ _ _ _ hc0 hc1 (iblk1 V c 0 t) (iblk1 V c 1 t) (iblk1 V c 2 t) (iblk1 V c 3 t) _ _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS HR Hg]
      · isplitr [Hg]
        · isplitl [HS]; · iexact HS
          iexact HR
        · iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point but the first the invariant gives the launch's back: the accumulator's contents are forgotten. -/
theorem Phi_out1 (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA1_eq]
  iintro ⟨⟨HS, HR⟩, Hg⟩
  isplitr [Hg]
  · isplitl [HS]; · iexists _; iexact HS
    iexact HR
  · iexact Hg

/-- The same after the last point. -/
theorem hout1 (c : Dev nD) : (dat1 V c).Φ (Fin.last cfg1.N) ⊢ Pipeline.ΦA spec1 c :=
  Phi_out1 V c _ (by rw [Fin.val_last]; have : cfg1.N = 64 := N_1; omega)

/-- info: 'Cert.Kernel.Hand.body_obligation1' depends on axioms: [propext, Classical.choice, Quot.sound] -/
#guard_msgs in #print axioms body_obligation1
/-- info: 'Cert.Kernel.Hand.hin1' depends on axioms: [propext, Classical.choice, Quot.sound] -/
#guard_msgs in #print axioms hin1
/-- info: 'Cert.Kernel.Hand.hout1' depends on axioms: [propext, Classical.choice, Quot.sound] -/
#guard_msgs in #print axioms hout1

end Cert.Kernel.Hand

end
-- ==== Proof.FrameK.R2.lean ====
/-
  Region 2 of the kernel's program: the third pallas_call, which at each of its 8 × 8 grid points multiplies one
  512 × 1024 block of query rows by the batch's 1024 × 1024 key–value matrix and stores the product block. One store
  of the whole output buffer, so the buffer is left at one piece: the product as a function of the two input blocks.
-/
import proofs.«171922_j27779848471445_1_alg».proof.Proof.Gen.Kernel.Launch
import proofs.«171922_j27779848471445_1_alg».proof.Proof.Gen.Kernel.Skeleton
import proofs.«171922_j27779848471445_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, whether the point fetches it or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: whole-buffer rectangles -/

abbrev rA2 : Rect S1x512x1024 := Rect.unit (s := S1x512x1024) ![0, 0, 0] S1x512x1024.size inb_S1x512x1024_S1x512x1024_0_0_0
abbrev rK2 : Rect S1x1024x1024 := Rect.unit (s := S1x1024x1024) ![0, 0, 0] S1x1024x1024.size inb_S1x1024x1024_S1x1024x1024_0_0_0

/-- The output block: the query block times the key–value matrix. -/
def out2_2 (x0 : Vec F S1x512x1024 .bf16) (x1 : Vec F S1x1024x1024 .bf16) : Vec F S1x512x1024 .f32 :=
  View.canon [⟨rA2, k2_pay1 (View.ld x0 rA2) (View.ld x1 rK2)⟩]

/-- One whole-buffer store covers the buffer. -/
theorem cover2_2 (p0 : Vec F S1x512x1024 .f32) (y : S1x512x1024.Idx) :
    ∃ pc ∈ ([⟨rA2, p0⟩] : List (View.Piece (Elt F) S1x512x1024 .f32)), y ∈ pc.1.set :=
  View.cover_of_tiled [⟨rA2, p0⟩] S1x512x1024.size (by rfl) y

/-! ## The body's triple -/

set_option maxHeartbeats 4000000 in
theorem sound_kernel2 (c : Dev nD) (E : Set ℕ) (i : grid2.Coords)
    (arg2 : Memref sig .tc .vmem S1x512x1024 .bf16) (harg2 : arg2.IsWhole) (arg3 : Memref sig .tc .vmem S1x1024x1024 .bf16) (harg3 : arg3.IsWhole)
    (arg4 : Memref sig .tc .vmem S1x512x1024 .f32) (harg4 : arg4.IsWhole)
    (x0 : Vec F S1x512x1024 .bf16) (x1 : Vec F S1x1024x1024 .bf16) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out2_2 x0 x1)) -∗ K ⟨⟩))
      ⊢ wp frame (wpE (defs₀ (F := F)) Variants.none c none) E (cc2__stage_c_kernel i arg2 harg2 arg3 harg3 arg4 harg4) K := by
  simp only [cc2__stage_c_kernel_eq_skeleton]; unfold cc2__stage_c_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  try dsimp only
  exact View.read_writes_eq_canon _ _ _ (cover2_2 _)

/-! ## The pipeline's proof data -/

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

set_option maxHeartbeats 1000000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ (grid2.coords t) _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.FrameK.Run.lean ====
/-
  The kernel's whole program as a run: @main is a stretch of host operations (the weights cast to the matmul format),
  the first pallas_call, a second stretch (the two column norms over the sequence axis and their reciprocals), the
  second and the third pallas_call. The buffer contents at each boundary are a fold from the launch memory — a host
  stretch applies its operations, a region replaces its arrays by what its pipeline's write-backs leave — and every
  weakly fair execution ends with every unscoped buffer at the last boundary's contents. The frame claim (each
  argument array ends as launched) is that post read at the arguments, none of which a stretch or a region writes.
-/
import proofs.«171922_j27779848471445_1_alg».proof.Proof.FrameK.R0
import proofs.«171922_j27779848471445_1_alg».proof.Proof.FrameK.R1
import proofs.«171922_j27779848471445_1_alg».proof.Proof.FrameK.R2

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary: a fold through @main -/

/-- Core `c`'s buffers at launch. -/
abbrev W0 : Dev nD → Valuation τ sig (Elt F) := fun c b => (s₀ m ρ).mem ((c : Dev nD), b)
/-- After the first host stretch (region 0's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At region 0's exit: its arrays at what the pipeline leaves (an input as entered, an output's write-backs folded),
    every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (region 1's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At region 1's exit: its arrays at what the pipeline leaves (an input as entered, an output's write-backs folded),
    every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- At region 2's exit: its arrays at what the pipeline leaves (an input as entered, an output's write-backs folded),
    every other buffer as entered. -/
def W5 (c : Dev nD) : Valuation τ sig (Elt F) :=
  Pipeline.withArrays spec2 c (W4 m ρ c) fun w => (dat2 (V4 m ρ) c).arrAt w cfg2.N
theorem W5_arr (c : Dev nD) (w : Fin cfg2.W) :
    W5 m ρ c (Proc.devRef .tc (Pipeline.arrRef spec2 w)) = (dat2 (V4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
abbrev V5 : (c : Dev nD) → (b : Ref sig .tc) → Buf (Elt F) ((c : Thread nD τ).loc b) := fun c b => W5 m ρ c b
theorem hF2 (c : Dev nD) (w : Fin cfg2.W) : (dat2 (V4 m ρ) c).arrAt w cfg2.N = V5 m ρ c (Pipeline.arrRef spec2 w) :=
  (W5_arr m ρ c w).symm
theorem hrest2 (c : Dev nD) : ∀ b, b ∉ Finset.univ.image (Pipeline.arrRef spec2) → V5 m ρ c b = V4 m ρ c b :=
  fun b hb => W5_of_ne m ρ c b fun w e => hb (Finset.mem_image.mpr ⟨w, Finset.mem_univ _, e⟩)

/-! ### The arguments end as launched: no host operation and no region writes one -/

theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := W5_of_ne m ρ c main_arg0 (by decide)
    _ = W3 m ρ c (Proc.devRef .tc main_arg0) := W4_of_ne m ρ c main_arg0 (by decide)
    _ = W2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = m ((c : Thread nD τ).loc main_arg0) := rfl

theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := W5_of_ne m ρ c main_arg1 (by decide)
    _ = W3 m ρ c (Proc.devRef .tc main_arg1) := W4_of_ne m ρ c main_arg1 (by decide)
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = m ((c : Thread nD τ).loc main_arg1) := rfl

theorem W5_main_arg2 (c : Dev nD) : W5 m ρ c (Proc.devRef .tc main_arg2) = m ((c : Thread nD τ).loc main_arg2) :=
  calc W5 m ρ c (Proc.devRef .tc main_arg2)
    _ = W4 m ρ c (Proc.devRef .tc main_arg2) := W5_of_ne m ρ c main_arg2 (by decide)
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = m ((c : Thread nD τ).loc main_arg2) := rfl

theorem W5_main_arg3 (c : Dev nD) : W5 m ρ c (Proc.devRef .tc main_arg3) = m ((c : Thread nD τ).loc main_arg3) :=
  calc W5 m ρ c (Proc.devRef .tc main_arg3)
    _ = W4 m ρ c (Proc.devRef .tc main_arg3) := W5_of_ne m ρ c main_arg3 (by decide)
    _ = W3 m ρ c (Proc.devRef .tc main_arg3) := W4_of_ne m ρ c main_arg3 (by decide)
    _ = W2 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = m ((c : Thread nD τ).loc main_arg3) := rfl

theorem W5_main_arg4 (c : Dev nD) : W5 m ρ c (Proc.devRef .tc main_arg4) = m ((c : Thread nD τ).loc main_arg4) :=
  calc W5 m ρ c (Proc.devRef .tc main_arg4)
    _ = W4 m ρ c (Proc.devRef .tc main_arg4) := W5_of_ne m ρ c main_arg4 (by decide)
    _ = W3 m ρ c (Proc.devRef .tc main_arg4) := W4_of_ne m ρ c main_arg4 (by decide)
    _ = W2 m ρ c (Proc.devRef .tc main_arg4) := StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = m ((c : Thread nD τ).loc main_arg4) := rfl

/-! ## The proof data family and the thread state -/

/-- No pallas_call has a prefetched table. -/
abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V4 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Tₙ (c : Dev nD) : sProp 𝕄 := iprop(StableHlo.held (c : Thread nD τ) (Pipeline.ucRefs τ sig) (W5 m ρ c) ∗ ∃ r, prngReg c r)

/-! ## The regions as segments -/

set_option backward.isDefEq.respectTransparency.types false in
/-- Region 0 over the thread state: entered from every unscoped buffer at `W1`, left at `W2`. Its arrays are split
    out of the unscoped buffers and put back at what the pipeline's write-backs leave; the generator register goes into
    the pipeline's invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`. Its arrays are split
    out of the unscoped buffers and put back at what the pipeline's write-backs leave; the generator register goes into
    the pipeline's invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (dat1 (V3 m ρ) c).Φ 0 from rfl]
    refine .trans ?_ (hin1 (V3 m ρ) c)
    unfold Pipeline.ΦA
    iintro ⟨Hp, -, Hr⟩
    isplitl [Hr]; · iexact Hr
    iexact Hp
  hout c := by
    rw [Pipeline.ownSems0_none, show (pdats m ρ 1 c).Φ (Fin.last _) = (dat1 (V3 m ρ) c).Φ (Fin.last cfg1.N) from rfl]
    refine (hout1 (V3 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W4`, left at `W5`. Its arrays are split
    out of the unscoped buffers and put back at what the pipeline's write-backs leave; the generator register goes into
    the pipeline's invariant and comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V4 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V4 m ρ c) (V5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .region (reg2 m ρ) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and
    every final state holds every unscoped buffer of every core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h => h)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c),
     (h c _ (mem_uc main_arg4 (by decide))).trans (W5_main_arg4 m ρ c)⟩) (run_all m ρ)

end Cert.Kernel.Hand

end
-- ==== Proof.FrameKI.R0.lean ====
/-
  Region 0 of the kernel's program: the first pallas_call, which at each of its 8 × 8 grid points multiplies one
  512 × 1024 block of rows of the input by the four weight matrices and stores three blocks — the gated product of the
  two query projections, the raw keys and the raw values. The body loads every window through the whole-buffer rectangle
  and stores each output whole, so what it leaves in each output's staging buffer is one piece: the stored value as a
  function of the input blocks. This module states that function per output window, proves the body's triple on whole
  staging memrefs, and gives the pipeline's proof data and body obligation at any buffer contents `V` the region is
  entered from.
-/
import proofs.«171922_j27779848471445_1_alg».proof.Proof.Gen.KernelIdeal.Launch
import proofs.«171922_j27779848471445_1_alg».proof.Proof.Gen.KernelIdeal.Skeleton
import proofs.«171922_j27779848471445_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, whether the point fetches it or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: whole-buffer rectangles -/

abbrev rA0 : Rect S1x512x1024 := Rect.unit (s := S1x512x1024) ![0, 0, 0] S1x512x1024.size inb_S1x512x1024_S1x512x1024_0_0_0
abbrev rW0 : Rect S1024x1024 := Rect.unit (s := S1024x1024) ![0, 0] S1024x1024.size inb_S1024x1024_S1024x1024_0_0

/-! ## What the body leaves in each output window's buffer -/

/-- The query block: the product of the two rectified projections of the row block. -/
def out0_5 (x0 : Vec F S1x512x1024 .f32) (x1 x2 : Vec F S1024x1024 .bf16) : Vec F S1x512x1024 .bf16 :=
  View.canon [⟨rA0, k0_pay2 (View.ld x0 rA0) (View.ld x1 rW0) (View.ld x2 rW0)⟩]
/-- The raw key block: the row block times the key weights. -/
def out0_6 (x0 : Vec F S1x512x1024 .f32) (x3 : Vec F S1024x1024 .bf16) : Vec F S1x512x1024 .f32 :=
  View.canon [⟨rA0, k0_pay3 (View.ld x0 rA0) (View.ld x3 rW0)⟩]
/-- The raw value block: the row block times the value weights. -/
def out0_7 (x0 : Vec F S1x512x1024 .f32) (x4 : Vec F S1024x1024 .bf16) : Vec F S1x512x1024 .f32 :=
  View.canon [⟨rA0, k0_pay4 (View.ld x0 rA0) (View.ld x4 rW0)⟩]

/-- One whole-buffer store covers the buffer. -/
theorem cover0_b (p0 : Vec F S1x512x1024 .bf16) (y : S1x512x1024.Idx) :
    ∃ pc ∈ ([⟨rA0, p0⟩] : List (View.Piece (Elt F) S1x512x1024 .bf16)), y ∈ pc.1.set :=
  View.cover_of_tiled [⟨rA0, p0⟩] S1x512x1024.size (by rfl) y
theorem cover0_f (p0 : Vec F S1x512x1024 .f32) (y : S1x512x1024.Idx) :
    ∃ pc ∈ ([⟨rA0, p0⟩] : List (View.Piece (Elt F) S1x512x1024 .f32)), y ∈ pc.1.set :=
  View.cover_of_tiled [⟨rA0, p0⟩] S1x512x1024.size (by rfl) y

/-! ## The body's triple -/

set_option maxHeartbeats 4000000 in
/-- On whole staging memrefs, the inputs' at contents `x0 … x4` and the outputs' at anything, the body runs to the
    continuation with the inputs' as they were and each output's at its function of the inputs. -/
theorem sound_kernel0 (c : Dev nD) (E : Set ℕ) (i : grid0.Coords)
    (arg2 : Memref sig .tc .vmem S1x512x1024 .f32) (harg2 : arg2.IsWhole) (arg3 : Memref sig .tc .vmem S1024x1024 .bf16) (harg3 : arg3.IsWhole)
    (arg4 : Memref sig .tc .vmem S1024x1024 .bf16) (harg4 : arg4.IsWhole) (arg5 : Memref sig .tc .vmem S1024x1024 .bf16) (harg5 : arg5.IsWhole)
    (arg6 : Memref sig .tc .vmem S1024x1024 .bf16) (harg6 : arg6.IsWhole) (arg7 : Memref sig .tc .vmem S1x512x1024 .bf16) (harg7 : arg7.IsWhole)
    (arg8 : Memref sig .tc .vmem S1x512x1024 .f32) (harg8 : arg8.IsWhole) (arg9 : Memref sig .tc .vmem S1x512x1024 .f32) (harg9 : arg9.IsWhole)
    (x0 : Vec F S1x512x1024 .f32) (x1 x2 x3 x4 : Vec F S1024x1024 .bf16) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
        ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ owns (c : Thread nD τ) arg7 fullShare (out0_5 x0 x1 x2) ∗ owns (c : Thread nD τ) arg8 fullShare (out0_6 x0 x3) ∗ owns (c : Thread nD τ) arg9 fullShare (out0_7 x0 x4)) -∗ K ⟨⟩))
      ⊢ wp frame (wpE (defs₀ (F := F)) Variants.none c none) E (cc0__stage_a_kernel i arg2 harg2 arg3 harg3 arg4 harg4 arg5 harg5 arg6 harg6 arg7 harg7 arg8 harg8 arg9 harg9) K := by
  simp only [cc0__stage_a_kernel_eq_skeleton]; unfold cc0__stage_a_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    try dsimp only
    exact View.read_writes_eq_canon _ _ _ (cover0_b _)
  isplitl [H6]
  · iexists _; isplitr
    swap; · iexact H6
    ipureintro
    try dsimp only
    exact View.read_writes_eq_canon _ _ _ (cover0_f _)
  iexists _; isplitr
  swap; · iexact H7
  ipureintro
  try dsimp only
  exact View.read_writes_eq_canon _ _ _ (cover0_f _)

/-! ## The pipeline's proof data -/

/-- The arrays as the region finds them; after the body at point `t` each input's buffer at its block and each
    output's at its function of the input blocks; the class's invariant (the scoped rest and the generator register,
    untouched); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t)
    | ⟨6, _⟩ => out0_6 (iblk0 V c 0 t) (iblk0 V c 3 t)
    | ⟨7, _⟩ => out0_7 (iblk0 V c 0 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0_5 (iblk0 V c 0 t) (iblk0 V c 1 t) (iblk0 V c 2 t) := by dsimp only [dat0]
theorem after0_6 (c : Dev nD) (t : Fin cfg0.N) : (dat0 V c).after 6 t = out0_6 (iblk0 V c 0 t) (iblk0 V c 3 t) := by dsimp only [dat0]
theorem after0_7 (c : Dev nD) (t : Fin cfg0.N) : (dat0 V c).after 7 t = out0_7 (iblk0 V c 0 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

set_option maxHeartbeats 1000000 in
/-- The body at any point: the inputs' memrefs hold their blocks, so the triple applies; the invariant and the core's
    dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ (grid0.coords t) _ _ _ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.FrameKI.R1.lean ====
/- The frame half of the second region: the kernel whose accumulator is carried between grid points.
   Stated at the region-entry contents `V`, for any float instance: each window's block, the body's three runs
   (first, middle and last inner point), what the accumulator holds after each point, the proof data, the body
   obligation, and the invariant's two ends; and the pure equations the value proof reads the accumulation off. -/
import proofs.«171922_j27779848471445_1_alg».proof.Proof.Gen.KernelIdeal.Launch
import proofs.«171922_j27779848471445_1_alg».proof.Proof.Gen.KernelIdeal.Skeleton
import proofs.«171922_j27779848471445_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # The second region: the kernel that carries its accumulator between grid points -/

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is the entry contents and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is the entry contents and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is the entry contents and whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof
    data whose array is the entry contents and whose body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's two conditions, in closed form over the grid -/

/-- The first conditional's condition: the inner grid coordinate is zero. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)

/-- The second conditional's condition: the inner grid coordinate is seven. -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl
/-- Away from the last inner point the output window is idle and is not written back. -/
theorem idleAt1_4 : ∀ t : Fin cfg1.N, ¬cond1_1 (grid1.coords t) → cfg1.idle 4 (grid1.coords t) = true := by decide +kernel
theorem noFlush1_4 : ∀ t : Fin cfg1.N, ¬cond1_1 (grid1.coords t) → (cfg1.win 4).flush t = false := by decide +kernel
/-- At the last inner point it is live. -/
theorem liveAt1_4 : ∀ t : Fin cfg1.N, cond1_1 (grid1.coords t) → cfg1.idle 4 (grid1.coords t) = false := by decide +kernel

/-! ## Zero offsets, however the zeros are spelt -/

theorem z_S1024x1024 : (![0, 0] : Fin S1024x1024.rank → ℕ) = fun _ => 0 := by funext a; fin_cases a <;> rfl
theorem z_S1x512x1024 : (![0, 0, 0] : Fin S1x512x1024.rank → ℕ) = fun _ => 0 := by funext a; fin_cases a <;> rfl
theorem z_S1x1x1024 : (![0, 0, 0] : Fin S1x1x1024.rank → ℕ) = fun _ => 0 := by funext a; fin_cases a <;> rfl
theorem z_S1x1024x1024 : (![0, 0, 0] : Fin S1x1024x1024.rank → ℕ) = fun _ => 0 := by funext a; fin_cases a <;> rfl

/-! ## The body's three runs

Every load and store of the body is through the whole rectangle of its buffer, so each buffer's contents after the
body are a payload of the contents before it. -/

set_option maxHeartbeats 1000000 in
/-- At the first inner point: the accumulator, whatever it held, is zero-filled, then holds the zero fill plus this
    block's product; the output buffer is handed back as found. -/
theorem run1_first (c : Dev nD) (i : grid1.Coords) (arg2 : Memref sig .tc .vmem S1x512x1024 .f32) (harg2 : arg2.IsWhole) (arg3 : Memref sig .tc .vmem S1x512x1024 .f32) (harg3 : arg3.IsWhole) (arg4 : Memref sig .tc .vmem S1x1x1024 .f32) (harg4 : arg4.IsWhole) (arg5 : Memref sig .tc .vmem S1x1x1024 .f32) (harg5 : arg5.IsWhole) (arg6 : Memref sig .tc .vmem S1x1024x1024 .bf16) (harg6 : arg6.IsWhole) (arg7 : Memref sig .tc .vmem S1024x1024 .f32) (harg7 : arg7.IsWhole) (hc0 : cond1_0 i) (hc1 : ¬cond1_1 i)
    (x0 x1 : Vec F S1x512x1024 .f32) (x2 x3 : Vec F S1x1x1024 .f32) (xi4 : Vec F S1x1024x1024 .bf16)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ owns (c : Thread nD τ) arg6 fullShare xi4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3
        ∗ owns (c : Thread nD τ) arg6 fullShare xi4 ∗ owns (c : Thread nD τ) arg7 fullShare (k1_pay2 x0 x2 x1 x3 k1_pay1)) -∗ K ⟨⟩))
      ⊢ wp frame (wpE (defs₀ (F := F)) Variants.none c none) E (cc1__stage_b_kernel i arg2 harg2 arg3 harg3 arg4 harg4 arg5 harg5 arg6 harg6 arg7 harg7) K := by
  simp only [cc1__stage_b_kernel_eq_skeleton]; unfold cc1__stage_b_kernel_skel
  unfold owns
  iintro ⟨⟨%f0, %hf0, H0⟩, ⟨%f1, %hf1, H1⟩, ⟨%f2, %hf2, H2⟩, ⟨%f3, %hf3, H3⟩, ⟨%f4, %hf4, H4⟩, ⟨%ds, %fs, -, HS⟩, Hk⟩
  subst hf0; subst hf1; subst hf2; subst hf3; subst hf4
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact HS
  ipureintro
  sl_unfold_run_names
  refine (View.read_writes_eq_canon _ _ _ (fun y => ⟨_, List.mem_cons_self, View.mem_set_unit_zero z_S1024x1024 inb_S1024x1024_S1024x1024_0_0 y⟩)).trans ?_
  refine (View.canon_cons_unit_zero z_S1024x1024 _ _ _).trans ?_
  rw [View.readCov_unit_zero _ z_S1024x1024]
  simp only [View.readAt_eq_ld, View.ld_unit_zero (S := S1x512x1024) z_S1x512x1024, View.ld_unit_zero (S := S1x1x1024) z_S1x1x1024]

set_option maxHeartbeats 1000000 in
/-- At an inner point neither first nor last: the accumulator gains this block's product; the output buffer is
    handed back as found. -/
theorem run1_mid (c : Dev nD) (i : grid1.Coords) (arg2 : Memref sig .tc .vmem S1x512x1024 .f32) (harg2 : arg2.IsWhole) (arg3 : Memref sig .tc .vmem S1x512x1024 .f32) (harg3 : arg3.IsWhole) (arg4 : Memref sig .tc .vmem S1x1x1024 .f32) (harg4 : arg4.IsWhole) (arg5 : Memref sig .tc .vmem S1x1x1024 .f32) (harg5 : arg5.IsWhole) (arg6 : Memref sig .tc .vmem S1x1024x1024 .bf16) (harg6 : arg6.IsWhole) (arg7 : Memref sig .tc .vmem S1024x1024 .f32) (harg7 : arg7.IsWhole) (hc0 : ¬cond1_0 i) (hc1 : ¬cond1_1 i)
    (x0 x1 : Vec F S1x512x1024 .f32) (x2 x3 : Vec F S1x1x1024 .f32) (xi4 : Vec F S1x1024x1024 .bf16) (xs : Vec F S1024x1024 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ owns (c : Thread nD τ) arg6 fullShare xi4 ∗ owns (c : Thread nD τ) arg7 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3
        ∗ owns (c : Thread nD τ) arg6 fullShare xi4 ∗ owns (c : Thread nD τ) arg7 fullShare (k1_pay2 x0 x2 x1 x3 xs)) -∗ K ⟨⟩))
      ⊢ wp frame (wpE (defs₀ (F := F)) Variants.none c none) E (cc1__stage_b_kernel i arg2 harg2 arg3 harg3 arg4 harg4 arg5 harg5 arg6 harg6 arg7 harg7) K := by
  simp only [cc1__stage_b_kernel_eq_skeleton]; unfold cc1__stage_b_kernel_skel
  unfold owns
  iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
  subst hf0; subst hf1; subst hf2; subst hf3; subst hf4; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact HS
  ipureintro
  sl_unfold_run_names
  refine (View.read_writes_eq_canon _ _ _ (fun y => ⟨_, List.mem_cons_self, View.mem_set_unit_zero z_S1024x1024 inb_S1024x1024_S1024x1024_0_0 y⟩)).trans ?_
  refine (View.canon_cons_unit_zero z_S1024x1024 _ _ _).trans ?_
  simp only [View.readAt_eq_ld, View.ld_unit_zero (S := S1x512x1024) z_S1x512x1024, View.ld_unit_zero (S := S1x1x1024) z_S1x1x1024, View.ld_unit_zero (S := S1024x1024) z_S1024x1024]

set_option maxHeartbeats 1000000 in
/-- At the last inner point: the accumulator gains this block's product, and the output buffer, whatever it held,
    receives the rectified, rounded accumulator. -/
theorem run1_last (c : Dev nD) (i : grid1.Coords) (arg2 : Memref sig .tc .vmem S1x512x1024 .f32) (harg2 : arg2.IsWhole) (arg3 : Memref sig .tc .vmem S1x512x1024 .f32) (harg3 : arg3.IsWhole) (arg4 : Memref sig .tc .vmem S1x1x1024 .f32) (harg4 : arg4.IsWhole) (arg5 : Memref sig .tc .vmem S1x1x1024 .f32) (harg5 : arg5.IsWhole) (arg6 : Memref sig .tc .vmem S1x1024x1024 .bf16) (harg6 : arg6.IsWhole) (arg7 : Memref sig .tc .vmem S1024x1024 .f32) (harg7 : arg7.IsWhole) (hc0 : ¬cond1_0 i) (hc1 : cond1_1 i)
    (x0 x1 : Vec F S1x512x1024 .f32) (x2 x3 : Vec F S1x1x1024 .f32) (xs : Vec F S1024x1024 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ (∃ d, owns (c : Thread nD τ) arg6 fullShare d) ∗ owns (c : Thread nD τ) arg7 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3
        ∗ owns (c : Thread nD τ) arg6 fullShare (k1_pay3 (k1_pay2 x0 x2 x1 x3 xs)) ∗ owns (c : Thread nD τ) arg7 fullShare (k1_pay2 x0 x2 x1 x3 xs)) -∗ K ⟨⟩))
      ⊢ wp frame (wpE (defs₀ (F := F)) Variants.none c none) E (cc1__stage_b_kernel i arg2 harg2 arg3 harg3 arg4 harg4 arg5 harg5 arg6 harg6 arg7 harg7) K := by
  simp only [cc1__stage_b_kernel_eq_skeleton]; unfold cc1__stage_b_kernel_skel
  unfold owns
  iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
  subst hf0; subst hf1; subst hf2; subst hf3; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    sl_unfold_run_names
    refine (View.read_writes_eq_canon _ _ _ (fun y => ⟨_, List.mem_cons_self, View.mem_set_unit_zero z_S1x1024x1024 inb_S1x1024x1024_S1x1024x1024_0_0_0 y⟩)).trans ?_
    refine (View.canon_cons_unit_zero z_S1x1024x1024 _ _ _).trans ?_
    rw [View.readCov_unit_zero _ z_S1024x1024]
    simp only [View.readAt_eq_ld, View.ld_unit_zero (S := S1x512x1024) z_S1x512x1024, View.ld_unit_zero (S := S1x1x1024) z_S1x1x1024, View.ld_unit_zero (S := S1024x1024) z_S1024x1024]
  iexists _; isplitr
  swap; · iexact HS
  ipureintro
  sl_unfold_run_names
  refine (View.read_writes_eq_canon _ _ _ (fun y => ⟨_, List.mem_cons_self, View.mem_set_unit_zero z_S1024x1024 inb_S1024x1024_S1024x1024_0_0 y⟩)).trans ?_
  refine (View.canon_cons_unit_zero z_S1024x1024 _ _ _).trans ?_
  simp only [View.readAt_eq_ld, View.ld_unit_zero (S := S1x512x1024) z_S1x512x1024, View.ld_unit_zero (S := S1x1x1024) z_S1x1x1024, View.ld_unit_zero (S := S1024x1024) z_S1024x1024]

/-! ## The scoped rest: the accumulator among the core's other scoped buffers -/

/-- The accumulator: a whole scoped buffer of the kernel's own, passed beside the windows. -/
abbrev scM1 : Memref sig .tc .vmem S1024x1024 .f32 := Memref.whole cc1_scratch0

/-- The core's other scoped buffers that are no staging buffer of this region, each at some contents, in the
    order the launch lists them. -/
def rest18 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg5_0), ((c : Thread nD τ).loc cc0_stg5_0) ↦{fullShare} f)
    ∗ (∃ f : Buf (Elt F) ((c : Thread nD τ).loc cc0_stg5_1), ((c : Thread nD τ).loc cc0_stg5_1) ↦{fullShare} f)
    ∗ (∃ f : Buf (Elt F) ((c : Thread nD τ).loc cc0_stg6_0), ((c : Thread nD τ).loc cc0_stg6_0) ↦{fullShare} f)
    ∗ (∃ f : Buf (Elt F) ((c : Thread nD τ).loc cc0_stg6_1), ((c : Thread nD τ).loc cc0_stg6_1) ↦{fullShare} f)
    ∗ (∃ f : Buf (Elt F) ((c : Thread nD τ).loc cc0_stg7_0), ((c : Thread nD τ).loc cc0_stg7_0) ↦{fullShare} f)
    ∗ (∃ f : Buf (Elt F) ((c : Thread nD τ).loc cc0_stg7_1), ((c : Thread nD τ).loc cc0_stg7_1) ↦{fullShare} f)
    ∗ (∃ f : Buf (Elt F) ((c : Thread nD τ).loc cc2_stg0_0), ((c : Thread nD τ).loc cc2_stg0_0) ↦{fullShare} f)
    ∗ (∃ f : Buf (Elt F) ((c : Thread nD τ).loc cc2_stg0_1), ((c : Thread nD τ).loc cc2_stg0_1) ↦{fullShare} f)
    ∗ (∃ f : Buf (Elt F) ((c : Thread nD τ).loc cc2_stg1_0), ((c : Thread nD τ).loc cc2_stg1_0) ↦{fullShare} f)
    ∗ (∃ f : Buf (Elt F) ((c : Thread nD τ).loc cc2_stg1_1), ((c : Thread nD τ).loc cc2_stg1_1) ↦{fullShare} f)
    ∗ (∃ f : Buf (Elt F) ((c : Thread nD τ).loc cc2_stg2_0), ((c : Thread nD τ).loc cc2_stg2_0) ↦{fullShare} f)
    ∗ (∃ f : Buf (Elt F) ((c : Thread nD τ).loc cc2_stg2_1), ((c : Thread nD τ).loc cc2_stg2_1) ↦{fullShare} f))

/-- The region's invariant with the accumulator brought to the front: the scoped rest is the accumulator at some
    contents beside the eighteen other buffers (the separating conjunction reordered). -/
theorem PhiA1_eq (c : Dev nD) :
    (Pipeline.ΦA spec1 c : sProp 𝕄) = iprop((iprop(∃ d, owns (c : Thread nD τ) scM1 fullShare d) ∗ rest18 (F := F) c) ∗ (∃ r, prngReg c r)) := by
  have h₁ : (Pipeline.ΦA spec1 c : sProp 𝕄) ⊢ iprop((iprop(∃ d, owns (c : Thread nD τ) scM1 fullShare d) ∗ rest18 (F := F) c) ∗ (∃ r, prngReg c r)) := by
    unfold Pipeline.ΦA; rw [scopedRest1_eq]; unfold rest18; simp only [scM1, owns_whole]
    iintro ⟨⟨H1, H2, H3, H4, H5, H6, H7, H8, H9, H10, H11, H12, H13, H14, H15, H16, H17, H18, H19⟩, Hg⟩
    isplitr [Hg]
    · isplitl [H13]; · iexact H13
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H14]; · iexact H14
      isplitl [H15]; · iexact H15
      isplitl [H16]; · iexact H16
      isplitl [H17]; · iexact H17
      isplitl [H18]; · iexact H18
      iexact H19
    · iexact Hg
  have h₂ : iprop((iprop(∃ d, owns (c : Thread nD τ) scM1 fullShare d) ∗ rest18 (F := F) c) ∗ (∃ r, prngReg c r)) ⊢ (Pipeline.ΦA spec1 c : sProp 𝕄) := by
    unfold Pipeline.ΦA; rw [scopedRest1_eq]; unfold rest18; simp only [scM1, owns_whole]
    iintro ⟨⟨H13, H1, H2, H3, H4, H5, H6, H7, H8, H9, H10, H11, H12, H14, H15, H16, H17, H18, H19⟩, Hg⟩
    isplitr [Hg]
    ·
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      iexact H19
    · iexact Hg
  exact BI.equiv_iff.mp ⟨h₁, h₂⟩

/-! ## What the accumulator holds after each point -/

/-- The accumulator after the body at position `n`: at a first inner point the zero fill plus that block's product,
    elsewhere what the point before left plus this block's product. -/
def acc1 (c : Dev nD) : (n : ℕ) → n < cfg1.N → Vec F S1024x1024 .f32
  | 0, hn => k1_pay2 (iblk1 V c 0 ⟨0, hn⟩) (iblk1 V c 2 ⟨0, hn⟩) (iblk1 V c 1 ⟨0, hn⟩) (iblk1 V c 3 ⟨0, hn⟩) k1_pay1
  | n + 1, hn =>
    if (n + 1) % 8 = 0 then
      k1_pay2 (iblk1 V c 0 ⟨n + 1, hn⟩) (iblk1 V c 2 ⟨n + 1, hn⟩) (iblk1 V c 1 ⟨n + 1, hn⟩) (iblk1 V c 3 ⟨n + 1, hn⟩) k1_pay1
    else
      k1_pay2 (iblk1 V c 0 ⟨n + 1, hn⟩) (iblk1 V c 2 ⟨n + 1, hn⟩) (iblk1 V c 1 ⟨n + 1, hn⟩) (iblk1 V c 3 ⟨n + 1, hn⟩) (acc1 c n (Nat.lt_of_succ_lt hn))

/-- At a first inner point the accumulator restarts from the zero fill. -/
theorem acc1_first (c : Dev nD) (t : Fin cfg1.N) (h : t.val % 8 = 0) :
    acc1 V c t.val t.isLt = k1_pay2 (iblk1 V c 0 t) (iblk1 V c 2 t) (iblk1 V c 1 t) (iblk1 V c 3 t) k1_pay1 := by
  obtain ⟨n, hn⟩ := t
  cases n with
  | zero => rfl
  | succ n => exact (if_pos h)

/-- Elsewhere it continues from what the point before left. -/
theorem acc1_next (c : Dev nD) (t : Fin cfg1.N) (h : t.val % 8 ≠ 0) :
    acc1 V c t.val t.isLt = k1_pay2 (iblk1 V c 0 t) (iblk1 V c 2 t) (iblk1 V c 1 t) (iblk1 V c 3 t)
      (acc1 V c (t.val - 1) (Nat.lt_of_le_of_lt (Nat.sub_le _ _) t.isLt)) := by
  obtain ⟨n, hn⟩ := t
  cases n with
  | zero => exact absurd (Nat.zero_mod _) h
  | succ n => exact (if_neg h)

/-! ## The invariant -/

/-- Before the first point the launch's invariant; afterwards the same with the accumulator at what the point before
    left in it. -/
def PhiS (c : Dev nD) : (n : ℕ) → n ≤ cfg1.N → sProp 𝕄
  | 0, _ => Pipeline.ΦA spec1 c
  | n + 1, hn => iprop((owns (c : Thread nD τ) scM1 fullShare (acc1 V c n hn) ∗ rest18 (F := F) c) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop((owns (c : Thread nD τ) scM1 fullShare (acc1 V c n hn) ∗ rest18 (F := F) c) ∗ (∃ r, prngReg c r)) := rfl

theorem PhiS_pos (c : Dev nD) (n : ℕ) (h : n ≤ cfg1.N) (hz : n ≠ 0) :
    PhiS V c n h = iprop((owns (c : Thread nD τ) scM1 fullShare (acc1 V c (n - 1) (by omega)) ∗ rest18 (F := F) c) ∗ (∃ r, prngReg c r)) := by
  cases n with
  | zero => exact absurd rfl hz
  | succ n => rfl

/-! ## The proof data -/

/-- The region's proof data on core `c`: the arrays as the region finds them; after the body each input's buffer at
    its block and the output's at the rectified, rounded accumulator; the invariant above; nothing owed; full
    shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => k1_pay3 (acc1 V c t.val t.isLt)
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
/-- The output window after the body: the rectified, rounded accumulator (consulted only where the block is written back). -/
theorem after1_4 (c : Dev nD) (t : Fin cfg1.N) : (dat1 V c).after 4 t = k1_pay3 (acc1 V c t.val t.isLt) := by dsimp only [dat1]
theorem after1_4_last (c : Dev nD) (t : Fin cfg1.N) (h : t.val % 8 = 7) : (dat1 V c).after 4 t = k1_pay3 (acc1 V c t.val t.isLt) :=
  after1_4 V c t

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
/-- The body at any point: the inputs' buffers hold their blocks; the point's inner coordinate selects the run; the
    invariant hands the body the accumulator at what the point before left (at anything at the very first point) and
    takes it back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  rw [show (dat1 V c).leavesExact 2 t = owns (c : Thread nD τ) (st1_2 t) fullShare ((dat1 V c).after 2 t) from by
    unfold Dat.leavesExact; rw [liveAt1_2 t], after1_2]
  rw [show (dat1 V c).leavesExact 3 t = owns (c : Thread nD τ) (st1_3 t) fullShare ((dat1 V c).after 3 t) from by
    unfold Dat.leavesExact; rw [liveAt1_3 t], after1_3]
  have hN : t.val < 64 := lt_of_lt_of_eq t.isLt (show cfg1.N = 64 from N_1)
  by_cases h0 : t.val % 8 = 0
  · have h1 : ¬t.val % 8 = 7 := by omega
    have hc0 : cond1_0 (grid1.coords t) := (hcond1_0 t).mpr h0
    have hc1 : ¬cond1_1 (grid1.coords t) := fun h => h1 ((hcond1_1 t).mp h)
    rw [Dat.leavesExact_idle (dat1 V c) 4 t (idleAt1_4 t hc1) (noFlush1_4 t hc1)]
    rw [acc1_first V c t h0]
    by_cases hz : t.val = 0
    · rw [PhiS_castSucc V c t, PhiS_zero V c _ _ hz, PhiA1_eq]
      iintro ⟨⟨⟨HS, HR⟩, Hg⟩, Ho, ⟨%d0, H0⟩, ⟨%d1, H1⟩, ⟨%d2, H2⟩, ⟨%d3, H3⟩, ⟨%d4, H4⟩⟩
      iapply (run1_first c (grid1.coords t) _ _ _ _ _ _ _ _ _ _ _ _ hc0 hc1 (iblk1 V c 0 t) (iblk1 V c 1 t) (iblk1 V c 2 t) (iblk1 V c 3 t) _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS HR Hg]
      · isplitr [Hg]
        · isplitl [HS]; · iexact HS
          iexact HR
        · iexact Hg
      isplitl [Ho]; · iexact Ho
      isplitl [H0]; · iexact H0
      isplitl [H1]; · iexact H1
      isplitl [H2]; · iexact H2
      isplitl [H3]; · iexact H3
      iexists _; iexact H4
    · rw [PhiS_castSucc V c t, PhiS_pos V c _ _ hz]
      iintro ⟨⟨⟨HS, HR⟩, Hg⟩, Ho, ⟨%d0, H0⟩, ⟨%d1, H1⟩, ⟨%d2, H2⟩, ⟨%d3, H3⟩, ⟨%d4, H4⟩⟩
      iapply (run1_first c (grid1.coords t) _ _ _ _ _ _ _ _ _ _ _ _ hc0 hc1 (iblk1 V c 0 t) (iblk1 V c 1 t) (iblk1 V c 2 t) (iblk1 V c 3 t) _ Set.univ _)
      isplitl [H0]; · iexact H0
      isplitl [H1]; · iexact H1
      isplitl [H2]; · iexact H2
      isplitl [H3]; · iexact H3
      isplitl [H4]; · iexact H4
      isplitl [HS]; · iexists _; iexact HS
      iintro ⟨H0, H1, H2, H3, H4, HS⟩
      isplitl [HS HR Hg]
      · isplitr [Hg]
        · isplitl [HS]; · iexact HS
          iexact HR
        · iexact Hg
      isplitl [Ho]; · iexact Ho
      isplitl [H0]; · iexact H0
      isplitl [H1]; · iexact H1
      isplitl [H2]; · iexact H2
      isplitl [H3]; · iexact H3
      iexists _; iexact H4
  · have hc0 : ¬cond1_0 (grid1.coords t) := fun h => h0 ((hcond1_0 t).mp h)
    have hz : t.val ≠ 0 := fun e => h0 (by rw [e])
    by_cases h1 : t.val % 8 = 7
    · have hc1 : cond1_1 (grid1.coords t) := (hcond1_1 t).mpr h1
      rw [show (dat1 V c).leavesExact 4 t = owns (c : Thread nD τ) (st1_4 t) fullShare ((dat1 V c).after 4 t) from by
        unfold Dat.leavesExact; rw [liveAt1_4 t hc1], after1_4]
      rw [acc1_next V c t h0]
      rw [PhiS_castSucc V c t, PhiS_pos V c _ _ hz]
      iintro ⟨⟨⟨HS, HR⟩, Hg⟩, Ho, ⟨%d0, H0⟩, ⟨%d1, H1⟩, ⟨%d2, H2⟩, ⟨%d3, H3⟩, ⟨%d4, H4⟩⟩
      iapply (run1_last c (grid1.coords t) _ _ _ _ _ _ _ _ _ _ _ _ hc0 hc1 (iblk1 V c 0 t) (iblk1 V c 1 t) (iblk1 V c 2 t) (iblk1 V c 3 t) _ Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, H4, HS⟩
      isplitl [HS HR Hg]
      · isplitr [Hg]
        · isplitl [HS]; · iexact HS
          iexact HR
        · iexact Hg
      isplitl [Ho]; · iexact Ho
      isplitl [H0]; · iexact H0
      isplitl [H1]; · iexact H1
      isplitl [H2]; · iexact H2
      isplitl [H3]; · iexact H3
      iexact H4
    · have hc1 : ¬cond1_1 (grid1.coords t) := fun h => h1 ((hcond1_1 t).mp h)
      rw [Dat.leavesExact_idle (dat1 V c) 4 t (idleAt1_4 t hc1) (noFlush1_4 t hc1)]
      rw [acc1_next V c t h0]
      rw [PhiS_castSucc V c t, PhiS_pos V c _ _ hz]
      iintro ⟨⟨⟨HS, HR⟩, Hg⟩, Ho, ⟨%d0, H0⟩, ⟨%d1, H1⟩, ⟨%d2, H2⟩, ⟨%d3, H3⟩, ⟨%d4, H4⟩⟩
      iapply (run1_mid c (grid1.coords t) _ _ _ _ _ _ _ _ _ _ _ _ hc0 hc1 (iblk1 V c 0 t) (iblk1 V c 1 t) (iblk1 V c 2 t) (iblk1 V c 3 t) _ _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS HR Hg]
      · isplitr [Hg]
        · isplitl [HS]; · iexact HS
          iexact HR
        · iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point but the first the invariant gives the launch's back: the accumulator's contents are forgotten. -/
theorem Phi_out1 (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA1_eq]
  iintro ⟨⟨HS, HR⟩, Hg⟩
  isplitr [Hg]
  · isplitl [HS]; · iexists _; iexact HS
    iexact HR
  · iexact Hg

/-- The same after the last point. -/
theorem hout1 (c : Dev nD) : (dat1 V c).Φ (Fin.last cfg1.N) ⊢ Pipeline.ΦA spec1 c :=
  Phi_out1 V c _ (by rw [Fin.val_last]; have : cfg1.N = 64 := N_1; omega)

/-- info: 'Cert.KernelIdeal.Hand.body_obligation1' depends on axioms: [propext, Classical.choice, Quot.sound] -/
#guard_msgs in #print axioms body_obligation1
/-- info: 'Cert.KernelIdeal.Hand.hin1' depends on axioms: [propext, Classical.choice, Quot.sound] -/
#guard_msgs in #print axioms hin1
/-- info: 'Cert.KernelIdeal.Hand.hout1' depends on axioms: [propext, Classical.choice, Quot.sound] -/
#guard_msgs in #print axioms hout1

end Cert.KernelIdeal.Hand

end
-- ==== Proof.FrameKI.R2.lean ====
/-
  Region 2 of the kernel's program: the third pallas_call, which at each of its 8 × 8 grid points multiplies one
  512 × 1024 block of query rows by the batch's 1024 × 1024 key–value matrix and stores the product block. One store
  of the whole output buffer, so the buffer is left at one piece: the product as a function of the two input blocks.
-/
import proofs.«171922_j27779848471445_1_alg».proof.Proof.Gen.KernelIdeal.Launch
import proofs.«171922_j27779848471445_1_alg».proof.Proof.Gen.KernelIdeal.Skeleton
import proofs.«171922_j27779848471445_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, whether the point fetches it or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: whole-buffer rectangles -/

abbrev rA2 : Rect S1x512x1024 := Rect.unit (s := S1x512x1024) ![0, 0, 0] S1x512x1024.size inb_S1x512x1024_S1x512x1024_0_0_0
abbrev rK2 : Rect S1x1024x1024 := Rect.unit (s := S1x1024x1024) ![0, 0, 0] S1x1024x1024.size inb_S1x1024x1024_S1x1024x1024_0_0_0

/-- The output block: the query block times the key–value matrix. -/
def out2_2 (x0 : Vec F S1x512x1024 .bf16) (x1 : Vec F S1x1024x1024 .bf16) : Vec F S1x512x1024 .f32 :=
  View.canon [⟨rA2, k2_pay1 (View.ld x0 rA2) (View.ld x1 rK2)⟩]

/-- One whole-buffer store covers the buffer. -/
theorem cover2_2 (p0 : Vec F S1x512x1024 .f32) (y : S1x512x1024.Idx) :
    ∃ pc ∈ ([⟨rA2, p0⟩] : List (View.Piece (Elt F) S1x512x1024 .f32)), y ∈ pc.1.set :=
  View.cover_of_tiled [⟨rA2, p0⟩] S1x512x1024.size (by rfl) y

/-! ## The body's triple -/

set_option maxHeartbeats 4000000 in
theorem sound_kernel2 (c : Dev nD) (E : Set ℕ) (i : grid2.Coords)
    (arg2 : Memref sig .tc .vmem S1x512x1024 .bf16) (harg2 : arg2.IsWhole) (arg3 : Memref sig .tc .vmem S1x1024x1024 .bf16) (harg3 : arg3.IsWhole)
    (arg4 : Memref sig .tc .vmem S1x512x1024 .f32) (harg4 : arg4.IsWhole)
    (x0 : Vec F S1x512x1024 .bf16) (x1 : Vec F S1x1024x1024 .bf16) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out2_2 x0 x1)) -∗ K ⟨⟩))
      ⊢ wp frame (wpE (defs₀ (F := F)) Variants.none c none) E (cc2__stage_c_kernel i arg2 harg2 arg3 harg3 arg4 harg4) K := by
  simp only [cc2__stage_c_kernel_eq_skeleton]; unfold cc2__stage_c_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  try dsimp only
  exact View.read_writes_eq_canon _ _ _ (cover2_2 _)

/-! ## The pipeline's proof data -/

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

set_option maxHeartbeats 1000000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ (grid2.coords t) _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.FrameKI.Run.lean ====
/-
  The kernel's whole program as a run: @main is a stretch of host operations (the weights cast to the matmul format),
  the first pallas_call, a second stretch (the two column norms over the sequence axis and their reciprocals), the
  second and the third pallas_call. The buffer contents at each boundary are a fold from the launch memory — a host
  stretch applies its operations, a region replaces its arrays by what its pipeline's write-backs leave — and every
  weakly fair execution ends with every unscoped buffer at the last boundary's contents. The frame claim (each
  argument array ends as launched) is that post read at the arguments, none of which a stretch or a region writes.
-/
import proofs.«171922_j27779848471445_1_alg».proof.Proof.FrameKI.R0
import proofs.«171922_j27779848471445_1_alg».proof.Proof.FrameKI.R1
import proofs.«171922_j27779848471445_1_alg».proof.Proof.FrameKI.R2

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary: a fold through @main -/

/-- Core `c`'s buffers at launch. -/
abbrev W0 : Dev nD → Valuation τ sig (Elt F) := fun c b => (s₀ m ρ).mem ((c : Dev nD), b)
/-- After the first host stretch (region 0's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At region 0's exit: its arrays at what the pipeline leaves (an input as entered, an output's write-backs folded),
    every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (region 1's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At region 1's exit: its arrays at what the pipeline leaves (an input as entered, an output's write-backs folded),
    every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- At region 2's exit: its arrays at what the pipeline leaves (an input as entered, an output's write-backs folded),
    every other buffer as entered. -/
def W5 (c : Dev nD) : Valuation τ sig (Elt F) :=
  Pipeline.withArrays spec2 c (W4 m ρ c) fun w => (dat2 (V4 m ρ) c).arrAt w cfg2.N
theorem W5_arr (c : Dev nD) (w : Fin cfg2.W) :
    W5 m ρ c (Proc.devRef .tc (Pipeline.arrRef spec2 w)) = (dat2 (V4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
abbrev V5 : (c : Dev nD) → (b : Ref sig .tc) → Buf (Elt F) ((c : Thread nD τ).loc b) := fun c b => W5 m ρ c b
theorem hF2 (c : Dev nD) (w : Fin cfg2.W) : (dat2 (V4 m ρ) c).arrAt w cfg2.N = V5 m ρ c (Pipeline.arrRef spec2 w) :=
  (W5_arr m ρ c w).symm
theorem hrest2 (c : Dev nD) : ∀ b, b ∉ Finset.univ.image (Pipeline.arrRef spec2) → V5 m ρ c b = V4 m ρ c b :=
  fun b hb => W5_of_ne m ρ c b fun w e => hb (Finset.mem_image.mpr ⟨w, Finset.mem_univ _, e⟩)

/-! ### The arguments end as launched: no host operation and no region writes one -/

theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := W5_of_ne m ρ c main_arg0 (by decide)
    _ = W3 m ρ c (Proc.devRef .tc main_arg0) := W4_of_ne m ρ c main_arg0 (by decide)
    _ = W2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = m ((c : Thread nD τ).loc main_arg0) := rfl

theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := W5_of_ne m ρ c main_arg1 (by decide)
    _ = W3 m ρ c (Proc.devRef .tc main_arg1) := W4_of_ne m ρ c main_arg1 (by decide)
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = m ((c : Thread nD τ).loc main_arg1) := rfl

theorem W5_main_arg2 (c : Dev nD) : W5 m ρ c (Proc.devRef .tc main_arg2) = m ((c : Thread nD τ).loc main_arg2) :=
  calc W5 m ρ c (Proc.devRef .tc main_arg2)
    _ = W4 m ρ c (Proc.devRef .tc main_arg2) := W5_of_ne m ρ c main_arg2 (by decide)
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = m ((c : Thread nD τ).loc main_arg2) := rfl

theorem W5_main_arg3 (c : Dev nD) : W5 m ρ c (Proc.devRef .tc main_arg3) = m ((c : Thread nD τ).loc main_arg3) :=
  calc W5 m ρ c (Proc.devRef .tc main_arg3)
    _ = W4 m ρ c (Proc.devRef .tc main_arg3) := W5_of_ne m ρ c main_arg3 (by decide)
    _ = W3 m ρ c (Proc.devRef .tc main_arg3) := W4_of_ne m ρ c main_arg3 (by decide)
    _ = W2 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = m ((c : Thread nD τ).loc main_arg3) := rfl

theorem W5_main_arg4 (c : Dev nD) : W5 m ρ c (Proc.devRef .tc main_arg4) = m ((c : Thread nD τ).loc main_arg4) :=
  calc W5 m ρ c (Proc.devRef .tc main_arg4)
    _ = W4 m ρ c (Proc.devRef .tc main_arg4) := W5_of_ne m ρ c main_arg4 (by decide)
    _ = W3 m ρ c (Proc.devRef .tc main_arg4) := W4_of_ne m ρ c main_arg4 (by decide)
    _ = W2 m ρ c (Proc.devRef .tc main_arg4) := StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = m ((c : Thread nD τ).loc main_arg4) := rfl

/-! ## The proof data family and the thread state -/

/-- No pallas_call has a prefetched table. -/
abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V4 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Tₙ (c : Dev nD) : sProp 𝕄 := iprop(StableHlo.held (c : Thread nD τ) (Pipeline.ucRefs τ sig) (W5 m ρ c) ∗ ∃ r, prngReg c r)

/-! ## The regions as segments -/

set_option backward.isDefEq.respectTransparency.types false in
/-- Region 0 over the thread state: entered from every unscoped buffer at `W1`, left at `W2`. Its arrays are split
    out of the unscoped buffers and put back at what the pipeline's write-backs leave; the generator register goes into
    the pipeline's invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`. Its arrays are split
    out of the unscoped buffers and put back at what the pipeline's write-backs leave; the generator register goes into
    the pipeline's invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (dat1 (V3 m ρ) c).Φ 0 from rfl]
    refine .trans ?_ (hin1 (V3 m ρ) c)
    unfold Pipeline.ΦA
    iintro ⟨Hp, -, Hr⟩
    isplitl [Hr]; · iexact Hr
    iexact Hp
  hout c := by
    rw [Pipeline.ownSems0_none, show (pdats m ρ 1 c).Φ (Fin.last _) = (dat1 (V3 m ρ) c).Φ (Fin.last cfg1.N) from rfl]
    refine (hout1 (V3 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W4`, left at `W5`. Its arrays are split
    out of the unscoped buffers and put back at what the pipeline's write-backs leave; the generator register goes into
    the pipeline's invariant and comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V4 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V4 m ρ c) (V5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .region (reg2 m ρ) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and
    every final state holds every unscoped buffer of every core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h => h)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c),
     (h c _ (mem_uc main_arg4 (by decide))).trans (W5_main_arg4 m ρ c)⟩) (run_all m ρ)

end Cert.KernelIdeal.Hand

end
-- ==== Proof.LibContractPlain.lean ====
/-
  The plain product of an M×K matrix by a K×N matrix, read at one entry, at the ideal values.

  A kernel's matrix unit accumulates the product into a splat of zeros; the host's product has no accumulator.
  Both, read at entry (a, b), are the sum over the contracted coordinate c of A (a, c) · B (c, b): a finite sum
  on the extended reals, with no rounding and no order of summation left in it.

  The dimension record is a parameter with an equation to the library's canonical plain record, so that a printed
  program's own record (the same six lists under another name) is accepted with `rfl`.
-/
import Idealize.ShloMosaic.Lib.StackMember

noncomputable section

namespace Cert.Lib.ContractPlain

open Idealize.ShloMosaic Idealize.ShloMosaic.ValueIdx

/-- The host's product of an M×K by a K×N matrix, read at (a, b), is the sum over c of A (a, c) · B (c, b). -/
theorem hostDot_apply {M K N : Nat} {φ₁ φ₂ : FTy} (D : DotDims ⟨2, ![M, K]⟩ ⟨2, ![K, N]⟩ ⟨2, ![M, N]⟩)
    (hD : D = DotDims.plain M K N) (prec : Option ContractPrecision)
    (A : FVec Ideal ⟨2, ![M, K]⟩ φ₁) (B : FVec Ideal ⟨2, ![K, N]⟩ φ₂) (a : Fin M) (b : Fin N) :
    Host.dotGeneral D prec A B (ix2 a b) = ∑ c : Fin K, A (ix2 a c) * B (ix2 c b) := by
  subst hD
  exact StackMember.dotGeneral_plain_apply prec A B a b

/-- A kernel's product of an M×K by a K×N matrix accumulated into the zero splat, read at (a, b), is the same sum:
    the accumulator contributes `0 + ·`. -/
theorem matmulZero_apply {M K N : Nat} {φ₁ φ₂ : FTy} (D : DotDims ⟨2, ![M, K]⟩ ⟨2, ![K, N]⟩ ⟨2, ![M, N]⟩)
    (hD : D = DotDims.plain M K N) (prec : Option ContractPrecision)
    (A : FVec Ideal ⟨2, ![M, K]⟩ φ₁) (B : FVec Ideal ⟨2, ![K, N]⟩ φ₂) (a : Fin M) (b : Fin N) :
    matmul D prec A B (constant (F := Ideal) ⟨2, ![M, N]⟩ .f32 0x00000000#32) (ix2 a b)
      = ∑ c : Fin K, A (ix2 a c) * B (ix2 c b) := by
  rw [matmul_zero_eq_dotGeneral]
  exact hostDot_apply D hD prec A B a b

end Cert.Lib.ContractPlain

end
-- ==== Proof.ValueKI.Pay.lean ====
/-
  The kernels' arithmetic read at one entry, at the ideal values (extended reals, every operation exact, a change of
  float format the identity). Each body's stored value is a matrix product of loaded blocks with a few pointwise
  operations around it; read at an entry it is a finite sum of products:
    • the first kernel's raw key / value block at row r, column e is Σ_j x(r, j) · w(j, e), and its query block the
      product of two such sums each clamped below at 0;
    • the second kernel's partial product at (d, e) is the accumulator's entry plus Σ_r (k(r, d) · s(d)) · (v(r, e) · s'(e)),
      the contraction running over the rows of both operands; its first-point fill is 0 and its output max(acc, 0);
    • the third kernel's block at row r, column e is Σ_d q(r, d) · kv(d, e).
-/
import proofs.«171922_j27779848471445_1_alg».proof.Proof.Gen.KernelIdeal.Skeleton
import proofs.«171922_j27779848471445_1_alg».proof.Proof.LibContractPlain
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.HandV

open Cert.KernelIdeal Cert.KernelIdeal.Gen
open Idealize.ShloMosaic Idealize.ShloMosaic.ValueIdx

/-- The dimension record of the second kernel's product: both operands contracted over their rows. -/
abbrev DT : DotDims S512x1024 S512x1024 S1024x1024 := dot_S512x1024_S512x1024_S1024x1024_0_0_1_1_n_n

theorem DT_lhs0 (i : S1024x1024.Idx) (q : DT.contr.Idx) : (DT.lhsIdx i q 0).val = (q ⟨0, by decide⟩).val :=
  DT.lhsIdx_val_of_single rfl i q
theorem DT_lhs1 (i : S1024x1024.Idx) (q : DT.contr.Idx) : (DT.lhsIdx i q 1).val = (i 0).val := by
  unfold DotDims.lhsIdx
  rw [dif_neg (show ¬(1 : Fin S512x1024.rank) ∈ DT.lhsBatch by decide), dif_pos (show (1 : Fin S512x1024.rank) ∈ DT.lhsNonContracting by decide)]
  rfl
theorem DT_rhs0 (i : S1024x1024.Idx) (q : DT.contr.Idx) : (DT.rhsIdx i q 0).val = (q ⟨0, by decide⟩).val :=
  DT.rhsIdx_val_of_single rfl i q
theorem DT_rhs1 (i : S1024x1024.Idx) (q : DT.contr.Idx) : (DT.rhsIdx i q 1).val = (i 1).val := by
  unfold DotDims.rhsIdx
  rw [dif_neg (show ¬(1 : Fin S512x1024.rank) ∈ DT.rhsBatch by decide), dif_pos (show (1 : Fin S512x1024.rank) ∈ DT.rhsNonContracting by decide)]
  rfl

/-- A product contracting the rows of both operands, into the zero accumulator, read at (d, e): Σ_r A(r, d) · B(r, e). -/
theorem matmulRows_apply (A B : FVec Ideal S512x1024 .bf16) (d e : Fin 1024) :
    matmul DT none A B (constant (F := Ideal) S1024x1024 .f32 0x00000000#32) (ix2 d e) = ∑ r : Fin 512, A (ix2 r d) * B (ix2 r e) := by
  show FloatOps.matmul DT none A B (constant S1024x1024 .f32 0x00000000#32) (ix2 d e) = _
  rw [Ideal.matmul_constant_zero_apply, ← Equiv.sum_comp (contrEquiv1 DT 512 rfl rfl).symm]
  refine Finset.sum_congr rfl fun r _ => ?_
  have hk := contrEquiv1_symm_val DT 512 rfl rfl r
  have el : DT.lhsIdx (ix2 d e) ((contrEquiv1 DT 512 rfl rfl).symm r) = ix2 r d := funext fun a => Fin.ext (by
    match a with
    | ⟨0, _⟩ => exact (DT_lhs0 _ _).trans hk
    | ⟨1, _⟩ => exact DT_lhs1 _ _)
  have er : DT.rhsIdx (ix2 d e) ((contrEquiv1 DT 512 rfl rfl).symm r) = ix2 r e := funext fun a => Fin.ext (by
    match a with
    | ⟨0, _⟩ => exact (DT_rhs0 _ _).trans hk
    | ⟨1, _⟩ => exact DT_rhs1 _ _)
  rw [el, er]

/-! ## The first kernel -/

/-- The row block as the matrix unit's left operand: its entry (r, j). -/
theorem pay1_apply (x0 : FVec Ideal S1x512x1024 .f32) (r : Fin 512) (j : Fin 1024) :
    k0_pay1 (F := Ideal) x0 (ix2 r j) = x0 (ix3 (0 : Fin 1) r j) := by
  unfold k0_pay1
  exact shapeCast_1ab_ab_apply x0 _ r j

/-- One projection of the row block: Σ_j x(r, j) · w(j, e). -/
theorem proj_apply (x0 : FVec Ideal S1x512x1024 .f32) (w : FVec Ideal S1024x1024 .bf16) (r : Fin 512) (e : Fin 1024) :
    matmul dot_S512x1024_S1024x1024_S512x1024_1_0_0_1_n_n none (k0_pay1 (F := Ideal) x0) (shapeCast S1024x1024 w shapeCasts_S1024x1024_S1024x1024)
        (constant (F := Ideal) S512x1024 .f32 0x00000000#32) (ix2 r e)
      = ∑ j : Fin 1024, x0 (ix3 (0 : Fin 1) r j) * w (ix2 j e) := by
  refine (Cert.Lib.ContractPlain.matmulZero_apply _ rfl none _ _ r e).trans ?_
  refine Finset.sum_congr rfl fun j _ => ?_
  rw [pay1_apply, shapeCast_self]

theorem pay3_apply (x0 : FVec Ideal S1x512x1024 .f32) (w : FVec Ideal S1024x1024 .bf16) (u : Fin 1) (r : Fin 512) (e : Fin 1024) :
    k0_pay3 (F := Ideal) x0 w (ix3 u r e) = ∑ j : Fin 1024, x0 (ix3 (0 : Fin 1) r j) * w (ix2 j e) := by
  unfold k0_pay3
  exact (shapeCast_ab_1ab_apply _ _ u r e).trans (proj_apply x0 w r e)

theorem pay4_apply (x0 : FVec Ideal S1x512x1024 .f32) (w : FVec Ideal S1024x1024 .bf16) (u : Fin 1) (r : Fin 512) (e : Fin 1024) :
    k0_pay4 (F := Ideal) x0 w (ix3 u r e) = ∑ j : Fin 1024, x0 (ix3 (0 : Fin 1) r j) * w (ix2 j e) := by
  unfold k0_pay4
  exact (shapeCast_ab_1ab_apply _ _ u r e).trans (proj_apply x0 w r e)

theorem pay2_apply (x0 : FVec Ideal S1x512x1024 .f32) (w1 w2 : FVec Ideal S1024x1024 .bf16) (u : Fin 1) (r : Fin 512) (e : Fin 1024) :
    k0_pay2 (F := Ideal) x0 w1 w2 (ix3 u r e)
      = max (∑ j : Fin 1024, x0 (ix3 (0 : Fin 1) r j) * w1 (ix2 j e)) 0 * max (∑ j : Fin 1024, x0 (ix3 (0 : Fin 1) r j) * w2 (ix2 j e)) 0 := by
  unfold k0_pay2
  refine (shapeCast_ab_1ab_apply _ _ u r e).trans ?_
  simp only [truncf_apply, mulf_apply, maximumf_apply, broadcast_apply]
  rw [proj_apply, proj_apply]
  show max _ (Ideal.ofBits .f32 0x00000000#32) * max _ (Ideal.ofBits .f32 0x00000000#32) = _
  rw [Ideal.ofBits_zero_f32]

/-! ## The third kernel -/

theorem k2_pay1_apply (q : FVec Ideal S1x512x1024 .bf16) (kv : FVec Ideal S1x1024x1024 .bf16) (u : Fin 1) (r : Fin 512) (e : Fin 1024) :
    k2_pay1 (F := Ideal) q kv (ix3 u r e) = ∑ d : Fin 1024, q (ix3 (0 : Fin 1) r d) * kv (ix3 (0 : Fin 1) d e) := by
  unfold k2_pay1
  refine (shapeCast_ab_1ab_apply _ _ u r e).trans ?_
  refine (Cert.Lib.ContractPlain.matmulZero_apply _ rfl none _ _ r e).trans ?_
  refine Finset.sum_congr rfl fun d _ => ?_
  rw [shapeCast_1ab_ab_apply, shapeCast_1ab_ab_apply]

/-! ## The second kernel -/

theorem k1_pay1_apply (d e : Fin 1024) : k1_pay1 (F := Ideal) (ix2 d e) = 0 := by
  unfold k1_pay1
  rw [shapeCast_self]
  show Ideal.ofBits .f32 0x00000000#32 = 0
  exact Ideal.ofBits_zero_f32

theorem k1_pay3_apply (acc : FVec Ideal S1024x1024 .f32) (u : Fin 1) (d e : Fin 1024) :
    k1_pay3 (F := Ideal) acc (ix3 u d e) = max (acc (ix2 d e)) 0 := by
  unfold k1_pay3
  refine (shapeCast_ab_1ab_apply _ _ u d e).trans ?_
  show max (acc (ix2 d e)) (Ideal.ofBits .f32 0x00000000#32) = _
  rw [Ideal.ofBits_zero_f32]

theorem k1_pay2_apply (x0 : FVec Ideal S1x512x1024 .f32) (s0 : FVec Ideal S1x1x1024 .f32) (x1 : FVec Ideal S1x512x1024 .f32) (s1 : FVec Ideal S1x1x1024 .f32)
    (acc : FVec Ideal S1024x1024 .f32) (d e : Fin 1024) :
    k1_pay2 (F := Ideal) x0 s0 x1 s1 acc (ix2 d e)
      = acc (ix2 d e) + ∑ r : Fin 512, (x0 (ix3 (0 : Fin 1) r d) * s0 (ix3 (0 : Fin 1) (0 : Fin 1) d)) * (x1 (ix3 (0 : Fin 1) r e) * s1 (ix3 (0 : Fin 1) (0 : Fin 1) e)) := by
  unfold k1_pay2
  rw [shapeCast_self]
  refine (addf_apply _ _ _).trans ?_
  refine congrArg (acc (ix2 d e) + ·) ?_
  refine (matmulRows_apply _ _ d e).trans ?_
  refine Finset.sum_congr rfl fun r _ => ?_
  simp only [truncf_apply, mulf_apply]
  rw [shapeCast_1ab_ab_apply, shapeCast_1ab_ab_apply, broadcastTo_1b_ab_apply, broadcastTo_1b_ab_apply, shapeCast_1ab_ab_apply, shapeCast_1ab_ab_apply]

end Cert.KernelIdeal.HandV

end
-- ==== Proof.Spec.lean ====
/-
  The mathematics both programs compute, coordinate by coordinate, on the extended reals.

  Inputs: x over [8, 4096, 1024] and four weight matrices over [1024, 1024]. With
  proj w (b, n, e) = Σ_j x[b, n, j] · w[j, e]:
    query = max(proj wqr, 0) · max(proj wqi, 0),  kraw = proj wk,  vraw = proj wv,
    den w (b, e) = sqrt(Σ_n (proj w (b, n, e))²) + ε.
  REFERENCE form G: kv[b, d, e] = max(Σ_n (kraw[b, n, d] / den wk (b, d)) · (vraw[b, n, e] / den wv (b, e)), 0) and
  out[b, n, e] = Σ_d query[b, n, d] · kv[b, d, e].
  KERNEL form K: the same, except that the quotient is the product with the reciprocal 1 / den, and the sum over
  the 4096 rows is accumulated in eight blocks of 512 rows, starting from 0.
-/
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

/-- The shape of x and of the result. -/
abbrev SX : Shape := ⟨3, ![8, 4096, 1024]⟩
/-- The shape of a weight matrix. -/
abbrev SW : Shape := ⟨2, ![1024, 1024]⟩

/-- The small positive constant added to a norm. -/
abbrev eps : EReal := Ideal.ofBits .f32 0x3727C5AC#32

/-- The constant that denotes 1: the numerator of a reciprocal as a program spells it. -/
abbrev one : EReal := Ideal.ofBits .f32 0x3F800000#32

/-- It denotes 1. -/
theorem one_eq : one = 1 := by
  unfold one
  simp [Ideal.ofBits, Ideal.ieee, -EReal.coe_mul]; norm_num

/-- One entry of x · w. -/
def proj (x : SX.Idx → EReal) (w : SW.Idx → EReal) (b : Fin 8) (n : Fin 4096) (e : Fin 1024) : EReal :=
  ∑ j : Fin 1024, x (ix3 b n j) * w (ix2 j e)

/-- The gated query: the product of the two projections' positive parts. -/
def query (x : SX.Idx → EReal) (wqr wqi : SW.Idx → EReal) (b : Fin 8) (n : Fin 4096) (e : Fin 1024) : EReal :=
  max (proj x wqr b n e) 0 * max (proj x wqi b n e) 0

/-- The sum over the rows of a projection's squares. -/
def ssq (x : SX.Idx → EReal) (w : SW.Idx → EReal) (b : Fin 8) (e : Fin 1024) : EReal :=
  ∑ n : Fin 4096, proj x w b n e * proj x w b n e

/-- The norm over the rows, plus ε: the divisor. -/
def den (x : SX.Idx → EReal) (w : SW.Idx → EReal) (b : Fin 8) (e : Fin 1024) : EReal :=
  Ideal.sqrt (ssq x w b e) + eps

/-! ## The reference's form -/

/-- The key–value matrix: the positive part of the sum over all 4096 rows of the normalised products. -/
def kvRef (x : SX.Idx → EReal) (wk wv : SW.Idx → EReal) (b : Fin 8) (d e : Fin 1024) : EReal :=
  max (∑ n : Fin 4096, Ideal.div (proj x wk b n d) (den x wk b d) * Ideal.div (proj x wv b n e) (den x wv b e)) 0

/-- The reference's result at coordinates. -/
def Gc (x : SX.Idx → EReal) (wqr wqi wk wv : SW.Idx → EReal) (b : Fin 8) (n : Fin 4096) (e : Fin 1024) : EReal :=
  ∑ d : Fin 1024, query x wqr wqi b n d * kvRef x wk wv b d e

/-- The reference's result. -/
def G (x : SX.Idx → EReal) (wqr wqi wk wv : SW.Idx → EReal) : SX.Idx → EReal :=
  fun i => Gc x wqr wqi wk wv (i 0) (i 1) (i 2)

/-! ## The kernel's form -/

/-- The reciprocal of the divisor. -/
def invDen (x : SX.Idx → EReal) (w : SW.Idx → EReal) (b : Fin 8) (e : Fin 1024) : EReal :=
  Ideal.div 1 (den x w b e)

/-- A projection scaled by the reciprocal of its divisor. -/
def scaled (x : SX.Idx → EReal) (w : SW.Idx → EReal) (b : Fin 8) (n : Fin 4096) (e : Fin 1024) : EReal :=
  proj x w b n e * invDen x w b e

/-- Row r of block t, of eight blocks of 512 rows. -/
def rowOf (t : Fin 8) (r : Fin 512) : Fin 4096 := ⟨512 * t.val + r.val, by omega⟩

/-- Block t's contribution: the sum over its 512 rows. -/
def part (x : SX.Idx → EReal) (wk wv : SW.Idx → EReal) (b : Fin 8) (d e : Fin 1024) (t : Fin 8) : EReal :=
  ∑ r : Fin 512, scaled x wk b (rowOf t r) d * scaled x wv b (rowOf t r) e

/-- The block contributions indexed by a natural number (0 past the eighth). -/
def partN (x : SX.Idx → EReal) (wk wv : SW.Idx → EReal) (b : Fin 8) (d e : Fin 1024) (t : ℕ) : EReal :=
  if h : t < 8 then part x wk wv b d e ⟨t, h⟩ else 0

/-- The running sum: 0 + P 0, then + P 1, and so on. -/
def accN (P : ℕ → EReal) : ℕ → EReal
  | 0 => 0 + P 0
  | t + 1 => accN P t + P (t + 1)

/-- The key–value matrix as the kernel accumulates it: the positive part of the eighth running sum. -/
def kvKer (x : SX.Idx → EReal) (wk wv : SW.Idx → EReal) (b : Fin 8) (d e : Fin 1024) : EReal :=
  max (accN (partN x wk wv b d e) 7) 0

/-- The kernel's result at coordinates. -/
def Kc (x : SX.Idx → EReal) (wqr wqi wk wv : SW.Idx → EReal) (b : Fin 8) (n : Fin 4096) (e : Fin 1024) : EReal :=
  ∑ d : Fin 1024, query x wqr wqi b n d * kvKer x wk wv b d e

/-- The kernel's result. -/
def K (x : SX.Idx → EReal) (wqr wqi wk wv : SW.Idx → EReal) : SX.Idx → EReal :=
  fun i => Kc x wqr wqi wk wv (i 0) (i 1) (i 2)

/-- At an index given by its coordinates the reference's result is its coordinate form. -/
theorem G_ix3 (x : SX.Idx → EReal) (wqr wqi wk wv : SW.Idx → EReal) (b : Fin 8) (n : Fin 4096) (e : Fin 1024) :
    G x wqr wqi wk wv (ix3 b n e) = Gc x wqr wqi wk wv b n e := rfl

/-- At an index given by its coordinates the kernel's result is its coordinate form. -/
theorem K_ix3 (x : SX.Idx → EReal) (wqr wqi wk wv : SW.Idx → EReal) (b : Fin 8) (n : Fin 4096) (e : Fin 1024) :
    K x wqr wqi wk wv (ix3 b n e) = Kc x wqr wqi wk wv b n e := rfl

end Cert.Spec

end
-- ==== Proof.ValueKI.ArrDefs.lean ====
/-
  The whole arrays the kernel's three pallas_calls leave, each as one function of the arrays it reads, entry by entry,
  at the ideal values:
    • a projection: entry (b, n, e) is Σ_j x(b, n, j) · w(j, e);
    • the query array: the product of two projections each clamped below at 0;
    • the key–value array: for batch b and entry (d, e), the eight partial sums over blocks of 512 sequence rows of
      (k(b, n, d) · s(b, d)) · (v(b, n, e) · s'(b, e)), added up in order from 0, then clamped below at 0;
    • the output array: entry (b, n, e) is Σ_d q(b, n, d) · kv(b, d, e).
-/
import proofs.«171922_j27779848471445_1_alg».proof.KernelIdeal
import proofs.«171922_j27779848471445_1_alg».proof.Proof.Spec
import Idealize.ShloMosaic.Lib.ValueIdx

noncomputable section

namespace Cert.KernelIdeal.HandV

open Cert.KernelIdeal
open Idealize.ShloMosaic Idealize.ShloMosaic.ValueIdx

theorem hz3 : (![0, 0, 0] : Fin 3 → Nat) = fun _ => 0 := funext fun a => by fin_cases a <;> rfl
theorem hz2 : (![0, 0] : Fin 2 → Nat) = fun _ => 0 := funext fun a => by fin_cases a <;> rfl

/-- A projection of the input by a weight matrix: entry (b, n, e) is Σ_j x(b, n, j) · w(j, e). -/
def projArr (xa : S8x4096x1024.Idx → EReal) (wa : S1024x1024.Idx → EReal) : S8x4096x1024.Idx → EReal :=
  fun i => ∑ j : Fin 1024, xa (ix3 (i 0) (i 1) j) * wa (ix2 j (i 2))

/-- The query array: two projections, each clamped below at 0, multiplied. -/
def queryArr (xa : S8x4096x1024.Idx → EReal) (w1 w2 : S1024x1024.Idx → EReal) : S8x4096x1024.Idx → EReal :=
  fun i => max (∑ j : Fin 1024, xa (ix3 (i 0) (i 1) j) * w1 (ix2 j (i 2))) 0 * max (∑ j : Fin 1024, xa (ix3 (i 0) (i 1) j) * w2 (ix2 j (i 2))) 0

/-- Block `n` (of eight) of the key–value sum at batch b, entry (d, e): the 512 rows 512·n … 512·n + 511 of the scaled keys
    against the scaled values; 0 past the eighth block. -/
def partArr (kr vr : S8x4096x1024.Idx → EReal) (sk sv : S8x1x1024.Idx → EReal) (b : Fin 8) (d e : Fin 1024) (n : ℕ) : EReal :=
  if h : n < 8 then ∑ r : Fin 512, (kr (ix3 b (Cert.Spec.rowOf ⟨n, h⟩ r) d) * sk (ix3 b (0 : Fin 1) d)) * (vr (ix3 b (Cert.Spec.rowOf ⟨n, h⟩ r) e) * sv (ix3 b (0 : Fin 1) e))
  else 0

/-- The key–value array: the eight blocks added in order from 0, clamped below at 0. -/
def kvArr (kr vr : S8x4096x1024.Idx → EReal) (sk sv : S8x1x1024.Idx → EReal) : S8x1024x1024.Idx → EReal :=
  fun i => max (Cert.Spec.accN (partArr kr vr sk sv (i 0) (i 1) (i 2)) 7) 0

/-- The output array: entry (b, n, e) is Σ_d q(b, n, d) · kv(b, d, e). -/
def outArr (qa : S8x4096x1024.Idx → EReal) (kva : S8x1024x1024.Idx → EReal) : S8x4096x1024.Idx → EReal :=
  fun i => ∑ d : Fin 1024, qa (ix3 (i 0) (i 1) d) * kva (ix3 (i 0) d (i 2))

end Cert.KernelIdeal.HandV

end
-- ==== Proof.ValueKI.Arr0.lean ====
/-
  What the first pallas_call leaves in its three output arrays, each as one function of the arrays it reads. At grid
  point (b, nb) the body sees rows 512·nb … 512·nb + 511 of batch b of the input and the four whole weight matrices, and
  writes back the same rows of the three outputs; the 8 × 8 points' blocks tile each output, so each ends holding its
  function whole: the query array, and the key and value projections.
-/
import proofs.«171922_j27779848471445_1_alg».proof.Proof.FrameKI.R0
import proofs.«171922_j27779848471445_1_alg».proof.Proof.ValueKI.Pay
import proofs.«171922_j27779848471445_1_alg».proof.Proof.ValueKI.ArrDefs

set_option maxRecDepth 16384

noncomputable section

namespace Cert.KernelIdeal.HandV

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-! ## The raw keys (window 6) and the raw values (window 7) -/

/-- The printed index maps at a point, decided over the grid: the point is (b, nb); the row block's window and output
    window 6 sit at block (b, nb, 0), the weight window at block (0, 0). -/
theorem idx_facts0_6 : ∀ t : Fin cfg0.N, ∃ (b : Fin 8) (nb : Fin 8), b.val = t.val / 8 ∧ nb.val = t.val % 8
    ∧ win0_0.index t (0 : Fin 3) = b.val ∧ win0_0.index t (1 : Fin 3) = nb.val ∧ win0_0.index t (2 : Fin 3) = 0
    ∧ win0_6.index t (0 : Fin 3) = b.val ∧ win0_6.index t (1 : Fin 3) = nb.val ∧ win0_6.index t (2 : Fin 3) = 0
    ∧ win0_3.index t (0 : Fin 2) = 0 ∧ win0_3.index t (1 : Fin 2) = 0 :=
  (by decide +kernel : ∀ t : Fin grid0.N, _)

/-- What point `t` writes back through window 6 is block `t` of the key projection. -/
theorem flushed0_6_eq (c : Dev nD) (t : Fin cfg0.N) :
    (dat0 V c).flushed 6 t = ((cfg0.win 6).blk t).view.read (Elt Ideal) (projArr (V c main_arg0) (V c main_v2)) := by
  show (cfg0.win 6).cut (grid0.coords t) ((dat0 V c).after 6 t) = _
  rw [after0_6]
  unfold out0_6
  rw [View.canon_unit_zero hz3]
  simp only [View.ld_unit_zero (S := S1x512x1024) hz3, View.ld_unit_zero (S := S1024x1024) hz2]
  funext y
  obtain ⟨u, r, e, rfl⟩ : ∃ (u : Fin 1) (r : Fin 512) (e : Fin 1024), y = ix3 u r e := ⟨y 0, y 1, y 2, eq_ix3 y⟩
  obtain ⟨b, nb, hb, hnb, h00, h01, h02, hq0, hq1, hq2, hw0, hw1⟩ := idx_facts0_6 t
  have hE : ((cfg0.win 6).blk t).view.emb (ix3 u r e) = ix3 b (⟨nb.val * 512 + r.val, by omega⟩ : Fin 4096) e := by
    funext a; apply Fin.ext
    match a with
    | ⟨0, _⟩ => show win0_6.index t (0 : Fin 3) * 1 + 1 * u.val = b.val; omega
    | ⟨1, _⟩ => show win0_6.index t (1 : Fin 3) * 512 + 1 * r.val = nb.val * 512 + r.val; omega
    | ⟨2, _⟩ => show win0_6.index t (2 : Fin 3) * 1024 + 1 * e.val = e.val; omega
  show k0_pay3 (iblk0 V c 0 t) (iblk0 V c 3 t) (ix3 u r e) = projArr (V c main_arg0) (V c main_v2) (((cfg0.win 6).blk t).view.emb (ix3 u r e))
  rw [pay3_apply, hE]
  unfold projArr
  · refine Finset.sum_congr rfl fun j _ => ?_
    have hx : ((cfg0.win 0).blk t).view.emb (ix3 (0 : Fin 1) r j) = ix3 b (⟨nb.val * 512 + r.val, by omega⟩ : Fin 4096) j := by
      funext a; apply Fin.ext
      match a with
      | ⟨0, _⟩ => show win0_0.index t (0 : Fin 3) * 1 + 1 * 0 = b.val; omega
      | ⟨1, _⟩ => show win0_0.index t (1 : Fin 3) * 512 + 1 * r.val = nb.val * 512 + r.val; omega
      | ⟨2, _⟩ => show win0_0.index t (2 : Fin 3) * 1024 + 1 * j.val = j.val; omega
    have hwt : ((cfg0.win 3).blk t).view.emb (ix2 j e) = ix2 j e := by
      funext a; apply Fin.ext
      match a with
      | ⟨0, _⟩ => show win0_3.index t (0 : Fin 2) * 1024 + 1 * j.val = j.val; omega
      | ⟨1, _⟩ => show win0_3.index t (1 : Fin 2) * 1024 + 1 * e.val = e.val; omega
    refine congrArg₂ (· * ·) ?_ ?_
    · show V c main_arg0 (((cfg0.win 0).blk t).view.emb (ix3 (0 : Fin 1) r j)) = _
      rw [hx]
    · show V c main_v2 (((cfg0.win 3).blk t).view.emb (ix2 j e)) = _
      rw [hwt]

/-- An index of the array is in point `t`'s block of window 6 iff each coordinate is in the block's range. -/
theorem mem_blk0_6 (t : Fin cfg0.N) (i : S8x4096x1024.Idx) :
    i ∈ ((cfg0.win 6).blk t).view.set ↔ ∀ a : Fin 3, win0_6.index t a * S1x512x1024.size a ≤ (i a).val ∧ (i a).val < win0_6.index t a * S1x512x1024.size a + S1x512x1024.size a := by
  show i ∈ ((View.whole main_v4_1).slice (win0_6.rect t)).set ↔ _
  rw [View.set_slice_whole, Rect.mem_set_unit]
  exact Iff.rfl

/-- Every entry of the array lies in some point's block: entry (b, n, e) in the block of point (b, n / 512). -/
theorem cover0_6 (i : S8x4096x1024.Idx) : ∃ t : Fin cfg0.N, (cfg0.win 6).flush t = true ∧ i ∈ ((cfg0.win 6).blk t).view.set := by
  have hi0 : (i 0).val < 8 := (i 0).isLt
  have hi1 : (i 1).val < 4096 := (i 1).isLt
  have hi2 : (i 2).val < 1024 := (i 2).isLt
  refine ⟨⟨(i 0).val * 8 + (i 1).val / 512, by rw [show cfg0.N = 64 from N_0]; omega⟩, flush0_6 _, ?_⟩
  rw [mem_blk0_6]
  obtain ⟨b, nb, hb, hnb, -, -, -, h0, h1, h2, -, -⟩ := idx_facts0_6 ⟨(i 0).val * 8 + (i 1).val / 512, by rw [show cfg0.N = 64 from N_0]; omega⟩
  have hb' : b.val = (i 0).val := by rw [hb]; show ((i 0).val * 8 + (i 1).val / 512) / 8 = _; omega
  have hnb' : nb.val = (i 1).val / 512 := by rw [hnb]; show ((i 0).val * 8 + (i 1).val / 512) % 8 = _; omega
  intro a
  match a with
  | ⟨0, _⟩ => show win0_6.index _ (0 : Fin 3) * 1 ≤ (i 0).val ∧ (i 0).val < win0_6.index _ (0 : Fin 3) * 1 + 1; omega
  | ⟨1, _⟩ => show win0_6.index _ (1 : Fin 3) * 512 ≤ (i 1).val ∧ (i 1).val < win0_6.index _ (1 : Fin 3) * 512 + 512; omega
  | ⟨2, _⟩ => show win0_6.index _ (2 : Fin 3) * 1024 ≤ (i 2).val ∧ (i 2).val < win0_6.index _ (2 : Fin 3) * 1024 + 1024; omega

/-- The raw-key array after the region: the key projection of the input. -/
theorem arr0_6 (c : Dev nD) : (dat0 V c).arrAt 6 cfg0.N = projArr (V c main_arg0) (V c main_v2) :=
  (dat0 V c).arrAt_eq_of_cover 6 _ (fun t _ => flushed0_6_eq V c t) cover0_6

/-- The printed index maps at a point, decided over the grid: the point is (b, nb); the row block's window and output
    window 7 sit at block (b, nb, 0), the weight window at block (0, 0). -/
theorem idx_facts0_7 : ∀ t : Fin cfg0.N, ∃ (b : Fin 8) (nb : Fin 8), b.val = t.val / 8 ∧ nb.val = t.val % 8
    ∧ win0_0.index t (0 : Fin 3) = b.val ∧ win0_0.index t (1 : Fin 3) = nb.val ∧ win0_0.index t (2 : Fin 3) = 0
    ∧ win0_7.index t (0 : Fin 3) = b.val ∧ win0_7.index t (1 : Fin 3) = nb.val ∧ win0_7.index t (2 : Fin 3) = 0
    ∧ win0_4.index t (0 : Fin 2) = 0 ∧ win0_4.index t (1 : Fin 2) = 0 :=
  (by decide +kernel : ∀ t : Fin grid0.N, _)

/-- What point `t` writes back through window 7 is block `t` of the value projection. -/
theorem flushed0_7_eq (c : Dev nD) (t : Fin cfg0.N) :
    (dat0 V c).flushed 7 t = ((cfg0.win 7).blk t).view.read (Elt Ideal) (projArr (V c main_arg0) (V c main_v3)) := by
  show (cfg0.win 7).cut (grid0.coords t) ((dat0 V c).after 7 t) = _
  rw [after0_7]
  unfold out0_7
  rw [View.canon_unit_zero hz3]
  simp only [View.ld_unit_zero (S := S1x512x1024) hz3, View.ld_unit_zero (S := S1024x1024) hz2]
  funext y
  obtain ⟨u, r, e, rfl⟩ : ∃ (u : Fin 1) (r : Fin 512) (e : Fin 1024), y = ix3 u r e := ⟨y 0, y 1, y 2, eq_ix3 y⟩
  obtain ⟨b, nb, hb, hnb, h00, h01, h02, hq0, hq1, hq2, hw0, hw1⟩ := idx_facts0_7 t
  have hE : ((cfg0.win 7).blk t).view.emb (ix3 u r e) = ix3 b (⟨nb.val * 512 + r.val, by omega⟩ : Fin 4096) e := by
    funext a; apply Fin.ext
    match a with
    | ⟨0, _⟩ => show win0_7.index t (0 : Fin 3) * 1 + 1 * u.val = b.val; omega
    | ⟨1, _⟩ => show win0_7.index t (1 : Fin 3) * 512 + 1 * r.val = nb.val * 512 + r.val; omega
    | ⟨2, _⟩ => show win0_7.index t (2 : Fin 3) * 1024 + 1 * e.val = e.val; omega
  show k0_pay4 (iblk0 V c 0 t) (iblk0 V c 4 t) (ix3 u r e) = projArr (V c main_arg0) (V c main_v3) (((cfg0.win 7).blk t).view.emb (ix3 u r e))
  rw [pay4_apply, hE]
  unfold projArr
  · refine Finset.sum_congr rfl fun j _ => ?_
    have hx : ((cfg0.win 0).blk t).view.emb (ix3 (0 : Fin 1) r j) = ix3 b (⟨nb.val * 512 + r.val, by omega⟩ : Fin 4096) j := by
      funext a; apply Fin.ext
      match a with
      | ⟨0, _⟩ => show win0_0.index t (0 : Fin 3) * 1 + 1 * 0 = b.val; omega
      | ⟨1, _⟩ => show win0_0.index t (1 : Fin 3) * 512 + 1 * r.val = nb.val * 512 + r.val; omega
      | ⟨2, _⟩ => show win0_0.index t (2 : Fin 3) * 1024 + 1 * j.val = j.val; omega
    have hwt : ((cfg0.win 4).blk t).view.emb (ix2 j e) = ix2 j e := by
      funext a; apply Fin.ext
      match a with
      | ⟨0, _⟩ => show win0_4.index t (0 : Fin 2) * 1024 + 1 * j.val = j.val; omega
      | ⟨1, _⟩ => show win0_4.index t (1 : Fin 2) * 1024 + 1 * e.val = e.val; omega
    refine congrArg₂ (· * ·) ?_ ?_
    · show V c main_arg0 (((cfg0.win 0).blk t).view.emb (ix3 (0 : Fin 1) r j)) = _
      rw [hx]
    · show V c main_v3 (((cfg0.win 4).blk t).view.emb (ix2 j e)) = _
      rw [hwt]

/-- An index of the array is in point `t`'s block of window 7 iff each coordinate is in the block's range. -/
theorem mem_blk0_7 (t : Fin cfg0.N) (i : S8x4096x1024.Idx) :
    i ∈ ((cfg0.win 7).blk t).view.set ↔ ∀ a : Fin 3, win0_7.index t a * S1x512x1024.size a ≤ (i a).val ∧ (i a).val < win0_7.index t a * S1x512x1024.size a + S1x512x1024.size a := by
  show i ∈ ((View.whole main_v4_2).slice (win0_7.rect t)).set ↔ _
  rw [View.set_slice_whole, Rect.mem_set_unit]
  exact Iff.rfl

/-- Every entry of the array lies in some point's block: entry (b, n, e) in the block of point (b, n / 512). -/
theorem cover0_7 (i : S8x4096x1024.Idx) : ∃ t : Fin cfg0.N, (cfg0.win 7).flush t = true ∧ i ∈ ((cfg0.win 7).blk t).view.set := by
  have hi0 : (i 0).val < 8 := (i 0).isLt
  have hi1 : (i 1).val < 4096 := (i 1).isLt
  have hi2 : (i 2).val < 1024 := (i 2).isLt
  refine ⟨⟨(i 0).val * 8 + (i 1).val / 512, by rw [show cfg0.N = 64 from N_0]; omega⟩, flush0_7 _, ?_⟩
  rw [mem_blk0_7]
  obtain ⟨b, nb, hb, hnb, -, -, -, h0, h1, h2, -, -⟩ := idx_facts0_7 ⟨(i 0).val * 8 + (i 1).val / 512, by rw [show cfg0.N = 64 from N_0]; omega⟩
  have hb' : b.val = (i 0).val := by rw [hb]; show ((i 0).val * 8 + (i 1).val / 512) / 8 = _; omega
  have hnb' : nb.val = (i 1).val / 512 := by rw [hnb]; show ((i 0).val * 8 + (i 1).val / 512) % 8 = _; omega
  intro a
  match a with
  | ⟨0, _⟩ => show win0_7.index _ (0 : Fin 3) * 1 ≤ (i 0).val ∧ (i 0).val < win0_7.index _ (0 : Fin 3) * 1 + 1; omega
  | ⟨1, _⟩ => show win0_7.index _ (1 : Fin 3) * 512 ≤ (i 1).val ∧ (i 1).val < win0_7.index _ (1 : Fin 3) * 512 + 512; omega
  | ⟨2, _⟩ => show win0_7.index _ (2 : Fin 3) * 1024 ≤ (i 2).val ∧ (i 2).val < win0_7.index _ (2 : Fin 3) * 1024 + 1024; omega

/-- The raw-value array after the region: the value projection of the input. -/
theorem arr0_7 (c : Dev nD) : (dat0 V c).arrAt 7 cfg0.N = projArr (V c main_arg0) (V c main_v3) :=
  (dat0 V c).arrAt_eq_of_cover 7 _ (fun t _ => flushed0_7_eq V c t) cover0_7

/-! ## The query (window 5) -/

/-- The printed index maps at a point, decided over the grid: the point is (b, nb); the row block's window and output
    window 5 sit at block (b, nb, 0), the two query weight windows at block (0, 0). -/
theorem idx_facts0_5 : ∀ t : Fin cfg0.N, ∃ (b : Fin 8) (nb : Fin 8), b.val = t.val / 8 ∧ nb.val = t.val % 8
    ∧ win0_0.index t (0 : Fin 3) = b.val ∧ win0_0.index t (1 : Fin 3) = nb.val ∧ win0_0.index t (2 : Fin 3) = 0
    ∧ win0_5.index t (0 : Fin 3) = b.val ∧ win0_5.index t (1 : Fin 3) = nb.val ∧ win0_5.index t (2 : Fin 3) = 0
    ∧ win0_1.index t (0 : Fin 2) = 0 ∧ win0_1.index t (1 : Fin 2) = 0 ∧ win0_2.index t (0 : Fin 2) = 0 ∧ win0_2.index t (1 : Fin 2) = 0 :=
  (by decide +kernel : ∀ t : Fin grid0.N, _)

/-- What point `t` writes back through window 5 is block `t` of the query array. -/
theorem flushed0_5_eq (c : Dev nD) (t : Fin cfg0.N) :
    (dat0 V c).flushed 5 t = ((cfg0.win 5).blk t).view.read (Elt Ideal) (queryArr (V c main_arg0) (V c main_v0) (V c main_v1)) := by
  show (cfg0.win 5).cut (grid0.coords t) ((dat0 V c).after 5 t) = _
  rw [after0_5]
  unfold out0_5
  rw [View.canon_unit_zero hz3]
  simp only [View.ld_unit_zero (S := S1x512x1024) hz3, View.ld_unit_zero (S := S1024x1024) hz2]
  funext y
  obtain ⟨u, r, e, rfl⟩ : ∃ (u : Fin 1) (r : Fin 512) (e : Fin 1024), y = ix3 u r e := ⟨y 0, y 1, y 2, eq_ix3 y⟩
  obtain ⟨b, nb, hb, hnb, h00, h01, h02, hq0, hq1, hq2, hw0, hw1, hv0, hv1⟩ := idx_facts0_5 t
  have hE : ((cfg0.win 5).blk t).view.emb (ix3 u r e) = ix3 b (⟨nb.val * 512 + r.val, by omega⟩ : Fin 4096) e := by
    funext a; apply Fin.ext
    match a with
    | ⟨0, _⟩ => show win0_5.index t (0 : Fin 3) * 1 + 1 * u.val = b.val; omega
    | ⟨1, _⟩ => show win0_5.index t (1 : Fin 3) * 512 + 1 * r.val = nb.val * 512 + r.val; omega
    | ⟨2, _⟩ => show win0_5.index t (2 : Fin 3) * 1024 + 1 * e.val = e.val; omega
  show k0_pay2 (iblk0 V c 0 t) (iblk0 V c 1 t) (iblk0 V c 2 t) (ix3 u r e) = queryArr (V c main_arg0) (V c main_v0) (V c main_v1) (((cfg0.win 5).blk t).view.emb (ix3 u r e))
  rw [pay2_apply, hE]
  unfold queryArr
  refine congrArg₂ (· * ·) ?_ ?_
  · refine congrArg (max · 0) ?_
    refine Finset.sum_congr rfl fun j _ => ?_
    have hx : ((cfg0.win 0).blk t).view.emb (ix3 (0 : Fin 1) r j) = ix3 b (⟨nb.val * 512 + r.val, by omega⟩ : Fin 4096) j := by
      funext a; apply Fin.ext
      match a with
      | ⟨0, _⟩ => show win0_0.index t (0 : Fin 3) * 1 + 1 * 0 = b.val; omega
      | ⟨1, _⟩ => show win0_0.index t (1 : Fin 3) * 512 + 1 * r.val = nb.val * 512 + r.val; omega
      | ⟨2, _⟩ => show win0_0.index t (2 : Fin 3) * 1024 + 1 * j.val = j.val; omega
    have hwt : ((cfg0.win 1).blk t).view.emb (ix2 j e) = ix2 j e := by
      funext a; apply Fin.ext
      match a with
      | ⟨0, _⟩ => show win0_1.index t (0 : Fin 2) * 1024 + 1 * j.val = j.val; omega
      | ⟨1, _⟩ => show win0_1.index t (1 : Fin 2) * 1024 + 1 * e.val = e.val; omega
    refine congrArg₂ (· * ·) ?_ ?_
    · show V c main_arg0 (((cfg0.win 0).blk t).view.emb (ix3 (0 : Fin 1) r j)) = _
      rw [hx]
    · show V c main_v0 (((cfg0.win 1).blk t).view.emb (ix2 j e)) = _
      rw [hwt]
  · refine congrArg (max · 0) ?_
    refine Finset.sum_congr rfl fun j _ => ?_
    have hx : ((cfg0.win 0).blk t).view.emb (ix3 (0 : Fin 1) r j) = ix3 b (⟨nb.val * 512 + r.val, by omega⟩ : Fin 4096) j := by
      funext a; apply Fin.ext
      match a with
      | ⟨0, _⟩ => show win0_0.index t (0 : Fin 3) * 1 + 1 * 0 = b.val; omega
      | ⟨1, _⟩ => show win0_0.index t (1 : Fin 3) * 512 + 1 * r.val = nb.val * 512 + r.val; omega
      | ⟨2, _⟩ => show win0_0.index t (2 : Fin 3) * 1024 + 1 * j.val = j.val; omega
    have hwt : ((cfg0.win 2).blk t).view.emb (ix2 j e) = ix2 j e := by
      funext a; apply Fin.ext
      match a with
      | ⟨0, _⟩ => show win0_2.index t (0 : Fin 2) * 1024 + 1 * j.val = j.val; omega
      | ⟨1, _⟩ => show win0_2.index t (1 : Fin 2) * 1024 + 1 * e.val = e.val; omega
    refine congrArg₂ (· * ·) ?_ ?_
    · show V c main_arg0 (((cfg0.win 0).blk t).view.emb (ix3 (0 : Fin 1) r j)) = _
      rw [hx]
    · show V c main_v1 (((cfg0.win 2).blk t).view.emb (ix2 j e)) = _
      rw [hwt]

/-- An index of the array is in point `t`'s block of window 5 iff each coordinate is in the block's range. -/
theorem mem_blk0_5 (t : Fin cfg0.N) (i : S8x4096x1024.Idx) :
    i ∈ ((cfg0.win 5).blk t).view.set ↔ ∀ a : Fin 3, win0_5.index t a * S1x512x1024.size a ≤ (i a).val ∧ (i a).val < win0_5.index t a * S1x512x1024.size a + S1x512x1024.size a := by
  show i ∈ ((View.whole main_v4_0).slice (win0_5.rect t)).set ↔ _
  rw [View.set_slice_whole, Rect.mem_set_unit]
  exact Iff.rfl

/-- Every entry of the array lies in some point's block: entry (b, n, e) in the block of point (b, n / 512). -/
theorem cover0_5 (i : S8x4096x1024.Idx) : ∃ t : Fin cfg0.N, (cfg0.win 5).flush t = true ∧ i ∈ ((cfg0.win 5).blk t).view.set := by
  have hi0 : (i 0).val < 8 := (i 0).isLt
  have hi1 : (i 1).val < 4096 := (i 1).isLt
  have hi2 : (i 2).val < 1024 := (i 2).isLt
  refine ⟨⟨(i 0).val * 8 + (i 1).val / 512, by rw [show cfg0.N = 64 from N_0]; omega⟩, flush0_5 _, ?_⟩
  rw [mem_blk0_5]
  obtain ⟨b, nb, hb, hnb, -, -, -, h0, h1, h2, -, -, -, -⟩ := idx_facts0_5 ⟨(i 0).val * 8 + (i 1).val / 512, by rw [show cfg0.N = 64 from N_0]; omega⟩
  have hb' : b.val = (i 0).val := by rw [hb]; show ((i 0).val * 8 + (i 1).val / 512) / 8 = _; omega
  have hnb' : nb.val = (i 1).val / 512 := by rw [hnb]; show ((i 0).val * 8 + (i 1).val / 512) % 8 = _; omega
  intro a
  match a with
  | ⟨0, _⟩ => show win0_5.index _ (0 : Fin 3) * 1 ≤ (i 0).val ∧ (i 0).val < win0_5.index _ (0 : Fin 3) * 1 + 1; omega
  | ⟨1, _⟩ => show win0_5.index _ (1 : Fin 3) * 512 ≤ (i 1).val ∧ (i 1).val < win0_5.index _ (1 : Fin 3) * 512 + 512; omega
  | ⟨2, _⟩ => show win0_5.index _ (2 : Fin 3) * 1024 ≤ (i 2).val ∧ (i 2).val < win0_5.index _ (2 : Fin 3) * 1024 + 1024; omega

/-- The query array after the region. -/
theorem arr0_5 (c : Dev nD) : (dat0 V c).arrAt 5 cfg0.N = queryArr (V c main_arg0) (V c main_v0) (V c main_v1) :=
  (dat0 V c).arrAt_eq_of_cover 5 _ (fun t _ => flushed0_5_eq V c t) cover0_5

end Cert.KernelIdeal.HandV

end
-- ==== Proof.ValueKI.Arr1.lean ====
/-
  The second kernel's output array as one function of the arrays it reads, at the ideal values: entry (b, d, e) of the
  key–value array is the eight block sums over 512 sequence rows of (k(b, n, d) · s(b, d)) · (v(b, n, e) · s'(b, e)),
  added in order from 0, then clamped below at 0. The accumulator after the inner point n of batch b holds the running
  sum up to block n (induction along the row of points); the last inner point writes its clamped value back; those
  blocks tile the array.
-/
import proofs.«171922_j27779848471445_1_alg».proof.Proof.FrameKI.R1
import proofs.«171922_j27779848471445_1_alg».proof.Proof.ValueKI.Pay
import proofs.«171922_j27779848471445_1_alg».proof.Proof.ValueKI.ArrDefs

set_option maxRecDepth 16384

noncomputable section

namespace Cert.KernelIdeal.HandV

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The printed index maps at a point, decided over the grid: the point is (b, n); the key and value windows sit at
    block (b, n, 0), the two scale windows and the output window at block (b, 0, 0). -/
theorem idx_facts1 : ∀ t : Fin cfg1.N, ∃ (b : Fin 8) (n : Fin 8), b.val = t.val / 8 ∧ n.val = t.val % 8
    ∧ win1_0.index t (0 : Fin 3) = b.val ∧ win1_0.index t (1 : Fin 3) = n.val ∧ win1_0.index t (2 : Fin 3) = 0
    ∧ win1_1.index t (0 : Fin 3) = b.val ∧ win1_1.index t (1 : Fin 3) = n.val ∧ win1_1.index t (2 : Fin 3) = 0
    ∧ win1_2.index t (0 : Fin 3) = b.val ∧ win1_2.index t (1 : Fin 3) = 0 ∧ win1_2.index t (2 : Fin 3) = 0
    ∧ win1_3.index t (0 : Fin 3) = b.val ∧ win1_3.index t (1 : Fin 3) = 0 ∧ win1_3.index t (2 : Fin 3) = 0
    ∧ win1_4.index t (0 : Fin 3) = b.val ∧ win1_4.index t (1 : Fin 3) = 0 ∧ win1_4.index t (2 : Fin 3) = 0 :=
  (by decide +kernel : ∀ t : Fin grid1.N, _)

/-- This point's block sum, read off the windows' blocks, is block n of batch b of the whole-array sum. -/
theorem blockTerm1 (c : Dev nD) (t : Fin cfg1.N) (b n : Fin 8) (hb : b.val = t.val / 8) (hn : n.val = t.val % 8) (d e : Fin 1024)
    (x0 x1 : FVec Ideal S1x512x1024 .f32) (s0 s1 : FVec Ideal S1x1x1024 .f32)
    (h0 : x0 = iblk1 V c 0 t) (h1 : x1 = iblk1 V c 1 t) (h2 : s0 = iblk1 V c 2 t) (h3 : s1 = iblk1 V c 3 t) :
    (∑ r : Fin 512, (x0 (ix3 (0 : Fin 1) r d) * s0 (ix3 (0 : Fin 1) (0 : Fin 1) d))
        * (x1 (ix3 (0 : Fin 1) r e) * s1 (ix3 (0 : Fin 1) (0 : Fin 1) e)))
      = partArr (V c main_v4_1) (V c main_v4_2) (V c main_v16) (V c main_v20) b d e n.val := by
  subst h0; subst h1; subst h2; subst h3
  obtain ⟨b', n', hb', hn', h00, h01, h02, h10, h11, h12, h20, h21, h22, h30, h31, h32, -, -, -⟩ := idx_facts1 t
  have ebb : b'.val = b.val := by omega
  have enn : n'.val = n.val := by omega
  unfold partArr
  rw [dif_pos n.isLt]
  refine Finset.sum_congr rfl fun r _ => ?_
  have hk : ((cfg1.win 0).blk t).view.emb (ix3 (0 : Fin 1) r d) = ix3 b (Cert.Spec.rowOf ⟨n.val, n.isLt⟩ r) d := by
    funext a; apply Fin.ext
    match a with
    | ⟨0, _⟩ => show win1_0.index t (0 : Fin 3) * 1 + 1 * 0 = b.val; omega
    | ⟨1, _⟩ => show win1_0.index t (1 : Fin 3) * 512 + 1 * r.val = 512 * n.val + r.val; omega
    | ⟨2, _⟩ => show win1_0.index t (2 : Fin 3) * 1024 + 1 * d.val = d.val; omega
  have hv : ((cfg1.win 1).blk t).view.emb (ix3 (0 : Fin 1) r e) = ix3 b (Cert.Spec.rowOf ⟨n.val, n.isLt⟩ r) e := by
    funext a; apply Fin.ext
    match a with
    | ⟨0, _⟩ => show win1_1.index t (0 : Fin 3) * 1 + 1 * 0 = b.val; omega
    | ⟨1, _⟩ => show win1_1.index t (1 : Fin 3) * 512 + 1 * r.val = 512 * n.val + r.val; omega
    | ⟨2, _⟩ => show win1_1.index t (2 : Fin 3) * 1024 + 1 * e.val = e.val; omega
  have hsk : ((cfg1.win 2).blk t).view.emb (ix3 (0 : Fin 1) (0 : Fin 1) d) = ix3 b (0 : Fin 1) d := by
    funext a; apply Fin.ext
    match a with
    | ⟨0, _⟩ => show win1_2.index t (0 : Fin 3) * 1 + 1 * 0 = b.val; omega
    | ⟨1, _⟩ => show win1_2.index t (1 : Fin 3) * 1 + 1 * 0 = 0; omega
    | ⟨2, _⟩ => show win1_2.index t (2 : Fin 3) * 1024 + 1 * d.val = d.val; omega
  have hsv : ((cfg1.win 3).blk t).view.emb (ix3 (0 : Fin 1) (0 : Fin 1) e) = ix3 b (0 : Fin 1) e := by
    funext a; apply Fin.ext
    match a with
    | ⟨0, _⟩ => show win1_3.index t (0 : Fin 3) * 1 + 1 * 0 = b.val; omega
    | ⟨1, _⟩ => show win1_3.index t (1 : Fin 3) * 1 + 1 * 0 = 0; omega
    | ⟨2, _⟩ => show win1_3.index t (2 : Fin 3) * 1024 + 1 * e.val = e.val; omega
  refine congrArg₂ (· * ·) (congrArg₂ (· * ·) ?_ ?_) (congrArg₂ (· * ·) ?_ ?_)
  · show V c main_v4_1 (((cfg1.win 0).blk t).view.emb (ix3 (0 : Fin 1) r d)) = _
    rw [hk]
  · show V c main_v16 (((cfg1.win 2).blk t).view.emb (ix3 (0 : Fin 1) (0 : Fin 1) d)) = _
    rw [hsk]
  · show V c main_v4_2 (((cfg1.win 1).blk t).view.emb (ix3 (0 : Fin 1) r e)) = _
    rw [hv]
  · show V c main_v20 (((cfg1.win 3).blk t).view.emb (ix3 (0 : Fin 1) (0 : Fin 1) e)) = _
    rw [hsv]

/-- THE ACCUMULATION: after the body at position k = 8·b + n the accumulator's entry (d, e) is the running sum of
    batch b's blocks 0 … n — by induction along the points. -/
theorem acc1_apply_aux (c : Dev nD) (d e : Fin 1024) : ∀ (k : ℕ) (hk : k < cfg1.N) (b n : Fin 8), b.val = k / 8 → n.val = k % 8 →
    acc1 V c k hk (ix2 d e) = Cert.Spec.accN (partArr (V c main_v4_1) (V c main_v4_2) (V c main_v16) (V c main_v20) b d e) n.val := by
  intro k
  induction k with
  | zero =>
    intro hk b n hb hn
    have hP := blockTerm1 V c ⟨0, hk⟩ b n hb hn d e _ _ _ _ rfl rfl rfl rfl
    refine (congrFun (acc1_first V c ⟨0, hk⟩ rfl) (ix2 d e)).trans ?_
    rw [k1_pay2_apply, k1_pay1_apply, hP]
    have hn0 : n.val = 0 := by omega
    rw [hn0]; rfl
  | succ k ih =>
    intro hk b n hb hn
    have hP := blockTerm1 V c ⟨k + 1, hk⟩ b n hb hn d e _ _ _ _ rfl rfl rfl rfl
    by_cases h : (k + 1) % 8 = 0
    · refine (congrFun (acc1_first V c ⟨k + 1, hk⟩ h) (ix2 d e)).trans ?_
      rw [k1_pay2_apply, k1_pay1_apply, hP]
      have hn0 : n.val = 0 := by omega
      rw [hn0]; rfl
    · obtain ⟨m, hm⟩ : ∃ m, n.val = m + 1 := Nat.exists_eq_succ_of_ne_zero (by omega)
      have ih' := ih (Nat.lt_of_succ_lt hk) b ⟨m, by omega⟩ (by omega) (by show m = k % 8; omega)
      refine (congrFun (acc1_next V c ⟨k + 1, hk⟩ h) (ix2 d e)).trans ?_
      rw [k1_pay2_apply, hP]
      show acc1 V c k _ (ix2 d e) + _ = _
      rw [ih', hm]; rfl

theorem acc1_apply (c : Dev nD) (t : Fin cfg1.N) (b n : Fin 8) (hb : b.val = t.val / 8) (hn : n.val = t.val % 8) (d e : Fin 1024) :
    acc1 V c t.val t.isLt (ix2 d e) = Cert.Spec.accN (partArr (V c main_v4_1) (V c main_v4_2) (V c main_v16) (V c main_v20) b d e) n.val :=
  acc1_apply_aux V c d e t.val t.isLt b n hb hn

/-- What the last inner point of a batch writes back is that batch's block of the key–value array. -/
theorem flushed1_4_eq (c : Dev nD) (t : Fin cfg1.N) (hf : (cfg1.win 4).flush t = true) :
    (dat1 V c).flushed 4 t = ((cfg1.win 4).blk t).view.read (Elt Ideal) (kvArr (V c main_v4_1) (V c main_v4_2) (V c main_v16) (V c main_v20)) := by
  have h7 : t.val % 8 = 7 := (flush1_4 t).mp hf
  show (cfg1.win 4).cut (grid1.coords t) ((dat1 V c).after 4 t) = _
  rw [after1_4]
  funext y
  obtain ⟨u, d, e, rfl⟩ : ∃ (u : Fin 1) (d : Fin 1024) (e : Fin 1024), y = ix3 u d e := ⟨y 0, y 1, y 2, eq_ix3 y⟩
  obtain ⟨b, n, hb, hn, -, -, -, -, -, -, -, -, -, -, -, -, h40, h41, h42⟩ := idx_facts1 t
  have hE : ((cfg1.win 4).blk t).view.emb (ix3 u d e) = ix3 b d e := by
    funext a; apply Fin.ext
    match a with
    | ⟨0, _⟩ => show win1_4.index t (0 : Fin 3) * 1 + 1 * u.val = b.val; omega
    | ⟨1, _⟩ => show win1_4.index t (1 : Fin 3) * 1024 + 1 * d.val = d.val; omega
    | ⟨2, _⟩ => show win1_4.index t (2 : Fin 3) * 1024 + 1 * e.val = e.val; omega
  show k1_pay3 (acc1 V c t.val t.isLt) (ix3 u d e)
    = kvArr (V c main_v4_1) (V c main_v4_2) (V c main_v16) (V c main_v20) (((cfg1.win 4).blk t).view.emb (ix3 u d e))
  rw [k1_pay3_apply, hE, acc1_apply V c t b n hb hn d e]
  have hn7 : n.val = 7 := by omega
  rw [hn7]
  rfl

/-- An index of the array is in point `t`'s block of the output window iff each coordinate is in the block's range. -/
theorem mem_blk1_4 (t : Fin cfg1.N) (i : S8x1024x1024.Idx) :
    i ∈ ((cfg1.win 4).blk t).view.set ↔ ∀ a : Fin 3, win1_4.index t a * S1x1024x1024.size a ≤ (i a).val ∧ (i a).val < win1_4.index t a * S1x1024x1024.size a + S1x1024x1024.size a := by
  show i ∈ ((View.whole main_v21).slice (win1_4.rect t)).set ↔ _
  rw [View.set_slice_whole, Rect.mem_set_unit]
  exact Iff.rfl

/-- Every entry of the array lies in a block that is written back: entry (b, d, e) in the block of point 8·b + 7. -/
theorem cover1_4 (i : S8x1024x1024.Idx) : ∃ t : Fin cfg1.N, (cfg1.win 4).flush t = true ∧ i ∈ ((cfg1.win 4).blk t).view.set := by
  have hi0 : (i 0).val < 8 := (i 0).isLt
  have hi1 : (i 1).val < 1024 := (i 1).isLt
  have hi2 : (i 2).val < 1024 := (i 2).isLt
  have hlt : (i 0).val * 8 + 7 < cfg1.N := by rw [show cfg1.N = 64 from N_1]; omega
  refine ⟨⟨(i 0).val * 8 + 7, hlt⟩, (flush1_4 _).mpr (by show ((i 0).val * 8 + 7) % 8 = 7; omega), ?_⟩
  rw [mem_blk1_4]
  obtain ⟨b, n, hb, hn, -, -, -, -, -, -, -, -, -, -, -, -, h0, h1, h2⟩ := idx_facts1 ⟨(i 0).val * 8 + 7, hlt⟩
  have hb' : b.val = (i 0).val := by rw [hb]; show ((i 0).val * 8 + 7) / 8 = _; omega
  intro a
  match a with
  | ⟨0, _⟩ => show win1_4.index _ (0 : Fin 3) * 1 ≤ (i 0).val ∧ (i 0).val < win1_4.index _ (0 : Fin 3) * 1 + 1; omega
  | ⟨1, _⟩ => show win1_4.index _ (1 : Fin 3) * 1024 ≤ (i 1).val ∧ (i 1).val < win1_4.index _ (1 : Fin 3) * 1024 + 1024; omega
  | ⟨2, _⟩ => show win1_4.index _ (2 : Fin 3) * 1024 ≤ (i 2).val ∧ (i 2).val < win1_4.index _ (2 : Fin 3) * 1024 + 1024; omega

/-- THE SECOND REGION'S OUTPUT ARRAY: after the region the key–value array holds `kvArr` of the arrays the region read. -/
theorem arr1_4 (c : Dev nD) : (dat1 V c).arrAt 4 cfg1.N = kvArr (V c main_v4_1) (V c main_v4_2) (V c main_v16) (V c main_v20) :=
  (dat1 V c).arrAt_eq_of_cover 4 _ (fun t hf => flushed1_4_eq V c t hf) cover1_4

/-- info: 'Cert.KernelIdeal.HandV.arr1_4' depends on axioms: [propext, Classical.choice, Quot.sound] -/
#guard_msgs in #print axioms arr1_4

end Cert.KernelIdeal.HandV

end
-- ==== Proof.ValueKI.Arr2.lean ====
/-
  The third pallas_call's output array as one function of the two arrays it reads, at the ideal values: entry
  (b, n, e) is Σ_d q(b, n, d) · kv(b, d, e).

  At grid point t = 8·b + nb the body stores, into the output's block of rows 512·nb … 512·nb + 511 of batch b, the
  product of the query array's block at the same place with batch b's key–value matrix. Every entry of a block sits in
  its array at block index × block size + its coordinate inside the block, so the stored block is the restriction of
  the one whole-array function; the 64 blocks cover the array (entry (b, n, e) lies in the block of point 8·b + n / 512).
-/
import proofs.«171922_j27779848471445_1_alg».proof.Proof.FrameKI.R2
import proofs.«171922_j27779848471445_1_alg».proof.Proof.ValueKI.Pay
import proofs.«171922_j27779848471445_1_alg».proof.Proof.ValueKI.ArrDefs

set_option maxRecDepth 16384

noncomputable section

namespace Cert.KernelIdeal.HandV

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The index maps at a point, decided over the grid: the point is (b, nb); the query window and the output window
    sit at block (b, nb, 0), the key–value window at block (b, 0, 0). -/
theorem idx_facts2 : ∀ t : Fin cfg2.N, ∃ (b : Fin 8) (nb : Fin 8), b.val = t.val / 8 ∧ nb.val = t.val % 8
    ∧ win2_0.index t (0 : Fin 3) = b.val ∧ win2_0.index t (1 : Fin 3) = nb.val ∧ win2_0.index t (2 : Fin 3) = 0
    ∧ win2_1.index t (0 : Fin 3) = b.val ∧ win2_1.index t (1 : Fin 3) = 0 ∧ win2_1.index t (2 : Fin 3) = 0
    ∧ win2_2.index t (0 : Fin 3) = b.val ∧ win2_2.index t (1 : Fin 3) = nb.val ∧ win2_2.index t (2 : Fin 3) = 0 :=
  (by decide +kernel : ∀ t : Fin grid2.N, _)

/-- The block a point flushes is the whole-array function read through the block. -/
theorem flushed2_2_eq (c : Dev nD) (t : Fin cfg2.N) :
    (dat2 V c).flushed 2 t = ((cfg2.win 2).blk t).view.read (Elt Ideal) (outArr (V c main_v4_0) (V c main_v21)) := by
  show (cfg2.win 2).cut (grid2.coords t) ((dat2 V c).after 2 t) = _
  rw [after2_2]
  unfold out2_2
  rw [View.canon_unit_zero hz3]
  simp only [View.ld_unit_zero (S := S1x512x1024) hz3, View.ld_unit_zero (S := S1x1024x1024) hz3]
  funext y
  obtain ⟨u, r, e, rfl⟩ : ∃ (u : Fin 1) (r : Fin 512) (e : Fin 1024), y = ix3 u r e := ⟨y 0, y 1, y 2, eq_ix3 y⟩
  obtain ⟨b, nb, hb, hnb, h00, h01, h02, h10, h11, h12, h20, h21, h22⟩ := idx_facts2 t
  have hE : ((cfg2.win 2).blk t).view.emb (ix3 u r e) = ix3 b (⟨nb.val * 512 + r.val, by omega⟩ : Fin 4096) e := by
    funext a; apply Fin.ext
    match a with
    | ⟨0, _⟩ => show win2_2.index t (0 : Fin 3) * 1 + 1 * u.val = b.val; omega
    | ⟨1, _⟩ => show win2_2.index t (1 : Fin 3) * 512 + 1 * r.val = nb.val * 512 + r.val; omega
    | ⟨2, _⟩ => show win2_2.index t (2 : Fin 3) * 1024 + 1 * e.val = e.val; omega
  show k2_pay1 (iblk2 V c 0 t) (iblk2 V c 1 t) (ix3 u r e)
    = outArr (V c main_v4_0) (V c main_v21) (((cfg2.win 2).blk t).view.emb (ix3 u r e))
  rw [k2_pay1_apply, hE]
  unfold outArr
  refine Finset.sum_congr rfl fun d _ => ?_
  have hq : ((cfg2.win 0).blk t).view.emb (ix3 (0 : Fin 1) r d) = ix3 b (⟨nb.val * 512 + r.val, by omega⟩ : Fin 4096) d := by
    funext a; apply Fin.ext
    match a with
    | ⟨0, _⟩ => show win2_0.index t (0 : Fin 3) * 1 + 1 * 0 = b.val; omega
    | ⟨1, _⟩ => show win2_0.index t (1 : Fin 3) * 512 + 1 * r.val = nb.val * 512 + r.val; omega
    | ⟨2, _⟩ => show win2_0.index t (2 : Fin 3) * 1024 + 1 * d.val = d.val; omega
  have hkv : ((cfg2.win 1).blk t).view.emb (ix3 (0 : Fin 1) d e) = ix3 b d e := by
    funext a; apply Fin.ext
    match a with
    | ⟨0, _⟩ => show win2_1.index t (0 : Fin 3) * 1 + 1 * 0 = b.val; omega
    | ⟨1, _⟩ => show win2_1.index t (1 : Fin 3) * 1024 + 1 * d.val = d.val; omega
    | ⟨2, _⟩ => show win2_1.index t (2 : Fin 3) * 1024 + 1 * e.val = e.val; omega
  refine congrArg₂ (· * ·) ?_ ?_
  · show V c main_v4_0 (((cfg2.win 0).blk t).view.emb (ix3 (0 : Fin 1) r d)) = _
    rw [hq]
  · show V c main_v21 (((cfg2.win 1).blk t).view.emb (ix3 (0 : Fin 1) d e)) = _
    rw [hkv]

/-- An index of the array is in a point's block of the output window iff each coordinate is in the block's range. -/
theorem mem_blk2_2 (t : Fin cfg2.N) (i : S8x4096x1024.Idx) :
    i ∈ ((cfg2.win 2).blk t).view.set ↔ ∀ a : Fin 3, win2_2.index t a * S1x512x1024.size a ≤ (i a).val ∧ (i a).val < win2_2.index t a * S1x512x1024.size a + S1x512x1024.size a := by
  show i ∈ ((View.whole main_v22).slice (win2_2.rect t)).set ↔ _
  rw [View.set_slice_whole, Rect.mem_set_unit]
  exact Iff.rfl

/-- Every entry of the array lies in some point's block: entry (b, n, e) in the block of point 8·b + n / 512. -/
theorem arrCover2_2 (i : S8x4096x1024.Idx) : ∃ t : Fin cfg2.N, (cfg2.win 2).flush t = true ∧ i ∈ ((cfg2.win 2).blk t).view.set := by
  have hi0 : (i 0).val < 8 := (i 0).isLt
  have hi1 : (i 1).val < 4096 := (i 1).isLt
  have hi2 : (i 2).val < 1024 := (i 2).isLt
  refine ⟨⟨(i 0).val * 8 + (i 1).val / 512, by rw [show cfg2.N = 64 from N_2]; omega⟩, flush2_2 _, ?_⟩
  rw [mem_blk2_2]
  obtain ⟨b, nb, hb, hnb, -, -, -, -, -, -, h0, h1, h2⟩ := idx_facts2 ⟨(i 0).val * 8 + (i 1).val / 512, by rw [show cfg2.N = 64 from N_2]; omega⟩
  have hb' : b.val = (i 0).val := by rw [hb]; show ((i 0).val * 8 + (i 1).val / 512) / 8 = _; omega
  have hnb' : nb.val = (i 1).val / 512 := by rw [hnb]; show ((i 0).val * 8 + (i 1).val / 512) % 8 = _; omega
  intro a
  match a with
  | ⟨0, _⟩ => show win2_2.index _ (0 : Fin 3) * 1 ≤ (i 0).val ∧ (i 0).val < win2_2.index _ (0 : Fin 3) * 1 + 1; omega
  | ⟨1, _⟩ => show win2_2.index _ (1 : Fin 3) * 512 ≤ (i 1).val ∧ (i 1).val < win2_2.index _ (1 : Fin 3) * 512 + 512; omega
  | ⟨2, _⟩ => show win2_2.index _ (2 : Fin 3) * 1024 ≤ (i 2).val ∧ (i 2).val < win2_2.index _ (2 : Fin 3) * 1024 + 1024; omega

/-- The output array after the last point: the product of the query array with each batch's key–value matrix. -/
theorem arr2_2 (c : Dev nD) : (dat2 V c).arrAt 2 cfg2.N = outArr (V c main_v4_0) (V c main_v21) :=
  (dat2 V c).arrAt_eq_of_cover 2 _ (fun t _ => flushed2_2_eq V c t) arrCover2_2

end Cert.KernelIdeal.HandV

end
-- ==== Proof.ValueKI.Host.lean ====
/-
  The kernel program's two stretches of host operations, read at an index, at the ideal values.

  The first stretch converts the four weight matrices to the matrix unit's input format: at the ideal values a
  format change is the identity, so each converted matrix is the argument itself. The second stretch computes,
  from an array y over [8, 4096, 1024], the reciprocal 1 / (sqrt(Σ_n y[b, n, d]²) + ε) over [8, 1, 1024]: a product, a
  sum over the rows starting from 0, a unit middle axis put back, a square root, the sum with the splat ε, and the
  quotient of the splat 1 by it.
-/
import proofs.«171922_j27779848471445_1_alg».proof.Proof.Gen.KernelIdeal.Launch
import proofs.«171922_j27779848471445_1_alg».proof.Proof.Spec
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.HandV

open Cert.KernelIdeal Cert.KernelIdeal.Gen Idealize.ShloMosaic Idealize.ShloMosaic.ValueIdx Idealize.ShloMosaic.StableHlo

/-! ## The operations of the second stretch at an index -/

/-- A splat constant over [8, 1, 1024] reads the extended real its word denotes. -/
theorem splat_apply (w : BitVec 32) (i : S8x1x1024.Idx) :
    broadcastInDim S8x1x1024 ![] bcast_S_S8x1x1024 (constant (F := Ideal) S_ .f32 w) i = Ideal.ofBits .f32 w := by
  generalize hy : constant (F := Ideal) S_ .f32 w = y
  rw [broadcastInDim_apply _ bcast_S_S8x1x1024 y i (fun a => a.elim0) (fun a => a.elim0)]
  subst hy
  rfl

/-- The unit middle axis put back: the array over [8, 1024] read at the two kept coordinates. -/
theorem keep_apply (Y : FVec Ideal S8x1024 .f32) (b : Fin 8) (u : Fin 1) (d : Fin 1024) :
    broadcastInDim S8x1x1024 ![0, 2] bcast_S8x1024_S8x1x1024_0_2 Y (ix3 b u d) = Y (ix2 b d) :=
  broadcastInDim_apply _ bcast_S8x1024_S8x1x1024_0_2 Y (ix3 b u d) (ix2 b d) (fun a => match a with
    | ⟨0, _⟩ => by show b.val = if (8 : Nat) = 1 then 0 else b.val; rw [if_neg (by decide)]
    | ⟨1, _⟩ => by show d.val = if (1024 : Nat) = 1 then 0 else d.val; rw [if_neg (by decide)])

/-- The sum over the rows: the initial value plus the sum over the row coordinate. -/
theorem reduce_rows_apply (y0 : FVec Ideal S8x4096x1024 .f32) (c0 : FVec Ideal S_ .f32) (b : Fin 8) (d : Fin 1024) :
    Host.reduceAdd (F := Ideal) y0 c0 reducesTo_S8x4096x1024_S8x1024_d1 h_S_ (ix2 b d)
      = c0 (Shape.Idx.first h_S_) + ∑ k : Fin 4096, y0 (ix3 b k d) := by
  simp only [Host.reduceAdd, Ideal.hostReduceAdd_def]
  rw [Ideal.hostReduceAdd_single reducesTo_S8x4096x1024_S8x1024_d1 (by decide)]
  refine congrArg (_ + ·) (Finset.sum_congr rfl fun k _ => ?_)
  exact congrArg y0 (funext fun a => Fin.ext (by match a with | ⟨0, _⟩ => rfl | ⟨1, _⟩ => rfl | ⟨2, _⟩ => rfl))

/-- The host's quotient at an index is the quotient of the elements. -/
theorem hostDivf_apply {s : Shape} (p q : FVec Ideal s .f32) (i : s.Idx) :
    Host.divf (F := Ideal) p q i = Ideal.div (p i) (q i) := rfl

/-- The host's square root at an index is the square root of the element. -/
theorem hostSqrt_apply {s : Shape} (p : FVec Ideal s .f32) (i : s.Idx) :
    Host.sqrt (F := Ideal) p i = Ideal.sqrt (p i) := rfl

/-! ## The reciprocal of the norm -/

/-- The reciprocal of the norm over the rows plus ε, as the second stretch computes it from an array. -/
def invNorm (y : FVec Ideal S8x4096x1024 .f32) : FVec Ideal S8x1x1024 .f32 :=
  Host.divf (F := Ideal) (broadcastInDim S8x1x1024 ![] bcast_S_S8x1x1024 (constant (F := Ideal) S_ .f32 0x3F800000#32))
    (addf (Host.sqrt (F := Ideal) (broadcastInDim S8x1x1024 ![0, 2] bcast_S8x1024_S8x1x1024_0_2
        (Host.reduceAdd (F := Ideal) (mulf y y) (constant (F := Ideal) S_ .f32 0x00000000#32) reducesTo_S8x4096x1024_S8x1024_d1 h_S_)))
      (broadcastInDim S8x1x1024 ![] bcast_S_S8x1x1024 (constant (F := Ideal) S_ .f32 0x3727C5AC#32)))

/-- The sum over the rows of an array's squares. -/
def sumSq (y : FVec Ideal S8x4096x1024 .f32) (b : Fin 8) (d : Fin 1024) : EReal :=
  ∑ n : Fin 4096, y (ix3 b n d) * y (ix3 b n d)

/-- At coordinates it is 1 / (sqrt(Σ_n y[b, n, d]²) + ε). -/
theorem invNorm_apply (y : FVec Ideal S8x4096x1024 .f32) (b : Fin 8) (u : Fin 1) (d : Fin 1024) :
    invNorm y (ix3 b u d) = Ideal.div 1 (Ideal.sqrt (sumSq y b d) + Cert.Spec.eps) := by
  unfold invNorm sumSq
  rw [hostDivf_apply, addf_apply, hostSqrt_apply, splat_apply, splat_apply, keep_apply, reduce_rows_apply]
  simp only [mulf_apply]
  rw [show (constant (F := Ideal) S_ .f32 0x00000000#32) (Shape.Idx.first h_S_) = 0 from Ideal.ofBits_zero_f32, zero_add,
    show Ideal.ofBits .f32 0x3F800000#32 = 1 from Cert.Spec.one_eq]

/-- Of an array that is a projection x · w, it is the specification's reciprocal of the divisor. -/
theorem invNorm_eq_invDen (y : FVec Ideal S8x4096x1024 .f32) (x : Cert.Spec.SX.Idx → EReal) (w : Cert.Spec.SW.Idx → EReal)
    (hy : ∀ (b : Fin 8) (n : Fin 4096) (d : Fin 1024), y (ix3 b n d) = Cert.Spec.proj x w b n d)
    (b : Fin 8) (u : Fin 1) (d : Fin 1024) :
    invNorm y (ix3 b u d) = Cert.Spec.invDen x w b d := by
  rw [invNorm_apply]
  unfold Cert.Spec.invDen Cert.Spec.den Cert.Spec.ssq sumSq
  simp only [hy]

/-! ## The two stretches -/

variable (W : Valuation τ sig (Elt Ideal))

/-- After the first stretch the first converted matrix is the first weight matrix. -/
theorem host0_v0 :
    (StableHlo.after (hostOps0 (F := Ideal)) W (Proc.devRef .tc main_v0) : S1024x1024.Idx → EReal)
      = W (Proc.devRef .tc main_arg1) := by
  after_results
  rfl

/-- After the first stretch the second converted matrix is the second weight matrix. -/
theorem host0_v1 :
    (StableHlo.after (hostOps0 (F := Ideal)) W (Proc.devRef .tc main_v1) : S1024x1024.Idx → EReal)
      = W (Proc.devRef .tc main_arg2) := by
  after_results
  rfl

/-- After the first stretch the third converted matrix is the third weight matrix. -/
theorem host0_v2 :
    (StableHlo.after (hostOps0 (F := Ideal)) W (Proc.devRef .tc main_v2) : S1024x1024.Idx → EReal)
      = W (Proc.devRef .tc main_arg3) := by
  after_results
  rfl

/-- After the first stretch the fourth converted matrix is the fourth weight matrix. -/
theorem host0_v3 :
    (StableHlo.after (hostOps0 (F := Ideal)) W (Proc.devRef .tc main_v3) : S1024x1024.Idx → EReal)
      = W (Proc.devRef .tc main_arg4) := by
  after_results
  rfl

/-- After the second stretch the key's reciprocal is the reciprocal of the norm of the raw key. -/
theorem host1_v16_term :
    (StableHlo.after (hostOps1 (F := Ideal)) W (Proc.devRef .tc main_v16) : S8x1x1024.Idx → EReal)
      = invNorm (W (Proc.devRef .tc main_v4_1)) := by
  after_results_simp
  rfl

/-- After the second stretch the value's reciprocal is the reciprocal of the norm of the raw value. -/
theorem host1_v20_term :
    (StableHlo.after (hostOps1 (F := Ideal)) W (Proc.devRef .tc main_v20) : S8x1x1024.Idx → EReal)
      = invNorm (W (Proc.devRef .tc main_v4_2)) := by
  after_results_simp
  rfl

/-- The key's reciprocal at coordinates. -/
theorem host1_v16 (b : Fin 8) (u : Fin 1) (d : Fin 1024) :
    (StableHlo.after (hostOps1 (F := Ideal)) W (Proc.devRef .tc main_v16) : S8x1x1024.Idx → EReal) (ix3 b u d)
      = Ideal.div 1 (Ideal.sqrt (sumSq (W (Proc.devRef .tc main_v4_1)) b d) + Cert.Spec.eps) := by
  rw [host1_v16_term, invNorm_apply]

/-- The value's reciprocal at coordinates. -/
theorem host1_v20 (b : Fin 8) (u : Fin 1) (d : Fin 1024) :
    (StableHlo.after (hostOps1 (F := Ideal)) W (Proc.devRef .tc main_v20) : S8x1x1024.Idx → EReal) (ix3 b u d)
      = Ideal.div 1 (Ideal.sqrt (sumSq (W (Proc.devRef .tc main_v4_2)) b d) + Cert.Spec.eps) := by
  rw [host1_v20_term, invNorm_apply]

end Cert.KernelIdeal.HandV

end
-- ==== Proof.ValueKI.ArrIsK.lean ====
/-
  The kernel program's whole arrays, composed, are the specification's kernel form K.

  The output array of the query array and the key–value array — the latter built from the two raw projections and
  two arrays of reciprocals of divisors — is, entry by entry, Σ_d query(b, n, d) · kv(b, d, e) with kv the positive part
  of the eight block sums added in order from 0: the specification's kernel form, as soon as the two reciprocal arrays
  are the specification's reciprocals of the divisors.
-/
import proofs.«171922_j27779848471445_1_alg».proof.Proof.ValueKI.ArrDefs
import proofs.«171922_j27779848471445_1_alg».proof.Proof.ValueKI.Host

noncomputable section

open scoped BigOperators

namespace Cert.KernelIdeal.HandV

open Cert.KernelIdeal
open Idealize.ShloMosaic Idealize.ShloMosaic.ValueIdx

variable (xa : S8x4096x1024.Idx → EReal) (w1 w2 wk wv : S1024x1024.Idx → EReal) (sk sv : S8x1x1024.Idx → EReal)

/-- A projection array at coordinates is the specification's projection. -/
theorem projArr_ix3 (w : S1024x1024.Idx → EReal) (b : Fin 8) (n : Fin 4096) (e : Fin 1024) :
    projArr xa w (ix3 b n e) = Cert.Spec.proj xa w b n e := rfl

/-- The query array at coordinates is the specification's query. -/
theorem queryArr_ix3 (b : Fin 8) (n : Fin 4096) (e : Fin 1024) :
    queryArr xa w1 w2 (ix3 b n e) = Cert.Spec.query xa w1 w2 b n e := rfl

/-- A block of the key–value sum, over the projection arrays and the reciprocals, is the specification's block. -/
theorem partArr_eq_partN
    (hsk : ∀ (b : Fin 8) (d : Fin 1024), sk (ix3 b (0 : Fin 1) d) = Cert.Spec.invDen xa wk b d)
    (hsv : ∀ (b : Fin 8) (e : Fin 1024), sv (ix3 b (0 : Fin 1) e) = Cert.Spec.invDen xa wv b e)
    (b : Fin 8) (d e : Fin 1024) (n : ℕ) :
    partArr (projArr xa wk) (projArr xa wv) sk sv b d e n = Cert.Spec.partN xa wk wv b d e n := by
  unfold partArr Cert.Spec.partN
  by_cases h : n < 8
  · rw [dif_pos h, dif_pos h]
    unfold Cert.Spec.part
    refine Finset.sum_congr rfl fun r _ => ?_
    rw [hsk, hsv, projArr_ix3, projArr_ix3]
    rfl
  · rw [dif_neg h, dif_neg h]

/-- The key–value array at coordinates is the specification's accumulated key–value matrix. -/
theorem kvArr_ix3
    (hsk : ∀ (b : Fin 8) (d : Fin 1024), sk (ix3 b (0 : Fin 1) d) = Cert.Spec.invDen xa wk b d)
    (hsv : ∀ (b : Fin 8) (e : Fin 1024), sv (ix3 b (0 : Fin 1) e) = Cert.Spec.invDen xa wv b e)
    (b : Fin 8) (d e : Fin 1024) :
    kvArr (projArr xa wk) (projArr xa wv) sk sv (ix3 b d e) = Cert.Spec.kvKer xa wk wv b d e := by
  show max (Cert.Spec.accN (partArr (projArr xa wk) (projArr xa wv) sk sv b d e) 7) 0 = _
  unfold Cert.Spec.kvKer
  rw [show partArr (projArr xa wk) (projArr xa wv) sk sv b d e = Cert.Spec.partN xa wk wv b d e from
    funext fun n => partArr_eq_partN xa wk wv sk sv hsk hsv b d e n]

/-- THE ARRAYS ARE K: the output array of the query array and the key–value array is the specification's kernel form. -/
theorem arrays_eq_K
    (hsk : ∀ (b : Fin 8) (d : Fin 1024), sk (ix3 b (0 : Fin 1) d) = Cert.Spec.invDen xa wk b d)
    (hsv : ∀ (b : Fin 8) (e : Fin 1024), sv (ix3 b (0 : Fin 1) e) = Cert.Spec.invDen xa wv b e) :
    outArr (queryArr xa w1 w2) (kvArr (projArr xa wk) (projArr xa wv) sk sv) = Cert.Spec.K xa w1 w2 wk wv := by
  funext i
  obtain ⟨b, n, e, rfl⟩ : ∃ (b : Fin 8) (n : Fin 4096) (e : Fin 1024), i = ix3 b n e := ⟨i 0, i 1, i 2, eq_ix3 i⟩
  rw [Cert.Spec.K_ix3]
  show ∑ d : Fin 1024, queryArr xa w1 w2 (ix3 b n d) * kvArr (projArr xa wk) (projArr xa wv) sk sv (ix3 b d e) = _
  unfold Cert.Spec.Kc
  refine Finset.sum_congr rfl fun d _ => ?_
  rw [queryArr_ix3, kvArr_ix3 xa wk wv sk sv hsk hsv]

/-- With the reciprocal arrays the host operations compute from the two raw projections, the composed arrays are the
    specification's kernel form. -/
theorem arr_is_K (x : S8x4096x1024.Idx → EReal) (wqr wqi wk wv : S1024x1024.Idx → EReal) :
    outArr (queryArr x wqr wqi) (kvArr (projArr x wk) (projArr x wv) (invNorm (projArr x wk)) (invNorm (projArr x wv)))
      = Cert.Spec.K x wqr wqi wk wv :=
  arrays_eq_K x wqr wqi wk wv (invNorm (projArr x wk)) (invNorm (projArr x wv))
    (fun b d => invNorm_eq_invDen (projArr x wk) x wk (fun _ _ _ => rfl) b (0 : Fin 1) d)
    (fun b e => invNorm_eq_invDen (projArr x wv) x wv (fun _ _ _ => rfl) b (0 : Fin 1) e)

end Cert.KernelIdeal.HandV

end
-- ==== Proof.KIsG.lean ====
/-
  The kernel's form of the result is the reference's form, on all extended reals.

  Three laws carry it. (1) The divisor sqrt(Σ p²) + ε is positive, hence not zero: a square is nonnegative on the
  extended reals, so is a finite sum of squares, so is its square root, and ε is positive. (2) Division by a divisor
  that is not zero is the product with the reciprocal: a / y = a · y⁻¹ = a · (1 · y⁻¹) = a · (1 / y). (3) Addition on
  the extended reals is a commutative monoid, so the sum over 4096 rows is the sum over eight blocks of the sums over
  each block's 512 rows, and the running sum that starts from 0 is the sum of the blocks.
-/
import proofs.«171922_j27779848471445_1_alg».proof.Proof.Spec

noncomputable section

open scoped BigOperators

namespace Cert.Spec

open Idealize.ShloMosaic Idealize.ShloMosaic.ValueIdx

/-! ## General laws -/

/-- A square is nonnegative on the extended reals (the two infinities square to +∞). -/
theorem mul_self_nonneg_ereal (a : EReal) : 0 ≤ a * a := by
  induction a using EReal.rec with
  | bot => rw [EReal.bot_mul_bot]; exact le_top
  | coe r => rw [← EReal.coe_mul]; exact EReal.coe_nonneg.mpr (mul_self_nonneg r)
  | top => rw [EReal.top_mul_top]; exact le_top

/-- The square root of a nonnegative extended real is nonnegative. -/
theorem sqrt_nonneg_of_nonneg {s : EReal} (h : 0 ≤ s) : 0 ≤ Ideal.sqrt s := by
  induction s using EReal.rec with
  | bot => exact absurd h (by simp)
  | coe r =>
    have hr : 0 ≤ r := EReal.coe_nonneg.mp h
    rw [Ideal.sqrt_coe, if_neg (not_lt.mpr hr)]
    exact EReal.coe_nonneg.mpr (Real.sqrt_nonneg r)
  | top => rw [Ideal.sqrt_top]; exact le_top

/-- ε is positive. -/
theorem eps_pos : 0 < eps := by
  unfold eps
  simp [Ideal.ofBits, Ideal.ieee, -EReal.coe_mul]

/-- Division by a divisor that is not zero is the product with the reciprocal. -/
theorem div_eq_mul_div_one (a : EReal) {y : EReal} (h : y ≠ 0) : Ideal.div a y = a * Ideal.div 1 y := by
  simp only [Ideal.div, if_neg h, one_mul]

/-- The sum over 4096 rows is the sum over eight blocks of the sums over each block's 512 rows. -/
theorem sum_blocks {M : Type*} [AddCommMonoid M] (f : Fin 4096 → M) :
    ∑ t : Fin 8, ∑ r : Fin 512, f (rowOf t r) = ∑ n : Fin 4096, f n := by
  rw [← Fintype.sum_prod_type']
  refine Fintype.sum_equiv (finProdFinEquiv (m := 8) (n := 512)) _ _ fun p => congrArg f (Fin.ext ?_)
  show 512 * p.1.val + p.2.val = p.2.val + 512 * p.1.val
  omega

/-- The running sum that starts from 0 is the sum of the terms so far. -/
theorem accN_eq_sum (P : ℕ → EReal) (t : ℕ) : accN P t = ∑ i ∈ Finset.range (t + 1), P i := by
  induction t with
  | zero => rw [accN, zero_add, Finset.sum_range_one]
  | succ t ih => rw [accN, ih]; exact (Finset.sum_range_succ P (t + 1)).symm

/-! ## The divisor is not zero -/

/-- The sum of squares is nonnegative. -/
theorem ssq_nonneg (x : SX.Idx → EReal) (w : SW.Idx → EReal) (b : Fin 8) (e : Fin 1024) : 0 ≤ ssq x w b e :=
  Finset.sum_nonneg fun _ _ => mul_self_nonneg_ereal _

/-- The divisor is positive. -/
theorem den_pos (x : SX.Idx → EReal) (w : SW.Idx → EReal) (b : Fin 8) (e : Fin 1024) : 0 < den x w b e :=
  lt_of_lt_of_le eps_pos (le_add_of_nonneg_left (sqrt_nonneg_of_nonneg (ssq_nonneg x w b e)))

/-- The divisor is not zero. -/
theorem den_ne_zero (x : SX.Idx → EReal) (w : SW.Idx → EReal) (b : Fin 8) (e : Fin 1024) : den x w b e ≠ 0 :=
  (den_pos x w b e).ne'

/-! ## The two forms agree -/

/-- The eighth running sum is the sum of the eight blocks. -/
theorem accN_partN (x : SX.Idx → EReal) (wk wv : SW.Idx → EReal) (b : Fin 8) (d e : Fin 1024) :
    accN (partN x wk wv b d e) 7 = ∑ t : Fin 8, part x wk wv b d e t := by
  rw [accN_eq_sum, ← Fin.sum_univ_eq_sum_range (partN x wk wv b d e) 8]
  refine Finset.sum_congr rfl fun t _ => ?_
  rw [partN, dif_pos t.isLt]

/-- A quotient by the divisor is the projection scaled by the reciprocal. -/
theorem div_den_eq_scaled (x : SX.Idx → EReal) (w : SW.Idx → EReal) (b : Fin 8) (n : Fin 4096) (e : Fin 1024) :
    Ideal.div (proj x w b n e) (den x w b e) = scaled x w b n e :=
  div_eq_mul_div_one _ (den_ne_zero x w b e)

/-- The key–value matrix accumulated in blocks with reciprocals is the reference's. -/
theorem kvKer_eq_kvRef (x : SX.Idx → EReal) (wk wv : SW.Idx → EReal) (b : Fin 8) (d e : Fin 1024) :
    kvKer x wk wv b d e = kvRef x wk wv b d e := by
  unfold kvKer kvRef
  rw [accN_partN, ← sum_blocks fun n => Ideal.div (proj x wk b n d) (den x wk b d) * Ideal.div (proj x wv b n e) (den x wv b e)]
  refine congrArg (max · 0) (Finset.sum_congr rfl fun t _ => ?_)
  unfold part
  refine Finset.sum_congr rfl fun r _ => ?_
  rw [div_den_eq_scaled, div_den_eq_scaled]

/-- The two forms agree at every coordinate. -/
theorem Kc_eq_Gc (x : SX.Idx → EReal) (wqr wqi wk wv : SW.Idx → EReal) (b : Fin 8) (n : Fin 4096) (e : Fin 1024) :
    Kc x wqr wqi wk wv b n e = Gc x wqr wqi wk wv b n e := by
  unfold Kc Gc
  refine Finset.sum_congr rfl fun d _ => ?_
  rw [kvKer_eq_kvRef]

/-- The kernel's form of the result is the reference's form. -/
theorem K_eq_G (x : SX.Idx → EReal) (wqr wqi wk wv : SW.Idx → EReal) : K x wqr wqi wk wv = G x wqr wqi wk wv :=
  funext fun i => Kc_eq_Gc x wqr wqi wk wv (i 0) (i 1) (i 2)

end Cert.Spec

end
-- ==== Proof.ValueKI.Final.lean ====
/-
  The kernel's result array as a function of its arguments, at the ideal values, read off the run: the buffer contents
  at each boundary of @main are followed from the launch — the weights cast (the identity), the first pallas_call's
  three arrays (query, raw keys, raw values), the two reciprocal norms, the second pallas_call's key–value array, the
  third's output — and the last boundary's result buffer is the specification's kernel form of the five arguments,
  hence, by the algebra joining the two forms, the reference's.
-/
import proofs.«171922_j27779848471445_1_alg».proof.Proof.FrameKI.Run
import proofs.«171922_j27779848471445_1_alg».proof.Proof.ValueKI.Arr0
import proofs.«171922_j27779848471445_1_alg».proof.Proof.ValueKI.Arr1
import proofs.«171922_j27779848471445_1_alg».proof.Proof.ValueKI.Arr2
import proofs.«171922_j27779848471445_1_alg».proof.Proof.ValueKI.Host
import proofs.«171922_j27779848471445_1_alg».proof.Proof.ValueKI.ArrIsK
import proofs.«171922_j27779848471445_1_alg».proof.Proof.KIsG

set_option maxRecDepth 16384

noncomputable section

namespace Cert.KernelIdeal.HandV

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The five argument arrays on core `c`. -/
abbrev xA (c : Dev nD) : S8x4096x1024.Idx → EReal := m ((c : Thread nD τ).loc main_arg0)
abbrev wA1 (c : Dev nD) : S1024x1024.Idx → EReal := m ((c : Thread nD τ).loc main_arg1)
abbrev wA2 (c : Dev nD) : S1024x1024.Idx → EReal := m ((c : Thread nD τ).loc main_arg2)
abbrev wA3 (c : Dev nD) : S1024x1024.Idx → EReal := m ((c : Thread nD τ).loc main_arg3)
abbrev wA4 (c : Dev nD) : S1024x1024.Idx → EReal := m ((c : Thread nD τ).loc main_arg4)

/-! ## The first pallas_call's entry: the input as launched, the weights cast -/

theorem V1_arg0 (c : Dev nD) : V1 m ρ c main_arg0 = xA m c :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V1_v0 (c : Dev nD) : V1 m ρ c main_v0 = wA1 m c := host0_v0 (W0 m ρ c)
theorem V1_v1 (c : Dev nD) : V1 m ρ c main_v1 = wA2 m c := host0_v1 (W0 m ρ c)
theorem V1_v2 (c : Dev nD) : V1 m ρ c main_v2 = wA3 m c := host0_v2 (W0 m ρ c)
theorem V1_v3 (c : Dev nD) : V1 m ρ c main_v3 = wA4 m c := host0_v3 (W0 m ρ c)

/-! ## After the first pallas_call -/

theorem W2_q (c : Dev nD) : W2 m ρ c (Proc.devRef .tc main_v4_0) = queryArr (xA m c) (wA1 m c) (wA2 m c) := by
  refine (W2_arr m ρ c 5).trans ((arr0_5 (V1 m ρ) c).trans ?_)
  rw [V1_arg0, V1_v0, V1_v1]
theorem W2_k (c : Dev nD) : W2 m ρ c (Proc.devRef .tc main_v4_1) = projArr (xA m c) (wA3 m c) := by
  refine (W2_arr m ρ c 6).trans ((arr0_6 (V1 m ρ) c).trans ?_)
  rw [V1_arg0, V1_v2]
theorem W2_v (c : Dev nD) : W2 m ρ c (Proc.devRef .tc main_v4_2) = projArr (xA m c) (wA4 m c) := by
  refine (W2_arr m ρ c 7).trans ((arr0_7 (V1 m ρ) c).trans ?_)
  rw [V1_arg0, V1_v3]

/-! ## After the second stretch: the three arrays untouched, the two reciprocal norms computed -/

theorem V3_q (c : Dev nD) : V3 m ρ c main_v4_0 = queryArr (xA m c) (wA1 m c) (wA2 m c) :=
  (StableHlo.after_of_forall_not_mem (b := Proc.devRef .tc main_v4_0) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))).trans (W2_q m ρ c)
theorem V3_k (c : Dev nD) : V3 m ρ c main_v4_1 = projArr (xA m c) (wA3 m c) :=
  (StableHlo.after_of_forall_not_mem (b := Proc.devRef .tc main_v4_1) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))).trans (W2_k m ρ c)
theorem V3_v (c : Dev nD) : V3 m ρ c main_v4_2 = projArr (xA m c) (wA4 m c) :=
  (StableHlo.after_of_forall_not_mem (b := Proc.devRef .tc main_v4_2) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))).trans (W2_v m ρ c)
theorem V3_sk (c : Dev nD) : V3 m ρ c main_v16 = invNorm (projArr (xA m c) (wA3 m c)) :=
  (host1_v16_term (W2 m ρ c)).trans (congrArg invNorm (W2_k m ρ c))
theorem V3_sv (c : Dev nD) : V3 m ρ c main_v20 = invNorm (projArr (xA m c) (wA4 m c)) :=
  (host1_v20_term (W2 m ρ c)).trans (congrArg invNorm (W2_v m ρ c))

/-! ## After the second pallas_call -/

theorem V4_kv (c : Dev nD) : V4 m ρ c main_v21
    = kvArr (projArr (xA m c) (wA3 m c)) (projArr (xA m c) (wA4 m c)) (invNorm (projArr (xA m c) (wA3 m c))) (invNorm (projArr (xA m c) (wA4 m c))) := by
  refine (W4_arr m ρ c 4).trans ((arr1_4 (V3 m ρ) c).trans ?_)
  rw [V3_k, V3_v, V3_sk, V3_sv]
theorem V4_q (c : Dev nD) : V4 m ρ c main_v4_0 = queryArr (xA m c) (wA1 m c) (wA2 m c) :=
  (W4_of_ne m ρ c main_v4_0 (by decide)).trans (V3_q m ρ c)

/-! ## After the third pallas_call: the result -/

/-- The result buffer at the last boundary is the specification's kernel form of the arguments. -/
theorem W5_result_K (c : Dev nD) : W5 m ρ c (Proc.devRef .tc main_v22)
    = Cert.Spec.K (xA m c) (wA1 m c) (wA2 m c) (wA3 m c) (wA4 m c) := by
  refine (W5_arr m ρ c 2).trans ((arr2_2 (V4 m ρ) c).trans ?_)
  rw [V4_q, V4_kv]
  exact arr_is_K _ _ _ _ _

/-- And hence the reference's form. -/
theorem W5_result (c : Dev nD) : W5 m ρ c (Proc.devRef .tc main_v22)
    = Cert.Spec.G (xA m c) (wA1 m c) (wA2 m c) (wA3 m c) (wA4 m c) :=
  (W5_result_K m ρ c).trans (Cert.Spec.K_eq_G _ _ _ _ _)

/-- THE RUN, READ: every weakly fair execution of the idealized kernel terminates with its result at the
    specification of its arguments and the arguments unchanged. -/
theorem run_G : θ_run (defs (F := Ideal)) (onTc (τ := τ) (main (F := Ideal))) ⟨m, fun _ => 0, ρ⟩ (fun r => ∀ c : Dev nD,
      r.2.mem ((c.tc : Thread nD τ).loc main_v22) = Cert.Spec.G (xA m c) (wA1 m c) (wA2 m c) (wA3 m c) (wA4 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_v22 (by decide))).trans (W5_result m ρ c),
     (h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c),
     (h c _ (mem_uc main_arg4 (by decide))).trans (W5_main_arg4 m ρ c)⟩) (run_all m ρ)

end Cert.KernelIdeal.HandV

end
-- ==== Proof.RefIsG.lean ====
/-
  The reference program's result, read index by index, is the specification's reference form G.

  Each operation of the reference is read at an index given by its coordinates: a contraction is the sum over the
  contracted coordinate of the products, a reduction is its initial value 0 plus the sum over the reduced coordinate,
  a broadcast reads its operand at the coordinates it keeps, and the pointwise operations are the extended reals'.
-/
import proofs.«171922_j27779848471445_1_alg».proof.Proof.Gen.ReferenceIdeal.Read
import proofs.«171922_j27779848471445_1_alg».proof.Proof.Spec

noncomputable section

open scoped BigOperators

namespace Cert.ReferenceIdeal.RefValue

open Cert.ReferenceIdeal Cert.ReferenceIdeal.Read Idealize.ShloMosaic Idealize.ShloMosaic.ValueIdx Cert.Spec

variable (x : FVec Ideal S8x4096x1024 .f32) (w wqr wqi wk wv : FVec Ideal S1024x1024 .f32)

/-! ## The four projections -/

/-- The first contraction x · w at coordinates. -/
theorem v0_eq (b : Fin 8) (n : Fin 4096) (e : Fin 1024) :
    val_main_v0 (F := Ideal) x w (ix3 b n e) = proj x w b n e := by
  rw [val_main_v0_apply]
  unfold proj
  refine Finset.sum_congr rfl fun j _ => ?_
  rw [show lidx_main_v0 (ix3 b n e) j = ix3 b n j from
      funext fun a => by match a with | ⟨0, _⟩ => rfl | ⟨1, _⟩ => rfl | ⟨2, _⟩ => rfl,
    show ridx_main_v0 (ix3 b n e) j = ix2 j e from
      funext fun a => by match a with | ⟨0, _⟩ => rfl | ⟨1, _⟩ => rfl]

/-- The second contraction is the same operation. -/
theorem v1_eq (b : Fin 8) (n : Fin 4096) (e : Fin 1024) :
    val_main_v1 (F := Ideal) x w (ix3 b n e) = proj x w b n e := v0_eq x w b n e

/-- The third contraction is the same operation. -/
theorem v5_eq (b : Fin 8) (n : Fin 4096) (e : Fin 1024) :
    val_main_v5 (F := Ideal) x w (ix3 b n e) = proj x w b n e := v0_eq x w b n e

/-- The fourth contraction is the same operation. -/
theorem v6_eq (b : Fin 8) (n : Fin 4096) (e : Fin 1024) :
    val_main_v6 (F := Ideal) x w (ix3 b n e) = proj x w b n e := v0_eq x w b n e

/-! ## The gated query -/

/-- The product of the two projections' positive parts. -/
theorem v4_eq (b : Fin 8) (n : Fin 4096) (e : Fin 1024) :
    val_main_v4 (F := Ideal) x wqr wqi (ix3 b n e) = query x wqr wqi b n e := by
  rw [val_main_v4_apply, val_main_v2_apply, val_main_v3_apply, val_main_call0_v0_apply, val_main_call1_v0_apply,
    val_main_call0_cst_apply, val_main_call1_cst_apply, v0_eq, v1_eq]
  simp only [Ideal.mulf_def, Ideal.maximumf_def, Ideal.ofBits_def, Ideal.ofBits_zero_f32]
  rfl

/-! ## The key's divisor and quotient -/

/-- The key projection's sum of squares over the rows: the reduction's initial value is 0. -/
theorem call2_v1_eq (b : Fin 8) (e : Fin 1024) :
    val_main_call2_v1 (F := Ideal) x w (ix2 b e) = ssq x w b e := by
  rw [val_main_call2_v1_apply, val_main_call2_cst_apply, Ideal.ofBits_def, Ideal.ofBits_zero_f32, zero_add]
  unfold ssq
  refine Finset.sum_congr rfl fun k _ => ?_
  rw [show idx_main_call2_v1 (ix2 b e) k = ix3 b k e from
      funext fun a => by match a with | ⟨0, _⟩ => rfl | ⟨1, _⟩ => rfl | ⟨2, _⟩ => rfl,
    val_main_call2_v0_apply, v5_eq, Ideal.mulf_def]

/-- The key's divisor, kept with a unit middle axis. -/
theorem v9_eq (b : Fin 8) (e : Fin 1024) :
    val_main_v9 (F := Ideal) x w (ix3 b (⟨0, Nat.one_pos⟩ : Fin 1) e) = den x w b e := by
  rw [val_main_v9_apply, val_main_v7_apply, val_main_call2_v2_apply, val_main_v8_apply, val_main_cst_apply,
    show idx_main_call2_v2 (ix3 b (⟨0, Nat.one_pos⟩ : Fin 1) e) = ix2 b e from
      funext fun a => by match a with | ⟨0, _⟩ => rfl | ⟨1, _⟩ => rfl,
    call2_v1_eq]
  simp only [Ideal.addf_def, Ideal.hostUnary_sqrt_def, Ideal.ofBits_def]
  rfl

/-- The key's divisor broadcast over the rows. -/
theorem v10_eq (b : Fin 8) (n : Fin 4096) (e : Fin 1024) :
    val_main_v10 (F := Ideal) x w (ix3 b n e) = den x w b e := by
  rw [val_main_v10_apply,
    show idx_main_v10 (ix3 b n e) = ix3 b (⟨0, Nat.one_pos⟩ : Fin 1) e from
      funext fun a => by match a with | ⟨0, _⟩ => rfl | ⟨1, _⟩ => rfl | ⟨2, _⟩ => rfl,
    v9_eq]

/-- The normalised key. -/
theorem v11_eq (b : Fin 8) (n : Fin 4096) (e : Fin 1024) :
    val_main_v11 (F := Ideal) x w (ix3 b n e) = Ideal.div (proj x w b n e) (den x w b e) := by
  rw [val_main_v11_apply, v5_eq, v10_eq, Ideal.hostDivf_def]

/-! ## The value's divisor and quotient -/

/-- The value projection's sum of squares over the rows. -/
theorem call3_v1_eq (b : Fin 8) (e : Fin 1024) :
    val_main_call3_v1 (F := Ideal) x w (ix2 b e) = ssq x w b e := by
  rw [val_main_call3_v1_apply, val_main_call3_cst_apply, Ideal.ofBits_def, Ideal.ofBits_zero_f32, zero_add]
  unfold ssq
  refine Finset.sum_congr rfl fun k _ => ?_
  rw [show idx_main_call3_v1 (ix2 b e) k = ix3 b k e from
      funext fun a => by match a with | ⟨0, _⟩ => rfl | ⟨1, _⟩ => rfl | ⟨2, _⟩ => rfl,
    val_main_call3_v0_apply, v6_eq, Ideal.mulf_def]

/-- The value's divisor, kept with a unit middle axis. -/
theorem v14_eq (b : Fin 8) (e : Fin 1024) :
    val_main_v14 (F := Ideal) x w (ix3 b (⟨0, Nat.one_pos⟩ : Fin 1) e) = den x w b e := by
  rw [val_main_v14_apply, val_main_v12_apply, val_main_call3_v2_apply, val_main_v13_apply, val_main_cst_0_apply,
    show idx_main_call3_v2 (ix3 b (⟨0, Nat.one_pos⟩ : Fin 1) e) = ix2 b e from
      funext fun a => by match a with | ⟨0, _⟩ => rfl | ⟨1, _⟩ => rfl,
    call3_v1_eq]
  simp only [Ideal.addf_def, Ideal.hostUnary_sqrt_def, Ideal.ofBits_def]
  rfl

/-- The value's divisor broadcast over the rows. -/
theorem v15_eq (b : Fin 8) (n : Fin 4096) (e : Fin 1024) :
    val_main_v15 (F := Ideal) x w (ix3 b n e) = den x w b e := by
  rw [val_main_v15_apply,
    show idx_main_v15 (ix3 b n e) = ix3 b (⟨0, Nat.one_pos⟩ : Fin 1) e from
      funext fun a => by match a with | ⟨0, _⟩ => rfl | ⟨1, _⟩ => rfl | ⟨2, _⟩ => rfl,
    v14_eq]

/-- The normalised value. -/
theorem v16_eq (b : Fin 8) (n : Fin 4096) (e : Fin 1024) :
    val_main_v16 (F := Ideal) x w (ix3 b n e) = Ideal.div (proj x w b n e) (den x w b e) := by
  rw [val_main_v16_apply, v6_eq, v15_eq, Ideal.hostDivf_def]

/-! ## The key–value matrix and the result -/

/-- The contraction of the normalised key and value over the rows. -/
theorem v17_eq (b : Fin 8) (d e : Fin 1024) :
    val_main_v17 (F := Ideal) x wk wv (ix3 b d e)
      = ∑ n : Fin 4096, Ideal.div (proj x wk b n d) (den x wk b d) * Ideal.div (proj x wv b n e) (den x wv b e) := by
  rw [val_main_v17_apply]
  refine Finset.sum_congr rfl fun k _ => ?_
  rw [show lidx_main_v17 (ix3 b d e) k = ix3 b k d from
      funext fun a => by match a with | ⟨0, _⟩ => rfl | ⟨1, _⟩ => rfl | ⟨2, _⟩ => rfl,
    show ridx_main_v17 (ix3 b d e) k = ix3 b k e from
      funext fun a => by match a with | ⟨0, _⟩ => rfl | ⟨1, _⟩ => rfl | ⟨2, _⟩ => rfl,
    v11_eq, v16_eq]

/-- Its positive part is the reference's key–value matrix. -/
theorem v18_eq (b : Fin 8) (d e : Fin 1024) :
    val_main_v18 (F := Ideal) x wk wv (ix3 b d e) = kvRef x wk wv b d e := by
  rw [val_main_v18_apply, v17_eq, val_main_call4_v0_apply, val_main_call4_cst_apply]
  simp only [Ideal.maximumf_def, Ideal.ofBits_def, Ideal.ofBits_zero_f32]
  rfl

/-- THE REFERENCE IS G: the reference's result, as a function of its five arguments, is the specification's
    reference form. -/
theorem ref_is_G (x : FVec Ideal S8x4096x1024 .f32) (wqr wqi wk wv : FVec Ideal S1024x1024 .f32) :
    val_main_v19 (F := Ideal) x wqr wqi wk wv = Cert.Spec.G x wqr wqi wk wv := by
  funext i
  obtain ⟨b, n, e, rfl⟩ : ∃ (b : Fin 8) (n : Fin 4096) (e : Fin 1024), i = ix3 b n e := ⟨i 0, i 1, i 2, eq_ix3 i⟩
  rw [val_main_v19_apply, G_ix3]
  unfold Gc
  refine Finset.sum_congr rfl fun d _ => ?_
  rw [show lidx_main_v19 (ix3 b n e) d = ix3 b n d from
      funext fun a => by match a with | ⟨0, _⟩ => rfl | ⟨1, _⟩ => rfl | ⟨2, _⟩ => rfl,
    show ridx_main_v19 (ix3 b n e) d = ix3 b d e from
      funext fun a => by match a with | ⟨0, _⟩ => rfl | ⟨1, _⟩ => rfl | ⟨2, _⟩ => rfl,
    v4_eq, v18_eq]

end Cert.ReferenceIdeal.RefValue

end
-- ==== Proof.RefRun.lean ====
/-
  The reference program's run, with its result stated as the specification's reference form G of the argument
  arrays, and its frame: every weakly fair execution terminates with the arguments unchanged.
-/
import proofs.«171922_j27779848471445_1_alg».proof.Defs
import proofs.«171922_j27779848471445_1_alg».proof.Proof.RefIsG

noncomputable section

open Idealize.ShloMosaic Idealize.ShloMosaic.TcCoe Idealize.SL.Sem

namespace Cert.ReferenceIdeal.RefValue

open Cert.ReferenceIdeal

/-- The reference runs and ends with its result at G of its argument arrays and the arguments unchanged. -/
theorem run_G (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v19)
          = Cert.Spec.G (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨by rw [(h c).1, Read.val_main_v19_eq, ref_is_G], (h c).2⟩)
    (Cert.ReferenceIdeal.Value.run (F := Ideal) m ρ)

end Cert.ReferenceIdeal.RefValue

namespace Cert.Proof.RefClaims

/-- The reference's frame claim: it runs and its arguments end unchanged. -/
theorem frame_ri [hReferenceIdeal : Cert.ReferenceIdeal.Facts] [hPre_finite_inputs : Cert.Pre_finite_inputs.Facts] :
    Cert.frame_ReferenceIdeal := fun m ρ _ =>
  (θ_run Cert.ReferenceIdeal.defs _ _).mono (fun _ h c => (h c).2) (Cert.ReferenceIdeal.Value.run (F := Ideal) m ρ)

end Cert.Proof.RefClaims

end
-- ==== Proof.lean ====
/-
  The certificate's five claims for a linear-attention kernel written as three pallas_calls — the four projections of the
  input, the key–value matrix accumulated over eight blocks of the sequence axis in a carried scratch, the product of
  the gated query with it — against its jnp reference.

  The two programs agree on every extended real: the kernel multiplies the raw keys and values by the reciprocal
  1 / (‖·‖ + ε) where the reference divides by ‖·‖ + ε, and ‖·‖ + ε > 0 always (a square root of a sum of squares plus a
  positive constant), so the two are one value; the kernel adds the key–value sum block by block where the reference sums
  the 4096 rows at once, and addition on the extended reals is associative and commutative; every change of float
  format is the identity. The precondition is not used.

  Frames: each program runs to the end, faults nowhere and leaves its arguments as launched — for the kernel (at the
  word level and idealized) from the run through its three pipelines, for the reference from its run of host
  operations. The ideal pass rewrote nothing, so there is nothing to preserve.
-/
import proofs.«171922_j27779848471445_1_alg».proof.Defs
import proofs.«171922_j27779848471445_1_alg».proof.Proof.Gen.Kernel
import proofs.«171922_j27779848471445_1_alg».proof.Proof.Gen.KernelIdeal
import proofs.«171922_j27779848471445_1_alg».proof.Proof.Gen.ReferenceIdeal
import proofs.«171922_j27779848471445_1_alg».proof.Proof.Gen.Pre_finite_inputs
import proofs.«171922_j27779848471445_1_alg».proof.Proof.FrameK.Run
import proofs.«171922_j27779848471445_1_alg».proof.Proof.FrameKI.Run
import proofs.«171922_j27779848471445_1_alg».proof.Proof.ValueKI.Final
import proofs.«171922_j27779848471445_1_alg».proof.Proof.RefRun
import Idealize.ShloMosaic.Adequacy
import Idealize.ShloMosaic.Init

noncomputable section

namespace Cert.Proof

open Idealize.ShloMosaic Idealize.SL.Sem

section Claims

variable [hKernel : Cert.Kernel.Facts] [hKernelIdeal : Cert.KernelIdeal.Facts] [hReferenceIdeal : Cert.ReferenceIdeal.Facts]
  [hPre_finite_inputs : Cert.Pre_finite_inputs.Facts]

theorem frame_k : Cert.frame_Kernel := fun m ρ _ => Cert.Kernel.Hand.frame m ρ
theorem frame_ki : Cert.frame_KernelIdeal := fun m ρ _ => Cert.KernelIdeal.Hand.frame m ρ

/-- Both programs end with their results at one function of the arguments: the kernel's run read through its three
    pipelines, the reference's through its host operations, from memories that agree on the arguments. -/
theorem algebraic : Cert.algebraic_KernelIdeal_ReferenceIdeal := by
  intro m ρ m' ρ' _ hagree
  refine ⟨_, Cert.KernelIdeal.HandV.run_G m ρ, ?_⟩
  refine (θ_run Cert.ReferenceIdeal.defs _ _).mono (fun _ h c => ⟨(h c).1.trans ?_, (h c).2⟩)
    (Cert.ReferenceIdeal.RefValue.run_G m' ρ')
  rw [(hagree c).1, (hagree c).2.1, (hagree c).2.2.1, (hagree c).2.2.2.1, (hagree c).2.2.2.2]

end Claims

theorem claim : Cert.Claim := ⟨Cert.Kernel.Gen.facts, Cert.KernelIdeal.Gen.facts, Cert.ReferenceIdeal.Gen.facts, Cert.Pre_finite_inputs.Gen.facts,
  frame_k, frame_ki, Cert.Proof.RefClaims.frame_ri, trivial, algebraic⟩

end Cert.Proof

end
